-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S2x1x2048 : Shape := ⟨3, ![2, 1, 2048]⟩
abbrev S8192x2048 : Shape := ⟨2, ![8192, 2048]⟩
abbrev S8192 : Shape := ⟨1, ![8192]⟩
abbrev S32000x3072 : Shape := ⟨2, ![32000, 3072]⟩
abbrev S32000 : Shape := ⟨1, ![32000]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2x1x2048 : S_.BroadcastsInDim S2x1x2048 (![] : Fin 0 → Fin S2x1x2048.rank)
  reducesTo_S2x1x2048_S_d0_1_2 : S2x1x2048.ReducesTo [0, 1, 2] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S32000x3072 : S_.BroadcastsInDim S32000x3072 (![] : Fin 0 → Fin S32000x3072.rank)
  reducesTo_S32000x3072_S_d0_1 : S32000x3072.ReducesTo [0, 1] S_
  bcast_S_S32000 : S_.BroadcastsInDim S32000 (![] : Fin 0 → Fin S32000.rank)
  reducesTo_S32000_S_d0 : S32000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8192 .f32) (main_arg12 : FVec F S32000x3072 .f32) (main_arg13 : FVec F S32000 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192 .f32 := Host.absf main_arg11
  let main_cst_20 : FVec F S_ .f32 := constant S_ .f32 0x7F800000#32
  let main_v55 : FVec F S8192 .f32 := broadcastInDim S8192 ![] bcast_S_S8192 main_cst_20
  let main_v56 : IVec S8192 1 := cmpf .olt main_v54 main_v55
  let main_c_21 : IVec S_ 1 := constantI S_ 1 1#1
  let main_v57 : IVec S_ 1 := (fun x v => Host.reduce IntOp.andi x v reducesTo_S8192_S_d0 h_S_) main_v56 main_c_21
  let main_v58 : IVec S_ 1 := andi main_v53 main_v57
  let main_v59 : FVec F S32000x3072 .f32 := Host.absf main_arg12
  let main_cst_22 : FVec F S_ .f32 := constant S_ .f32 0x7F800000#32
  let main_v60 : FVec F S32000x3072 .f32 := broadcastInDim S32000x3072 ![] bcast_S_S32000x3072 main_cst_22
  let main_v61 : IVec S32000x3072 1 := cmpf .olt main_v59 main_v60
  let main_c_23 : IVec S_ 1 := constantI S_ 1 1#1
  let main_v62 : IVec S_ 1 := (fun x v => Host.reduce IntOp.andi x v reducesTo_S32000x3072_S_d0_1 h_S_) main_v61 main_c_23
  let main_v63 : IVec S_ 1 := andi main_v58 main_v62
  let main_v64 : FVec F S32000 .f32 := Host.absf main_arg13
  let main_cst_24 : FVec F S_ .f32 := constant S_ .f32 0x7F800000#32
  let main_v65 : FVec F S32000 .f32 := broadcastInDim S32000 ![] bcast_S_S32000 main_cst_24
  let main_v66 : IVec S32000 1 := cmpf .olt main_v64 main_v65
  let main_c_25 : IVec S_ 1 := constantI S_ 1 1#1
  let main_v67 : IVec S_ 1 := (fun x v => Host.reduce IntOp.andi x v reducesTo_S32000_S_d0 h_S_) main_v66 main_c_25
  fn_part4 (F := F) main_v63 main_v67

def fn_part2 {F : FTy → Type} [FloatOps F] (main_arg7 : FVec F S8192 .f32) (main_arg8 : FVec F S8192x2048 .f32) (main_arg9 : FVec F S8192x2048 .f32) (main_arg10 : FVec F S8192 .f32) (main_arg11 : FVec F S8192 .f32) (main_arg12 : FVec F S32000x3072 .f32) (main_arg13 : FVec F S32000 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192x2048 .f32 := Host.absf main_arg8
  let main_cst_14 : FVec F S_ .f32 := constant S_ .f32 0x7F800000#32
  let main_v40 : FVec F S8192x2048 .f32 := broadcastInDim S8192x2048 ![] bcast_S_S8192x2048 main_cst_14
  let main_v41 : IVec S8192x2048 1 := cmpf .olt main_v39 main_v40
  let main_c_15 : IVec S_ 1 := constantI S_ 1 1#1
  let main_v42 : IVec S_ 1 := (fun x v => Host.reduce IntOp.andi x v reducesTo_S8192x2048_S_d0_1 h_S_) main_v41 main_c_15
  let main_v43 : IVec S_ 1 := andi main_v38 main_v42
  let main_v44 : FVec F S8192x2048 .f32 := Host.absf main_arg9
  let main_cst_16 : FVec F S_ .f32 := constant S_ .f32 0x7F800000#32
  let main_v45 : FVec F S8192x2048 .f32 := broadcastInDim S8192x2048 ![] bcast_S_S8192x2048 main_cst_16
  let main_v46 : IVec S8192x2048 1 := cmpf .olt main_v44 main_v45
  let main_c_17 : IVec S_ 1 := constantI S_ 1 1#1
  let main_v47 : IVec S_ 1 := (fun x v => Host.reduce IntOp.andi x v reducesTo_S8192x2048_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_arg13 main_v48 main_v49 main_v50

def fn_part1 {F : FTy → Type} [FloatOps F] (main_arg4 : FVec F S8192x2048 .f32) (main_arg5 : FVec F S8192x2048 .f32) (main_arg6 : FVec F S8192 .f32) (main_arg7 : FVec F S8192 .f32) (main_arg8 : FVec F S8192x2048 .f32) (main_arg9 : FVec F S8192x2048 .f32) (main_arg10 : FVec F S8192 .f32) (main_arg11 : FVec F S8192 .f32) (main_arg12 : FVec F S32000x3072 .f32) (main_arg13 : FVec F S32000 .f32) (main_v13 : IVec S_ 1) (main_v16 : IVec S2x1x2048 1) : IVec S_ 1 :=
  let main_c_5 : IVec S_ 1 := constantI S_ 1 1#1
  let main_v17 : IVec S_ 1 := (fun x v => Host.reduce IntOp.andi x v reducesTo_S2x1x2048_S_d0_1_2 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1x1024 .f32) (main_arg1 : FVec F S1x1024 .f32) (main_arg2 : FVec F S2x1x2048 .f32) (main_arg3 : FVec F S2x1x2048 .f32) (main_arg4 : FVec F S8192x2048 .f32) (main_arg5 : FVec F S8192x2048 .f32) (main_arg6 : FVec F S8192 .f32) (main_arg7 : FVec F S8192 .f32) (main_arg8 : FVec F S8192x2048 .f32) (main_arg9 : FVec F S8192x2048 .f32) (main_arg10 : FVec F S8192 .f32) (main_arg11 : FVec F S8192 .f32) (main_arg12 : FVec F S32000x3072 .f32) (main_arg13 : FVec F S32000 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2x1x2048 .f32 := Host.absf main_arg2
  let main_cst_2 : FVec F S_ .f32 := constant S_ .f32 0x7F800000#32
  let main_v10 : FVec F S2x1x2048 .f32 := broadcastInDim S2x1x2048 ![] bcast_S_S2x1x2048 main_cst_2
  let main_v11 : IVec S2x1x2048 1 := cmpf .olt main_v9 main_v10
  let main_c_3 : IVec S_ 1 := constantI S_ 1 1#1
  let main_v12 : IVec S_ 1 := (fun x v => Host.reduce IntOp.andi x v reducesTo_S2x1x2048_S_d0_1_2 h_S_) main_v11 main_c_3
  let main_v13 : IVec S_ 1 := andi main_v8 main_v12
  let main_v14 : FVec F S2x1x2048 .f32 := Host.absf main_arg3
  let main_cst_4 : FVec F S_ .f32 := constant S_ .f32 0x7F800000#32
  let main_v15 : FVec F S2x1x2048 .f32 := broadcastInDim S2x1x2048 ![] bcast_S_S2x1x2048 main_cst_4
  let main_v16 : IVec S2x1x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S1x1024 : Shape := ⟨2, ![1, 1024]⟩
abbrev S2x1x2048 : Shape := ⟨3, ![2, 1, 2048]⟩
abbrev S8192x2048 : Shape := ⟨2, ![8192, 2048]⟩
abbrev S8192 : Shape := ⟨1, ![8192]⟩
abbrev S32000x3072 : Shape := ⟨2, ![32000, 3072]⟩
abbrev S32000 : Shape := ⟨1, ![32000]⟩
abbrev S1x2048 : Shape := ⟨2, ![1, 2048]⟩
abbrev S1x1x2048 : Shape := ⟨3, ![1, 1, 2048]⟩
abbrev S4x2048x2048 : Shape := ⟨3, ![4, 2048, 2048]⟩
abbrev S4x2048 : Shape := ⟨2, ![4, 2048]⟩
abbrev S4x128x2048 : Shape := ⟨3, ![4, 128, 2048]⟩
abbrev S4x128 : Shape := ⟨2, ![4, 128]⟩
abbrev S1x128 : Shape := ⟨2, ![1, 128]⟩
abbrev S1x128x2048 : Shape := ⟨3, ![1, 128, 2048]⟩
abbrev S128x2048 : Shape := ⟨2, ![128, 2048]⟩
abbrev S1x3072 : Shape := ⟨2, ![1, 3072]⟩
abbrev S1x32000 : Shape := ⟨2, ![1, 32000]⟩
abbrev S640x3072 : Shape := ⟨2, ![640, 3072]⟩
abbrev S1x640 : Shape := ⟨2, ![1, 640]⟩
abbrev S1 : Shape := ⟨1, ![1]⟩
abbrev S1x1 : Shape := ⟨2, ![1, 1]⟩

abbrev nBuf : Space → Nat
  | .hbm => 45
  | .vmem => 41
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S2x1x2048, .f32⟩
  | .hbm, ⟨3, _⟩ => ⟨S2x1x2048, .f32⟩
  | .hbm, ⟨4, _⟩ => ⟨S8192x2048, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S8192x2048, .f32⟩
  | .hbm, ⟨9, _⟩ => ⟨S8192x2048, .f32⟩
  | .hbm, ⟨10, _⟩ => ⟨S8192, .f32⟩
  | .hbm, ⟨11, _⟩ => ⟨S8192, .f32⟩
  | .hbm, ⟨12, _⟩ => ⟨S32000x3072, .f32⟩
  | .hbm, ⟨13, _⟩ => ⟨S32000, .f32⟩
  | .hbm, ⟨14, _⟩ => ⟨S1x2048, .f32⟩
  | .hbm, ⟨15, _⟩ => ⟨S1x1x2048, .f32⟩
  | .hbm, ⟨16, _⟩ => ⟨S1x2048, .f32⟩
  | .hbm, ⟨17, _⟩ => ⟨S1x1x2048, .f32⟩
  | .hbm, ⟨18, _⟩ => ⟨S1x2048, .f32⟩
  | .hbm, ⟨19, _⟩ => ⟨S4x2048x2048, .f32⟩
  | .hbm, ⟨20, _⟩ => ⟨S4x2048x2048, .f32⟩
  | .hbm, ⟨21, _⟩ => ⟨S4x2048, .f32⟩
  | .hbm, ⟨22, _⟩ => ⟨S4x2048, .f32⟩
  | .hbm, ⟨23, _⟩ => ⟨S1x2048, .f32⟩
  | .hbm, ⟨24, _⟩ => ⟨S1x2048, .f32⟩
  | .hbm, ⟨25, _⟩ => ⟨S1x1x2048, .f32⟩
  | .hbm, ⟨26, _⟩ => ⟨S1x2048, .f32⟩
  | .hbm, ⟨27, _⟩ => ⟨S1x1x2048, .f32⟩
  | .hbm, ⟨28, _⟩ => ⟨S1x2048, .f32⟩
  | .hbm, ⟨29, _⟩ => ⟨S4x2048x2048, .f32⟩
  | .hbm, ⟨30, _⟩ => ⟨S4x2048x2048, .f32⟩
  | .hbm, ⟨31, _⟩ => ⟨S4x2048, .f32⟩
  | .hbm, ⟨32, _⟩ => ⟨S4x2048, .f32⟩
  | .hbm, ⟨33, _⟩ => ⟨S1x2048, .f32⟩
  | .hbm, ⟨34, _⟩ => ⟨S1x2048, .f32⟩
  | .hbm, ⟨35, _⟩ => ⟨S1x3072, .f32⟩
  | .hbm, ⟨36, _⟩ => ⟨S1x32000, .f32⟩
  | .hbm, ⟨37, _⟩ => ⟨S1x32000, .f32⟩
  | .hbm, ⟨38, _⟩ => ⟨S1x32000, .f32⟩
  | .hbm, ⟨39, _⟩ => ⟨S1x1x2048, .f32⟩
  | .hbm, ⟨40, _⟩ => ⟨S1x1x2048, .f32⟩
  | .hbm, ⟨41, _⟩ => ⟨S2x1x2048, .f32⟩
  | .hbm, ⟨42, _⟩ => ⟨S1x1x2048, .f32⟩
  | .hbm, ⟨43, _⟩ => ⟨S1x1x2048, .f32⟩
  | .hbm, ⟨44, _⟩ => ⟨S2x1x2048, .f32⟩
  | .local _ .vmem, ⟨0, _⟩ => ⟨S1x2048, .f32⟩
  | .local _ .vmem, ⟨1, _⟩ => ⟨S1x2048, .f32⟩
  | .local _ .vmem, ⟨2, _⟩ => ⟨S4x128x2048, .f32⟩
  | .local _ .vmem, ⟨3, _⟩ => ⟨S4x128x2048, .f32⟩
  | .local _ .vmem, ⟨4, _⟩ => ⟨S4x128x2048, .f32⟩
  | .local _ .vmem, ⟨5, _⟩ => ⟨S4x128x2048, .f32⟩
  | .local _ .vmem, ⟨6, _⟩ => ⟨S4x128, .f32⟩
  | .local _ .vmem, ⟨7, _⟩ => ⟨S4x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x2048, .f32⟩
  | .local _ .vmem, ⟨17, _⟩ => ⟨S1x2048, .f32⟩
  | .local _ .vmem, ⟨18, _⟩ => ⟨S4x128x2048, .f32⟩
  | .local _ .vmem, ⟨19, _⟩ => ⟨S4x128x2048, .f32⟩
  | .local _ .vmem, ⟨20, _⟩ => ⟨S4x128x2048, .f32⟩
  | .local _ .vmem, ⟨21, _⟩ => ⟨S4x128x2048, .f32⟩
  | .local _ .vmem, ⟨22, _⟩ => ⟨S4x128, .f32⟩
  | .local _ .vmem, ⟨23, _⟩ => ⟨S4x128, .f32⟩
  | .local _ .vmem, ⟨24, _⟩ => ⟨S4x128, .f32⟩
  | .local _ .vmem, ⟨25, _⟩ => ⟨S4x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x3072, .f32⟩
  | .local _ .vmem, ⟨33, _⟩ => ⟨S640x3072, .f32⟩
  | .local _ .vmem, ⟨34, _⟩ => ⟨S640x3072, .f32⟩
  | .local _ .vmem, ⟨35, _⟩ => ⟨S1x640, .f32⟩
  | .local _ .vmem, ⟨36, _⟩ => ⟨S1x640, .f32⟩
  | .local _ .vmem, ⟨37, _⟩ => ⟨S1x640, .f32⟩
  | .local _ .vmem, ⟨38, _⟩ => ⟨S1x640, .f32⟩
  | .local _ .vmem, ⟨39, _⟩ => ⟨S1x32000, .f32⟩
  | .local _ .vmem, ⟨40, _⟩ => ⟨S1x32000, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc3_stg0_0 : Ref sig .tc := ⟨.vmem, 39, rfl⟩
abbrev cc3_stg1_0 : Ref sig .tc := ⟨.vmem, 40, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc2_sem0_0 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc3_sem0_0 : DmaSem sig := 39
abbrev cc3_sem1_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x3072 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S640x3072 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x640 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x32000 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x32000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  concatenates_S1x1024_S1x1024_S1x2048_d1 : Shape.Concatenates [S1x1024, S1x1024] S1x2048 1
  slices_S2x1x2048_S1x1x2048_0_0_0 : S2x1x2048.Slices ![0, 0, 0] S1x1x2048
  shapeCasts_S1x1x2048_S1x2048 : S1x1x2048.ShapeCasts S1x2048
  shapeCasts_S8192x2048_S4x2048x2048 : S8192x2048.ShapeCasts S4x2048x2048
  shapeCasts_S8192_S4x2048 : S8192.ShapeCasts S4x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S4x128x2048_S4x128x2048_0_0_0 : ∀ a, (![0, 0, 0] : Fin 3 → Nat) a + S4x128x2048.size a ≤ S4x128x2048.size a
  h_S4x128x2048 : 0 < S4x128x2048.numel
  shapeCasts_S4x128x2048_S4x128x2048 : S4x128x2048.ShapeCasts S4x128x2048
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S4x128x2048_o0_0_0_S1x128x2048 : S4x128x2048.Slices ![0, 0, 0] S1x128x2048
  shapeCasts_S1x128x2048_S128x2048 : S1x128x2048.ShapeCasts S128x2048
  slices_S4x128_o0_0_S1x128 : S4x128.Slices ![0, 0] S1x128
  slices_S4x128x2048_o1_0_0_S1x128x2048 : S4x128x2048.Slices ![1, 0, 0] S1x128x2048
  slices_S4x128_o1_0_S1x128 : S4x128.Slices ![1, 0] S1x128
  slices_S4x128x2048_o2_0_0_S1x128x2048 : S4x128x2048.Slices ![2, 0, 0] S1x128x2048
  slices_S4x128_o2_0_S1x128 : S4x128.Slices ![2, 0] S1x128
  slices_S4x128x2048_o3_0_0_S1x128x2048 : S4x128x2048.Slices ![3, 0, 0] S1x128x2048
  slices_S4x128_o3_0_S1x128 : S4x128.Slices ![3, 0] S1x128
  slices_S2x1x2048_S1x1x2048_1_0_0 : S2x1x2048.Slices ![1, 0, 0] S1x1x2048
  concatenates_S1x1024_S1x2048_S1x3072_d1 : Shape.Concatenates [S1x1024, S1x2048] S1x3072 1
  shapeCasts_S32000_S1x32000 : S32000.ShapeCasts S1x32000
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S640x3072_S640x3072_0_0 : ∀ a, (![0, 0] : Fin 2 → Nat) a + S640x3072.size a ≤ S640x3072.size a
  h_S640x3072 : 0 < S640x3072.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  inb_S1x32000_S1x32000_0_0 : ∀ a, (![0, 0] : Fin 2 → Nat) a + S1x32000.size a ≤ S1x32000.size a
  h_S1x32000 : 0 < S1x32000.numel
  shapeCasts_S1x32000_S1x32000 : S1x32000.ShapeCasts S1x32000
  reduces_S1x32000_S1 : S1x32000.Reduces [1] S1
  shapeCasts_S1_S1x1 : S1.ShapeCasts S1x1
  broadcasts_S1x1_S1x32000 : S1x1.Broadcasts S1x32000
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  dot_S1x2048_S128x2048_S1x128_1_1_0_0_n_n_wf : DotDims.WF S1x2048 S128x2048 S1x128 [1] [1] [0] [0] [] []
  dot_S1x3072_S640x3072_S1x640_1_1_0_0_n_n_wf : DotDims.WF S1x3072 S640x3072 S1x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x2048.size a ≤ S4x2048x2048.size a
  hwx0_2 : ∀ i : grid0.Coords, EltTy.bits .f32 = 32 ∨ (Rect.block (s := S4x2048x2048) S4x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x128x2048.size a ≤ S4x2048x2048.size a
  hwx0_3 : ∀ i : grid0.Coords, EltTy.bits .f32 = 32 ∨ (Rect.block (s := S4x2048x2048) S4x128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x2048.size a
  hwx0_4 : ∀ i : grid0.Coords, EltTy.bits .f32 = 32 ∨ (Rect.block (s := S4x2048) S4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x2048.size a
  hwx0_5 : ∀ i : grid0.Coords, EltTy.bits .f32 = 32 ∨ (Rect.block (s := S4x2048) S4x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x2048.size a
  hwx0_7 : ∀ i : grid0.Coords, EltTy.bits .f32 = 32 ∨ (Rect.block (s := S1x2048) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x2048.size a
  hwx0_8 : ∀ i : grid0.Coords, EltTy.bits .f32 = 32 ∨ (Rect.block (s := S1x2048) S1x128.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128x2048.size a ≤ S4x2048x2048.size a
  hwx1_2 : ∀ i : grid1.Coords, EltTy.bits .f32 = 32 ∨ (Rect.block (s := S4x2048x2048) S4x128x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x2048.size a ≤ S4x2048x2048.size a
  hwx1_3 : ∀ i : grid1.Coords, EltTy.bits .f32 = 32 ∨ (Rect.block (s := S4x2048x2048) S4x128x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x128.size a ≤ S4x2048.size a
  hwx1_4 : ∀ i : grid1.Coords, EltTy.bits .f32 = 32 ∨ (Rect.block (s := S4x2048) S4x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x128.size a ≤ S4x2048.size a
  hwx1_5 : ∀ i : grid1.Coords, EltTy.bits .f32 = 32 ∨ (Rect.block (s := S4x2048) S4x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x2048.size a
  hwx1_6 : ∀ i : grid1.Coords, EltTy.bits .f32 = 32 ∨ (Rect.block (s := S1x2048) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x2048.size a
  hwx1_7 : ∀ i : grid1.Coords, EltTy.bits .f32 = 32 ∨ (Rect.block (s := S1x2048) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x2048.size a
  hwx1_8 : ∀ i : grid1.Coords, EltTy.bits .f32 = 32 ∨ (Rect.block (s := S1x2048) S1x128.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x3072.size a ≤ S1x3072.size a
  hwx2_0 : ∀ i : grid2.Coords, EltTy.bits .f32 = 32 ∨ (Rect.block (s := S1x3072) S1x3072.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S640x3072.size a ≤ S32000x3072.size a
  hwx2_1 : ∀ i : grid2.Coords, EltTy.bits .f32 = 32 ∨ (Rect.block (s := S32000x3072) S640x3072.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x640.size a ≤ S1x32000.size a
  hwx2_2 : ∀ i : grid2.Coords, EltTy.bits .f32 = 32 ∨ (Rect.block (s := S1x32000) S1x640.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x640.size a ≤ S1x32000.size a
  hwx2_3 : ∀ i : grid2.Coords, EltTy.bits .f32 = 32 ∨ (Rect.block (s := S1x32000) S1x640.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x32000.size a ≤ S1x32000.size a
  hwx3_0 : ∀ i : grid3.Coords, EltTy.bits .f32 = 32 ∨ (Rect.block (s := S1x32000) S1x32000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32000.size a ≤ S1x32000.size a
  hwx3_1 : ∀ i : grid3.Coords, EltTy.bits .f32 = 32 ∨ (Rect.block (s := S1x32000) S1x32000.size (cc3_transform_1 i) (hinb3_1 i)).WholeWords (EltTy.packing .f32)

variable [Facts₀]

def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf
def dot_S1x3072_S640x3072_S1x640_1_1_0_0_n_n : DotDims S1x3072 S640x3072 S1x640 where
  lhsContracting := [1]
  rhsContracting := [1]
  lhsNonContracting := [0]
  rhsNonContracting := [0]
  lhsBatch := []
  rhsBatch := []
  wf := dot_S1x3072_S640x3072_S1x640_1_1_0_0_n_n_wf

abbrev win0_0 : Pipeline.Window sig grid0 :=
  Pipeline.Window.ofSpec (Memref.whole main_v0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9_0) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4x128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4x128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S4x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S4x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_0) S1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18_1) S1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v19) S1x3072.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S640x3072.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x640.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x640.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v21) S1x32000.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v22) S1x32000.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S1x1024 : Shape := ⟨2, ![1, 1024]⟩
abbrev S2x1x2048 : Shape := ⟨3, ![2, 1, 2048]⟩
abbrev S8192x2048 : Shape := ⟨2, ![8192, 2048]⟩
abbrev S8192 : Shape := ⟨1, ![8192]⟩
abbrev S32000x3072 : Shape := ⟨2, ![32000, 3072]⟩
abbrev S32000 : Shape := ⟨1, ![32000]⟩
abbrev S1x2048 : Shape := ⟨2, ![1, 2048]⟩
abbrev S1x1x2048 : Shape := ⟨3, ![1, 1, 2048]⟩
abbrev S2048x8192 : Shape := ⟨2, ![2048, 8192]⟩
abbrev S1x8192 : Shape := ⟨2, ![1, 8192]⟩
abbrev S_ : Shape := ⟨0, ![]⟩
abbrev S1x3072 : Shape := ⟨2, ![1, 3072]⟩
abbrev S3072x32000 : Shape := ⟨2, ![3072, 32000]⟩
abbrev S1x32000 : Shape := ⟨2, ![1, 32000]⟩
abbrev S1 : Shape := ⟨1, ![1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S1x1024, .f32⟩
  | 1 => ⟨S1x1024, .f32⟩
  | 2 => ⟨S2x1x2048, .f32⟩
  | 3 => ⟨S2x1x2048, .f32⟩
  | 4 => ⟨S8192x2048, .f32⟩
  | 5 => ⟨S8192x2048, .f32⟩
  | 6 => ⟨S8192, .f32⟩
  | 7 => ⟨S8192, .f32⟩
  | 8 => ⟨S8192x2048, .f32⟩
  | 9 => ⟨S8192x2048, .f32⟩
  | 10 => ⟨S8192, .f32⟩
  | 11 => ⟨S8192, .f32⟩
  | 12 => ⟨S32000x3072, .f32⟩
  | 13 => ⟨S32000, .f32⟩
  | 14 => ⟨S1x2048, .f32⟩
  | 15 => ⟨S1x1x2048, .f32⟩
  | 16 => ⟨S1x2048, .f32⟩
  | 17 => ⟨S1x1x2048, .f32⟩
  | 18 => ⟨S1x2048, .f32⟩
  | 19 => ⟨S2048x8192, .f32⟩
  | 20 => ⟨S1x8192, .f32⟩
  | 21 => ⟨S1x8192, .f32⟩
  | 22 => ⟨S1x8192, .f32⟩
  | 23 => ⟨S2048x8192, .f32⟩
  | 24 => ⟨S1x8192, .f32⟩
  | 25 => ⟨S1x8192, .f32⟩
  | 26 => ⟨S1x8192, .f32⟩
  | 27 => ⟨S1x8192, .f32⟩
  | 28 => ⟨S1x2048, .f32⟩
  | 29 => ⟨S1x2048, .f32⟩
  | 30 => ⟨S1x2048, .f32⟩
  | 31 => ⟨S1x2048, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S1x2048, .f32⟩
  | 42 => ⟨S_, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S1x2048, .f32⟩
  | 59 => ⟨S1x2048, .f32⟩
  | 60 => ⟨S1x2048, .f32⟩
  | 61 => ⟨S1x2048, .f32⟩
  | 62 => ⟨S1x1x2048, .f32⟩
  | 63 => ⟨S1x2048, .f32⟩
  | 64 => ⟨S1x1x2048, .f32⟩
  | 65 => ⟨S1x2048, .f32⟩
  | 66 => ⟨S2048x8192, .f32⟩
  | 67 => ⟨S1x8192, .f32⟩
  | 68 => ⟨S1x8192, .f32⟩
  | 69 => ⟨S1x8192, .f32⟩
  | 70 => ⟨S2048x8192, .f32⟩
  | 71 => ⟨S1x8192, .f32⟩
  | 72 => ⟨S1x8192, .f32⟩
  | 73 => ⟨S1x8192, .f32⟩
  | 74 => ⟨S1x8192, .f32⟩
  | 75 => ⟨S1x2048, .f32⟩
  | 76 => ⟨S1x2048, .f32⟩
  | 77 => ⟨S1x2048, .f32⟩
  | 78 => ⟨S1x2048, .f32⟩
  | 79 => ⟨S1x2048, .f32⟩
  | 80 => ⟨S1x2048, .f32⟩
  | 81 => ⟨S_, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S1x2048, .f32⟩
  | 89 => ⟨S_, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S1x2048, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S1x2048, .f32⟩
  | 109 => ⟨S1x3072, .f32⟩
  | 110 => ⟨S3072x32000, .f32⟩
  | 111 => ⟨S1x32000, .f32⟩
  | 112 => ⟨S1x32000, .f32⟩
  | 113 => ⟨S1x32000, .f32⟩
  | 114 => ⟨S_, .f32⟩
  | 115 => ⟨S1, .f32⟩
  | 116 => ⟨S_, .f32⟩
  | 117 => ⟨S1, .f32⟩
  | 118 => ⟨S1, .f32⟩
  | 119 => ⟨S1x1, .f32⟩
  | 120 => ⟨S1x32000, .f32⟩
  | 121 => ⟨S1x32000, .f32⟩
  | 122 => ⟨S1x32000, .f32⟩
  | 123 => ⟨S_, .f32⟩
  | 124 => ⟨S1, .f32⟩
  | 125 => ⟨S1x1, .f32⟩
  | 126 => ⟨S1x1, .f32⟩
  | 127 => ⟨S1x32000, .f32⟩
  | _ => ⟨S1x1024, .f32⟩

abbrev hbmTy0_1 (i : Nat) : BufTy := match i % 128 with
  | 0 => ⟨S1x32000, .f32⟩
  | 1 => ⟨S1x1x2048, .f32⟩
  | 2 => ⟨S1x1x2048, .f32⟩
  | 3 => ⟨S2x1x2048, .f32⟩
  | 4 => ⟨S1x1x2048, .f32⟩
  | 5 => ⟨S1x1x2048, .f32⟩
  | 6 => ⟨S2x1x2048, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_9 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_call0_cst : Ref sig .tc := ⟨.hbm, 114, rfl⟩
abbrev main_call0_v0 : Ref sig .tc := ⟨.hbm, 115, rfl⟩
abbrev main_call0_cst_0 : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_v5 : Ref sig .tc := ⟨.hbm, 121, rfl⟩
abbrev main_call0_v6 : Ref sig .tc := ⟨.hbm, 122, rfl⟩
abbrev main_call0_cst_1 : Ref sig .tc := ⟨.hbm, 123, rfl⟩
abbrev main_call0_v7 : Ref sig .tc := ⟨.hbm, 124, rfl⟩
abbrev main_call0_v8 : Ref sig .tc := ⟨.hbm, 125, rfl⟩
abbrev main_call0_v9 : Ref sig .tc := ⟨.hbm, 126, rfl⟩
abbrev main_call0_v10 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  concatenates_S1x1024_S1x1024_S1x2048_d1 : Shape.Concatenates [S1x1024, S1x1024] S1x2048 1
  slices_S2x1x2048_S1x1x2048_0_0_0 : S2x1x2048.Slices ![0, 0, 0] S1x1x2048
  shapeCasts_S1x1x2048_S1x2048 : S1x1x2048.ShapeCasts S1x2048
  transposes_S8192x2048_S2048x8192_1_0 : S8192x2048.Transposes [1, 0] S2048x8192
  bcast_S8192_S1x8192_1 : S8192.BroadcastsInDim S1x8192 (![1] : Fin 1 → Fin S1x8192.rank)
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  bcast_S_S1x2048 : S_.BroadcastsInDim S1x2048 (![] : Fin 0 → Fin S1x2048.rank)
  slices_S2x1x2048_S1x1x2048_1_0_0 : S2x1x2048.Slices ![1, 0, 0] S1x1x2048
  concatenates_S1x1024_S1x2048_S1x3072_d1 : Shape.Concatenates [S1x1024, S1x2048] S1x3072 1
  transposes_S32000x3072_S3072x32000_1_0 : S32000x3072.Transposes [1, 0] S3072x32000
  bcast_S32000_S1x32000_1 : S32000.BroadcastsInDim S1x32000 (![1] : Fin 1 → Fin S1x32000.rank)
  reducesTo_S1x32000_S1_d1 : S1x32000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32000_0_1 : S1x1.BroadcastsInDim S1x32000 (![0, 1] : Fin 2 → Fin S1x32000.rank)
  bcast_S1x2048_S1x1x2048_1_2 : S1x2048.BroadcastsInDim S1x1x2048 (![1, 2] : Fin 2 → Fin S1x1x2048.rank)
  concatenates_S1x1x2048_S1x1x2048_S2x1x2048_d0 : Shape.Concatenates [S1x1x2048, S1x1x2048] S2x1x2048 0
  dot_S1x2048_S2048x8192_S1x8192_1_0_0_1_n_n_wf : DotDims.WF S1x2048 S2048x8192 S1x8192 [1] [0] [0] [1] [] []
  dot_S1x3072_S3072x32000_S1x32000_1_0_0_1_n_n_wf : DotDims.WF S1x3072 S3072x32000 S1x32000 [1] [0] [0] [1] [] []

variable [Facts₀]

def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf
def dot_S1x3072_S3072x32000_S1x32000_1_0_0_1_n_n : DotDims S1x3072 S3072x32000 S1x32000 where
  lhsContracting := [1]
  rhsContracting := [0]
  lhsNonContracting := [0]
  rhsNonContracting := [1]
  lhsBatch := []
  rhsBatch := []
  wf := dot_S1x3072_S3072x32000_S1x32000_1_0_0_1_n_n_wf

class Facts : Prop extends Facts₀ where

variable [Facts]
-- ==== Proof.KRun.lean ====
/-
  The idealized kernel's run with every buffer named. The program is four kernel launches among stretches of host
  operations; its run is the fold of those eight segments from the launch memory, and at the end every buffer that
  outlives a launch holds what the fold leaves there. The frame only keeps the argument arrays out of that; here
  the whole final valuation is kept, so that the three results can be read off it.
-/
import proofs.«173036_j7464653160860_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with every buffer that outlives a launch at
    the last boundary's contents: the fold of the eight segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c b hb)

/-- A result buffer, or any buffer no launch scopes, read off the run. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W8 m ρ c (Proc.devRef .tc b)) :=
  (θ_run defs _ _).mono (fun r h c => h c _ (mem_uc b hb)) (run_all m ρ)

end Cert.KernelIdeal.Run

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.KBlock.lean ====
/-
  One grid point of the fused LSTM kernel, read at an index on the extended reals.

  A point holds the whole input row x and recurrent row h (1×2048 each), a 4×128×2048 block of each weight array (gate
  g, 128 consecutive hidden units, all 2048 columns), a 4×128 block of each bias, and the 1×128 block of the previous
  cell state of those units. For gate g and unit p of the block the body forms
      (x · Wi[g, p, :] + h · Wh[g, p, :]) + bi[g, p] + bh[g, p],
  each product a matrix product into a zero accumulator that contracts the columns of both operands, the weight slab
  cut out by a unit-stride slice at (g, 0, 0) and re-shaped 1×128×2048 → 128×2048; narrowing to bf16 is the identity
  on the extended reals, and so is a re-shaping to the same shape. The new cell state and hidden state are then the
  usual pointwise combination.
-/
import proofs.«173036_j7464653160860_2_alg».proof.Proof.Gen.KernelIdeal.Skeleton
import proofs.«173036_j7464653160860_2_alg».proof.Proof.LibBlockReads
import Idealize.ShloMosaic.PureOps.Ideal.Laws
import Idealize.ShloMosaic.Lib.ValueIdx
import Idealize.ShloMosaic.Lib.Pipeline.Value

open scoped BigOperators

noncomputable section

namespace Cert.KernelIdeal.Block

open Idealize.ShloMosaic Idealize.ShloMosaic.ValueIdx Cert.KernelIdeal Cert.KernelIdeal.Gen

/-- Gate g's pre-activation of unit p of the block, from the point's blocks. -/
def preB (x h : S1x2048.Idx → EReal) (wi wh : S4x128x2048.Idx → EReal) (bi bh : S4x128.Idx → EReal)
    (g : Fin 4) (p : Fin 128) : EReal :=
  ((∑ k : Fin 2048, x (ix2 0 k) * wi (ix3 g p k)) + ∑ k : Fin 2048, h (ix2 0 k) * wh (ix3 g p k))
    + bi (ix2 g p) + bh (ix2 g p)

/-- The new cell state of unit p of the block. -/
def cellB (x h : S1x2048.Idx → EReal) (wi wh : S4x128x2048.Idx → EReal) (bi bh : S4x128.Idx → EReal)
    (c : S1x128.Idx → EReal) (p : Fin 128) : EReal :=
  Ideal.logistic (preB x h wi wh bi bh 1 p) * c (ix2 0 p)
    + Ideal.logistic (preB x h wi wh bi bh 0 p) * Ideal.tanh (preB x h wi wh bi bh 2 p)

/-- The new hidden state of unit p of the block. -/
def hiddenB (x h : S1x2048.Idx → EReal) (wi wh : S4x128x2048.Idx → EReal) (bi bh : S4x128.Idx → EReal)
    (c : S1x128.Idx → EReal) (p : Fin 128) : EReal :=
  Ideal.logistic (preB x h wi wh bi bh 3 p) * Ideal.tanh (cellB x h wi wh bi bh c p)

/-- The slab of gate g cut out of a weight block and re-shaped to a matrix reads the block at (g, p, k). -/
theorem slab_apply (g : Nat) (hg : g < 4) (hs : S4x128x2048.Slices ![g, 0, 0] S1x128x2048)
    (w : S4x128x2048.Idx → EReal) (p : Fin 128) (k : Fin 2048) :
    shapeCast S128x2048 (extractStridedSlice S1x128x2048 ![g, 0, 0] w hs) shapeCasts_S1x128x2048_S128x2048 (ix2 p k)
      = w (ix3 ⟨g, hg⟩ p k) := by
  refine (shapeCast_apply _ shapeCasts_S1x128x2048_S128x2048 _ (ix3 0 p k) ?_).trans ?_
  · rw [Shape.rowMajor_val_two, Shape.rowMajor_val_three]
    show ((0 : Nat) * 128 + p.val) * 2048 + k.val = p.val * 2048 + k.val
    omega
  · exact extractStridedSlice_apply _ w hs _ _ fun a => by
      match a with
      | ⟨0, _⟩ => show g = g + 0; omega
      | ⟨1, _⟩ => show p.val = 0 + p.val; omega
      | ⟨2, _⟩ => show k.val = 0 + k.val; omega

/-- The row of gate g cut out of a bias block reads the block at (g, p). -/
theorem biasrow_apply (g : Nat) (hg : g < 4) (hb : S4x128.Slices ![g, 0] S1x128) (b : S4x128.Idx → EReal) (p : Fin 128) :
    extractStridedSlice S1x128 ![g, 0] b hb (ix2 0 p) = b (ix2 ⟨g, hg⟩ p) :=
  extractStridedSlice_apply _ b hb _ _ fun a => by
    match a with
    | ⟨0, _⟩ => show g = g + 0; omega
    | ⟨1, _⟩ => show p.val = 0 + p.val; omega

/-- Gate g's pre-activation as the body spells it. -/
theorem gate_apply (g : Nat) (hg : g < 4) (hs : S4x128x2048.Slices ![g, 0, 0] S1x128x2048) (hb : S4x128.Slices ![g, 0] S1x128)
    (x h : FVec Ideal S1x2048 .bf16) (wi wh : FVec Ideal S4x128x2048 .bf16) (bi bh : FVec Ideal S4x128 .f32) (p : Fin 128) :
    addf (addf (addf
        (matmul dot_S1x2048_S128x2048_S1x128_1_1_0_0_n_n none x
          (shapeCast S128x2048 (extractStridedSlice S1x128x2048 ![g, 0, 0] wi hs) shapeCasts_S1x128x2048_S128x2048)
          (constant S1x128 .f32 0x00000000#32))
        (matmul dot_S1x2048_S128x2048_S1x128_1_1_0_0_n_n none h
          (shapeCast S128x2048 (extractStridedSlice S1x128x2048 ![g, 0, 0] wh hs) shapeCasts_S1x128x2048_S128x2048)
          (constant S1x128 .f32 0x00000000#32)))
        (extractStridedSlice S1x128 ![g, 0] bi hb)) (extractStridedSlice S1x128 ![g, 0] bh hb) (ix2 0 p)
      = preB x h wi wh bi bh ⟨g, hg⟩ p := by
  rw [addf_apply, addf_apply, addf_apply,
    Cert.Lib.BlockReads.matmul_zero_cols_apply dot_S1x2048_S128x2048_S1x128_1_1_0_0_n_n rfl rfl rfl rfl rfl rfl,
    Cert.Lib.BlockReads.matmul_zero_cols_apply dot_S1x2048_S128x2048_S1x128_1_1_0_0_n_n rfl rfl rfl rfl rfl rfl,
    biasrow_apply g hg hb bi p, biasrow_apply g hg hb bh p]
  unfold preB
  simp only [slab_apply g hg hs]

/-! ## The payloads of `cc0__lstm_fused_kernel` -/

section K0
variable (x0 x1 : Vec Ideal S1x2048 .f32) (x2 x3 : Vec Ideal S4x128x2048 .f32) (x4 x5 : Vec Ideal S4x128 .f32)
  (x6 : Vec Ideal S1x128 .f32)

theorem pre0_0 (p : Fin 128) : k0_pay10 x0 x1 x2 x3 x4 x5 (ix2 0 p) = preB x0 x1 x2 x3 x4 x5 0 p := by
  unfold k0_pay10 k0_pay3 k0_pay4 k0_pay5 k0_pay6 k0_pay7 k0_pay8
  simp only [shapeCast_self]
  exact gate_apply 0 (by omega) _ _ x0 x1 x2 x3 x4 x5 p

theorem pre0_1 (p : Fin 128) :
    addf (k0_pay11 x0 x1 x2 x3 x4) (k0_pay12 x5) (ix2 0 p) = preB x0 x1 x2 x3 x4 x5 1 p := by
  unfold k0_pay11 k0_pay12 k0_pay3 k0_pay4 k0_pay5 k0_pay6 k0_pay7 k0_pay8
  simp only [shapeCast_self]
  exact gate_apply 1 (by omega) _ _ x0 x1 x2 x3 x4 x5 p

/-- The stored cell state of unit p. -/
theorem cell0_apply (p : Fin 128) :
    k0_pay1 (k0_pay3 x0) (k0_pay4 x1) (k0_pay5 x2) (k0_pay6 x3) (k0_pay7 x4) (k0_pay8 x5) (k0_pay9 x6)
      (k0_pay10 x0 x1 x2 x3 x4 x5) (k0_pay11 x0 x1 x2 x3 x4) (k0_pay12 x5) (ix2 0 p)
      = cellB x0 x1 x2 x3 x4 x5 x6 p := by
  unfold k0_pay1
  show Ideal.logistic (addf (k0_pay11 x0 x1 x2 x3 x4) (k0_pay12 x5) (ix2 0 p)) * k0_pay9 x6 (ix2 0 p)
      + Ideal.logistic (k0_pay10 x0 x1 x2 x3 x4 x5 (ix2 0 p)) * Ideal.tanh (_ : EReal) = _
  rw [pre0_1, pre0_0]
  unfold cellB
  congr 2
  · unfold k0_pay9; rw [shapeCast_self]
  · congr 1
    unfold k0_pay3 k0_pay4 k0_pay5 k0_pay6 k0_pay7 k0_pay8
    simp only [shapeCast_self]
    exact gate_apply 2 (by omega) _ _ x0 x1 x2 x3 x4 x5 p

/-- The stored hidden state of unit p. -/
theorem hidden0_apply (p : Fin 128) :
    k0_pay2 (k0_pay3 x0) (k0_pay4 x1) (k0_pay5 x2) (k0_pay6 x3) (k0_pay7 x4) (k0_pay8 x5) (k0_pay9 x6)
      (k0_pay10 x0 x1 x2 x3 x4 x5) (k0_pay11 x0 x1 x2 x3 x4) (k0_pay12 x5) (ix2 0 p)
      = hiddenB x0 x1 x2 x3 x4 x5 x6 p := by
  unfold k0_pay2
  show Ideal.logistic (_ : EReal) * Ideal.tanh (k0_pay1 (k0_pay3 x0) (k0_pay4 x1) (k0_pay5 x2) (k0_pay6 x3) (k0_pay7 x4)
      (k0_pay8 x5) (k0_pay9 x6) (k0_pay10 x0 x1 x2 x3 x4 x5) (k0_pay11 x0 x1 x2 x3 x4) (k0_pay12 x5) (ix2 0 p)) = _
  rw [cell0_apply]
  unfold hiddenB
  congr 2
  unfold k0_pay3 k0_pay4 k0_pay5 k0_pay6 k0_pay7 k0_pay8
  simp only [shapeCast_self]
  exact gate_apply 3 (by omega) _ _ x0 x1 x2 x3 x4 x5 p

end K0

/-! ## The payloads of `cc1__lstm_fused_kernel` -/

section K1
variable (x0 x1 : Vec Ideal S1x2048 .f32) (x2 x3 : Vec Ideal S4x128x2048 .f32) (x4 x5 : Vec Ideal S4x128 .f32)
  (x6 : Vec Ideal S1x128 .f32)

theorem pre1_0 (p : Fin 128) : k1_pay10 x0 x1 x2 x3 x4 x5 (ix2 0 p) = preB x0 x1 x2 x3 x4 x5 0 p := by
  unfold k1_pay10 k1_pay3 k1_pay4 k1_pay5 k1_pay6 k1_pay7 k1_pay8
  simp only [shapeCast_self]
  exact gate_apply 0 (by omega) _ _ x0 x1 x2 x3 x4 x5 p

theorem pre1_1 (p : Fin 128) :
    addf (k1_pay11 x0 x1 x2 x3 x4) (k1_pay12 x5) (ix2 0 p) = preB x0 x1 x2 x3 x4 x5 1 p := by
  unfold k1_pay11 k1_pay12 k1_pay3 k1_pay4 k1_pay5 k1_pay6 k1_pay7 k1_pay8
  simp only [shapeCast_self]
  exact gate_apply 1 (by omega) _ _ x0 x1 x2 x3 x4 x5 p

/-- The stored cell state of unit p. -/
theorem cell1_apply (p : Fin 128) :
    k1_pay1 (k1_pay3 x0) (k1_pay4 x1) (k1_pay5 x2) (k1_pay6 x3) (k1_pay7 x4) (k1_pay8 x5) (k1_pay9 x6)
      (k1_pay10 x0 x1 x2 x3 x4 x5) (k1_pay11 x0 x1 x2 x3 x4) (k1_pay12 x5) (ix2 0 p)
      = cellB x0 x1 x2 x3 x4 x5 x6 p := by
  unfold k1_pay1
  show Ideal.logistic (addf (k1_pay11 x0 x1 x2 x3 x4) (k1_pay12 x5) (ix2 0 p)) * k1_pay9 x6 (ix2 0 p)
      + Ideal.logistic (k1_pay10 x0 x1 x2 x3 x4 x5 (ix2 0 p)) * Ideal.tanh (_ : EReal) = _
  rw [pre1_1, pre1_0]
  unfold cellB
  congr 2
  · unfold k1_pay9; rw [shapeCast_self]
  · congr 1
    unfold k1_pay3 k1_pay4 k1_pay5 k1_pay6 k1_pay7 k1_pay8
    simp only [shapeCast_self]
    exact gate_apply 2 (by omega) _ _ x0 x1 x2 x3 x4 x5 p

/-- The stored hidden state of unit p. -/
theorem hidden1_apply (p : Fin 128) :
    k1_pay2 (k1_pay3 x0) (k1_pay4 x1) (k1_pay5 x2) (k1_pay6 x3) (k1_pay7 x4) (k1_pay8 x5) (k1_pay9 x6)
      (k1_pay10 x0 x1 x2 x3 x4 x5) (k1_pay11 x0 x1 x2 x3 x4) (k1_pay12 x5) (ix2 0 p)
      = hiddenB x0 x1 x2 x3 x4 x5 x6 p := by
  unfold k1_pay2
  show Ideal.logistic (_ : EReal) * Ideal.tanh (k1_pay1 (k1_pay3 x0) (k1_pay4 x1) (k1_pay5 x2) (k1_pay6 x3) (k1_pay7 x4)
      (k1_pay8 x5) (k1_pay9 x6) (k1_pay10 x0 x1 x2 x3 x4 x5) (k1_pay11 x0 x1 x2 x3 x4) (k1_pay12 x5) (ix2 0 p)) = _
  rw [cell1_apply]
  unfold hiddenB
  congr 2
  unfold k1_pay3 k1_pay4 k1_pay5 k1_pay6 k1_pay7 k1_pay8
  simp only [shapeCast_self]
  exact gate_apply 3 (by omega) _ _ x0 x1 x2 x3 x4 x5 p

end K1

end Cert.KernelIdeal.Block

end
-- ==== Proof.KLayer.lean ====
/-
  A whole LSTM layer as the kernel lays it out, and one grid point's block of it.

  The kernel is given each 8192×2048 weight array re-shaped to 4×2048×2048 (gate, hidden unit, column) and each bias
  re-shaped to 4×2048. In that layout gate g's pre-activation of unit j is
      (x · Wi[g, j, :] + h · Wh[g, j, :]) + bi[g, j] + bh[g, j].
  Grid point T holds units 128·T … 128·T + 127: if the point's blocks are those rows of the arrays, then what the
  body stores at unit p of the block is the layer's value at unit 128·T + p.
-/
import proofs.«173036_j7464653160860_2_alg».proof.Proof.KBlock

open scoped BigOperators

noncomputable section

namespace Cert.KernelIdeal.Layer

open Idealize.ShloMosaic Idealize.ShloMosaic.ValueIdx Cert.KernelIdeal Cert.KernelIdeal.Gen Cert.KernelIdeal.Block

section Whole
variable (X H C : S1x2048.Idx → EReal) (Wi Wh : S4x2048x2048.Idx → EReal) (bi bh : S4x2048.Idx → EReal)

/-- Gate g's pre-activation of hidden unit j, from the re-shaped arrays. -/
def preK (g : Fin 4) (j : Fin 2048) : EReal :=
  ((∑ k : Fin 2048, X (ix2 0 k) * Wi (ix3 g j k)) + ∑ k : Fin 2048, H (ix2 0 k) * Wh (ix3 g j k))
    + bi (ix2 g j) + bh (ix2 g j)

/-- The new cell state of unit j. -/
def cellK (j : Fin 2048) : EReal :=
  Ideal.logistic (preK X H Wi Wh bi bh 1 j) * C (ix2 0 j)
    + Ideal.logistic (preK X H Wi Wh bi bh 0 j) * Ideal.tanh (preK X H Wi Wh bi bh 2 j)

/-- The new hidden state of unit j. -/
def hiddenK (j : Fin 2048) : EReal :=
  Ideal.logistic (preK X H Wi Wh bi bh 3 j) * Ideal.tanh (cellK X H C Wi Wh bi bh j)

/-- The new cell state as a 1×2048 array. -/
def cellArr : S1x2048.Idx → EReal := fun i => cellK X H C Wi Wh bi bh ⟨(i 1).val, idx2_lt1 i⟩

/-- The new hidden state as a 1×2048 array. -/
def hiddenArr : S1x2048.Idx → EReal := fun i => hiddenK X H C Wi Wh bi bh ⟨(i 1).val, idx2_lt1 i⟩

end Whole

section Point
variable (x0 x1 : S1x2048.Idx → EReal) (x2 x3 : S4x128x2048.Idx → EReal) (x4 x5 : S4x128.Idx → EReal) (x6 : S1x128.Idx → EReal)
  (X H C : S1x2048.Idx → EReal) (Wi Wh : S4x2048x2048.Idx → EReal) (bi bh : S4x2048.Idx → EReal)
  (T : Nat) (hT : T < 16)

/-- Unit p of point T's block is unit 128·T + p of the layer. -/
def unit (p : Fin 128) : Fin 2048 := ⟨T * 128 + p.val, by have := p.isLt; omega⟩

variable (h0 : ∀ k : Fin 2048, x0 (ix2 0 k) = X (ix2 0 k)) (h1 : ∀ k : Fin 2048, x1 (ix2 0 k) = H (ix2 0 k))
  (h2 : ∀ (g : Fin 4) (p : Fin 128) (k : Fin 2048), x2 (ix3 g p k) = Wi (ix3 g (unit T hT p) k))
  (h3 : ∀ (g : Fin 4) (p : Fin 128) (k : Fin 2048), x3 (ix3 g p k) = Wh (ix3 g (unit T hT p) k))
  (h4 : ∀ (g : Fin 4) (p : Fin 128), x4 (ix2 g p) = bi (ix2 g (unit T hT p)))
  (h5 : ∀ (g : Fin 4) (p : Fin 128), x5 (ix2 g p) = bh (ix2 g (unit T hT p)))
  (h6 : ∀ p : Fin 128, x6 (ix2 0 p) = C (ix2 0 (unit T hT p)))

include h0 h1 h2 h3 h4 h5 in
theorem preB_eq (g : Fin 4) (p : Fin 128) :
    preB x0 x1 x2 x3 x4 x5 g p = preK X H Wi Wh bi bh g (unit T hT p) := by
  unfold preB preK
  simp only [h0, h1, h2, h3, h4, h5]

include h0 h1 h2 h3 h4 h5 h6 in
theorem cellB_eq (p : Fin 128) :
    cellB x0 x1 x2 x3 x4 x5 x6 p = cellK X H C Wi Wh bi bh (unit T hT p) := by
  unfold cellB cellK
  rw [preB_eq x0 x1 x2 x3 x4 x5 X H Wi Wh bi bh T hT h0 h1 h2 h3 h4 h5, preB_eq x0 x1 x2 x3 x4 x5 X H Wi Wh bi bh T hT h0 h1 h2 h3 h4 h5,
    preB_eq x0 x1 x2 x3 x4 x5 X H Wi Wh bi bh T hT h0 h1 h2 h3 h4 h5, h6]

include h0 h1 h2 h3 h4 h5 h6 in
theorem hiddenB_eq (p : Fin 128) :
    hiddenB x0 x1 x2 x3 x4 x5 x6 p = hiddenK X H C Wi Wh bi bh (unit T hT p) := by
  unfold hiddenB hiddenK
  rw [preB_eq x0 x1 x2 x3 x4 x5 X H Wi Wh bi bh T hT h0 h1 h2 h3 h4 h5,
    cellB_eq x0 x1 x2 x3 x4 x5 x6 X H C Wi Wh bi bh T hT h0 h1 h2 h3 h4 h5 h6]

/-- Every index of a 1×128 block is (0, its column). -/
theorem blk_row (y : S1x128.Idx) : y = ix2 0 ⟨(y 1).val, idx2_lt1 y⟩ := by
  funext d
  match d with
  | ⟨0, _⟩ =>
    have h : (y 0).val < 1 := (y 0).isLt
    exact Fin.ext (by show (y 0).val = 0; omega)
  | ⟨1, _⟩ => rfl

include h0 h1 h2 h3 h4 h5 h6 in
/-- What kernel 0's body stores as hidden state at y is the layer's hidden state at the array index i over y. -/
theorem hidden0_point (y : S1x128.Idx) (i : S1x2048.Idx) (hi : (i 1).val = T * 128 + (y 1).val) :
    k0_pay2 (F := Ideal) (k0_pay3 x0) (k0_pay4 x1) (k0_pay5 x2) (k0_pay6 x3) (k0_pay7 x4) (k0_pay8 x5) (k0_pay9 x6)
      (k0_pay10 x0 x1 x2 x3 x4 x5) (k0_pay11 x0 x1 x2 x3 x4) (k0_pay12 x5) y
      = hiddenArr X H C Wi Wh bi bh i := by
  rw [blk_row y, hidden0_apply, hiddenB_eq x0 x1 x2 x3 x4 x5 x6 X H C Wi Wh bi bh T hT h0 h1 h2 h3 h4 h5 h6]
  unfold hiddenArr
  exact congrArg _ (Fin.ext hi.symm)

include h0 h1 h2 h3 h4 h5 h6 in
/-- The same for the cell state. -/
theorem cell0_point (y : S1x128.Idx) (i : S1x2048.Idx) (hi : (i 1).val = T * 128 + (y 1).val) :
    k0_pay1 (F := Ideal) (k0_pay3 x0) (k0_pay4 x1) (k0_pay5 x2) (k0_pay6 x3) (k0_pay7 x4) (k0_pay8 x5) (k0_pay9 x6)
      (k0_pay10 x0 x1 x2 x3 x4 x5) (k0_pay11 x0 x1 x2 x3 x4) (k0_pay12 x5) y
      = cellArr X H C Wi Wh bi bh i := by
  rw [blk_row y, cell0_apply, cellB_eq x0 x1 x2 x3 x4 x5 x6 X H C Wi Wh bi bh T hT h0 h1 h2 h3 h4 h5 h6]
  unfold cellArr
  exact congrArg _ (Fin.ext hi.symm)

include h0 h1 h2 h3 h4 h5 h6 in
/-- What kernel 1's body stores as hidden state at y is the layer's hidden state at the array index i over y. -/
theorem hidden1_point (y : S1x128.Idx) (i : S1x2048.Idx) (hi : (i 1).val = T * 128 + (y 1).val) :
    k1_pay2 (F := Ideal) (k1_pay3 x0) (k1_pay4 x1) (k1_pay5 x2) (k1_pay6 x3) (k1_pay7 x4) (k1_pay8 x5) (k1_pay9 x6)
      (k1_pay10 x0 x1 x2 x3 x4 x5) (k1_pay11 x0 x1 x2 x3 x4) (k1_pay12 x5) y
      = hiddenArr X H C Wi Wh bi bh i := by
  rw [blk_row y, hidden1_apply, hiddenB_eq x0 x1 x2 x3 x4 x5 x6 X H C Wi Wh bi bh T hT h0 h1 h2 h3 h4 h5 h6]
  unfold hiddenArr
  exact congrArg _ (Fin.ext hi.symm)

include h0 h1 h2 h3 h4 h5 h6 in
/-- The same for the cell state. -/
theorem cell1_point (y : S1x128.Idx) (i : S1x2048.Idx) (hi : (i 1).val = T * 128 + (y 1).val) :
    k1_pay1 (F := Ideal) (k1_pay3 x0) (k1_pay4 x1) (k1_pay5 x2) (k1_pay6 x3) (k1_pay7 x4) (k1_pay8 x5) (k1_pay9 x6)
      (k1_pay10 x0 x1 x2 x3 x4 x5) (k1_pay11 x0 x1 x2 x3 x4) (k1_pay12 x5) y
      = cellArr X H C Wi Wh bi bh i := by
  rw [blk_row y, cell1_apply, cellB_eq x0 x1 x2 x3 x4 x5 x6 X H C Wi Wh bi bh T hT h0 h1 h2 h3 h4 h5 h6]
  unfold cellArr
  exact congrArg _ (Fin.ext hi.symm)

end Point

end Cert.KernelIdeal.Layer

end
-- ==== Proof.KRegion0.lean ====
/-
  Kernel launch 0 (an LSTM layer) as a whole: what its two result arrays hold when it returns.

  The launch has 16 grid points; point t is handed the whole input row and recurrent row, rows 128·t … 128·t + 127 of
  every gate of the re-shaped weights and biases and of the previous cell state, and writes back the same 128 units of
  the new hidden state and of the new cell state. Those blocks tile the 2048 units, so each result array ends
  holding the layer's value everywhere.
-/
import proofs.«173036_j7464653160860_2_alg».proof.Proof.Gen.KernelIdeal.Frame
import proofs.«173036_j7464653160860_2_alg».proof.Proof.KLayer

set_option maxRecDepth 16384

open scoped BigOperators

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Layer

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the rows and the cell-state, bias and weight blocks move with the point along
    the hidden-unit axis, everything else stays at block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-! ## The input blocks at a point -/

theorem blk_0 (c : Dev nD) (t : Fin cfg0.N) (k : Fin 2048) : iblk0 V c 0 t (ix2 0 k) = V c main_v0 (ix2 0 k) := by
  obtain ⟨e00, e01, -⟩ := idx_facts t
  show V c main_v0 (((cfg0.win 0).blk t).view.emb (ix2 0 k)) = V c main_v0 (ix2 0 k)
  refine congrArg (V c main_v0) (funext fun a => Fin.ext ?_)
  match a with
  | ⟨0, _⟩ => show win0_0.index t (0 : Fin 2) * 1 + 1 * 0 = 0; omega
  | ⟨1, _⟩ => show win0_0.index t (1 : Fin 2) * 2048 + 1 * k.val = k.val; omega

theorem blk_1 (c : Dev nD) (t : Fin cfg0.N) (k : Fin 2048) : iblk0 V c 1 t (ix2 0 k) = V c main_v2 (ix2 0 k) := by
  obtain ⟨-, -, e10, e11, -⟩ := idx_facts t
  show V c main_v2 (((cfg0.win 1).blk t).view.emb (ix2 0 k)) = V c main_v2 (ix2 0 k)
  refine congrArg (V c main_v2) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem blk_2 (c : Dev nD) (t : Fin cfg0.N) (g : Fin 4) (p : Fin 128) (k : Fin 2048) :
    iblk0 V c 2 t (ix3 g p k) = V c main_v5 (ix3 g (unit t.val t.isLt p) k) := by
  obtain ⟨-, -, -, -, e0, e1, e2, -⟩ := idx_facts t
  show V c main_v5 (((cfg0.win 2).blk t).view.emb (ix3 g p k)) = V c main_v5 (ix3 g (unit t.val t.isLt p) k)
  refine congrArg (V c main_v5) (funext fun a => Fin.ext ?_)
  match a with
  | ⟨0, _⟩ => show win0_2.index t (0 : Fin 3) * 4 + 1 * g.val = g.val; omega
  | ⟨1, _⟩ => show win0_2.index t (1 : Fin 3) * 128 + 1 * p.val = t.val * 128 + p.val; omega
  | ⟨2, _⟩ => show win0_2.index t (2 : Fin 3) * 2048 + 1 * k.val = k.val; omega

theorem blk_3 (c : Dev nD) (t : Fin cfg0.N) (g : Fin 4) (p : Fin 128) (k : Fin 2048) :
    iblk0 V c 3 t (ix3 g p k) = V c main_v6 (ix3 g (unit t.val t.isLt p) k) := by
  obtain ⟨-, -, -, -, -, -, -, e0, e1, e2, -⟩ := idx_facts t
  show V c main_v6 (((cfg0.win 3).blk t).view.emb (ix3 g p k)) = V c main_v6 (ix3 g (unit t.val t.isLt p) k)
  refine congrArg (V c main_v6) (funext fun a => Fin.ext ?_)
  match a with
  | ⟨0, _⟩ => show win0_3.index t (0 : Fin 3) * 4 + 1 * g.val = g.val; omega
  | ⟨1, _⟩ => show win0_3.index t (1 : Fin 3) * 128 + 1 * p.val = t.val * 128 + p.val; omega
  | ⟨2, _⟩ => show win0_3.index t (2 : Fin 3) * 2048 + 1 * k.val = k.val; omega

theorem blk_4 (c : Dev nD) (t : Fin cfg0.N) (g : Fin 4) (p : Fin 128) :
    iblk0 V c 4 t (ix2 g p) = V c main_v7 (ix2 g (unit t.val t.isLt p)) := by
  obtain ⟨-, -, -, -, -, -, -, -, -, -, e0, e1, -⟩ := idx_facts t
  show V c main_v7 (((cfg0.win 4).blk t).view.emb (ix2 g p)) = V c main_v7 (ix2 g (unit t.val t.isLt p))
  refine congrArg (V c main_v7) (funext fun a => Fin.ext ?_)
  match a with
  | ⟨0, _⟩ => show win0_4.index t (0 : Fin 2) * 4 + 1 * g.val = g.val; omega
  | ⟨1, _⟩ => show win0_4.index t (1 : Fin 2) * 128 + 1 * p.val = t.val * 128 + p.val; omega

theorem blk_5 (c : Dev nD) (t : Fin cfg0.N) (g : Fin 4) (p : Fin 128) :
    iblk0 V c 5 t (ix2 g p) = V c main_v8 (ix2 g (unit t.val t.isLt p)) := by
  obtain ⟨-, -, -, -, -, -, -, -, -, -, -, -, e0, e1, -⟩ := idx_facts t
  show V c main_v8 (((cfg0.win 5).blk t).view.emb (ix2 g p)) = V c main_v8 (ix2 g (unit t.val t.isLt p))
  refine congrArg (V c main_v8) (funext fun a => Fin.ext ?_)
  match a with
  | ⟨0, _⟩ => show win0_5.index t (0 : Fin 2) * 4 + 1 * g.val = g.val; omega
  | ⟨1, _⟩ => show win0_5.index t (1 : Fin 2) * 128 + 1 * p.val = t.val * 128 + p.val; omega

theorem blk_6 (c : Dev nD) (t : Fin cfg0.N) (p : Fin 128) :
    iblk0 V c 6 t (ix2 0 p) = V c main_v4 (ix2 0 (unit t.val t.isLt p)) := by
  obtain ⟨-, -, -, -, -, -, -, -, -, -, -, -, -, -, e0, e1, -⟩ := idx_facts t
  show V c main_v4 (((cfg0.win 6).blk t).view.emb (ix2 0 p)) = V c main_v4 (ix2 0 (unit t.val t.isLt p))
  refine congrArg (V c main_v4) (funext fun a => Fin.ext ?_)
  match a with
  | ⟨0, _⟩ => show win0_6.index t (0 : Fin 2) * 1 + 1 * 0 = 0; omega
  | ⟨1, _⟩ => show win0_6.index t (1 : Fin 2) * 128 + 1 * p.val = t.val * 128 + p.val; omega

/-! ## What a point writes back -/

/-- Point t writes back block t of the layer's hidden state. -/
theorem flushed_7 (c : Dev nD) (t : Fin cfg0.N) :
    (dat0 V c).flushed 7 t = ((cfg0.win 7).blk t).view.read (Elt Ideal)
      (hiddenArr (V c main_v0) (V c main_v2) (V c main_v4) (V c main_v5) (V c main_v6) (V c main_v7) (V c main_v8)) := by
  show (cfg0.win 7).cut (grid0.coords t) ((dat0 V c).after 7 t) = _
  rw [after0_7]
  unfold out0_7
  rw [View.canon_unit_zero hz2]
  simp only [View.ld_unit_zero (S := S1x2048) hz2, View.ld_unit_zero (S := S4x128x2048) hz3,
    View.ld_unit_zero (S := S4x128) hz2, View.ld_unit_zero (S := S1x128) hz2]
  obtain ⟨-, -, -, -, -, -, -, -, -, -, -, -, -, -, -, -, e0, e1, -⟩ := idx_facts t
  funext y
  refine hidden0_point (iblk0 V c 0 t) (iblk0 V c 1 t) (iblk0 V c 2 t) (iblk0 V c 3 t) (iblk0 V c 4 t) (iblk0 V c 5 t)
    (iblk0 V c 6 t) (V c main_v0) (V c main_v2) (V c main_v4) (V c main_v5) (V c main_v6) (V c main_v7) (V c main_v8) t.val t.isLt
    (blk_0 V c t) (blk_1 V c t) (blk_2 V c t) (blk_3 V c t) (blk_4 V c t) (blk_5 V c t) (blk_6 V c t) y
    (((cfg0.win 7).blk t).view.emb y) ?_
  show win0_7.index t (1 : Fin 2) * 128 + 1 * (y 1).val = t.val * 128 + (y 1).val
  omega

/-- Point t writes back block t of the layer's cell state. -/
theorem flushed_8 (c : Dev nD) (t : Fin cfg0.N) :
    (dat0 V c).flushed 8 t = ((cfg0.win 8).blk t).view.read (Elt Ideal)
      (cellArr (V c main_v0) (V c main_v2) (V c main_v4) (V c main_v5) (V c main_v6) (V c main_v7) (V c main_v8)) := by
  show (cfg0.win 8).cut (grid0.coords t) ((dat0 V c).after 8 t) = _
  rw [after0_8]
  unfold out0_8
  rw [View.canon_unit_zero hz2]
  simp only [View.ld_unit_zero (S := S1x2048) hz2, View.ld_unit_zero (S := S4x128x2048) hz3,
    View.ld_unit_zero (S := S4x128) hz2, View.ld_unit_zero (S := S1x128) hz2]
  obtain ⟨-, -, -, -, -, -, -, -, -, -, -, -, -, -, -, -, -, -, e0, e1⟩ := idx_facts t
  funext y
  refine cell0_point (iblk0 V c 0 t) (iblk0 V c 1 t) (iblk0 V c 2 t) (iblk0 V c 3 t) (iblk0 V c 4 t) (iblk0 V c 5 t)
    (iblk0 V c 6 t) (V c main_v0) (V c main_v2) (V c main_v4) (V c main_v5) (V c main_v6) (V c main_v7) (V c main_v8) t.val t.isLt
    (blk_0 V c t) (blk_1 V c t) (blk_2 V c t) (blk_3 V c t) (blk_4 V c t) (blk_5 V c t) (blk_6 V c t) y
    (((cfg0.win 8).blk t).view.emb y) ?_
  show win0_8.index t (1 : Fin 2) * 128 + 1 * (y 1).val = t.val * 128 + (y 1).val
  omega

/-! ## The blocks tile the arrays -/

theorem mem_blk_7 (t : Fin cfg0.N) (i : S1x2048.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v9_0).slice (win0_7.rect t)).set ↔ _
  rw [View.set_slice_whole, Rect.mem_set_unit]
  exact Iff.rfl

theorem mem_blk_8 (t : Fin cfg0.N) (i : S1x2048.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v9_1).slice (win0_8.rect t)).set ↔ _
  rw [View.set_slice_whole, Rect.mem_set_unit]
  exact Iff.rfl

theorem cover_7 (i : S1x2048.Idx) : ∃ t : Fin cfg0.N, (cfg0.win 7).flush t = true ∧ i ∈ ((cfg0.win 7).blk t).view.set := by
  have hi0 : (i 0).val < 1 := (i 0).isLt
  have hi1 : (i 1).val < 2048 := (i 1).isLt
  have ht : (i 1).val / 128 < 16 := by omega
  obtain ⟨-, -, -, -, -, -, -, -, -, -, -, -, -, -, -, -, e0, e1, -⟩ := idx_facts ⟨(i 1).val / 128, ht⟩
  refine ⟨⟨(i 1).val / 128, ht⟩, flush0_7 _, ?_⟩
  rw [mem_blk_7]
  intro a
  match a with
  | ⟨0, _⟩ =>
    show win0_7.index ⟨(i 1).val / 128, ht⟩ (0 : Fin 2) * 1 ≤ (i 0).val ∧ (i 0).val < win0_7.index ⟨(i 1).val / 128, ht⟩ (0 : Fin 2) * 1 + 1
    omega
  | ⟨1, _⟩ =>
    show win0_7.index ⟨(i 1).val / 128, ht⟩ (1 : Fin 2) * 128 ≤ (i 1).val ∧ (i 1).val < win0_7.index ⟨(i 1).val / 128, ht⟩ (1 : Fin 2) * 128 + 128
    have e1' : win0_7.index ⟨(i 1).val / 128, ht⟩ (1 : Fin 2) = (i 1).val / 128 := e1
    omega

theorem cover_8 (i : S1x2048.Idx) : ∃ t : Fin cfg0.N, (cfg0.win 8).flush t = true ∧ i ∈ ((cfg0.win 8).blk t).view.set := by
  have hi0 : (i 0).val < 1 := (i 0).isLt
  have hi1 : (i 1).val < 2048 := (i 1).isLt
  have ht : (i 1).val / 128 < 16 := by omega
  obtain ⟨-, -, -, -, -, -, -, -, -, -, -, -, -, -, -, -, -, -, e0, e1⟩ := idx_facts ⟨(i 1).val / 128, ht⟩
  refine ⟨⟨(i 1).val / 128, ht⟩, flush0_8 _, ?_⟩
  rw [mem_blk_8]
  intro a
  match a with
  | ⟨0, _⟩ =>
    show win0_8.index ⟨(i 1).val / 128, ht⟩ (0 : Fin 2) * 1 ≤ (i 0).val ∧ (i 0).val < win0_8.index ⟨(i 1).val / 128, ht⟩ (0 : Fin 2) * 1 + 1
    omega
  | ⟨1, _⟩ =>
    show win0_8.index ⟨(i 1).val / 128, ht⟩ (1 : Fin 2) * 128 ≤ (i 1).val ∧ (i 1).val < win0_8.index ⟨(i 1).val / 128, ht⟩ (1 : Fin 2) * 128 + 128
    have e1' : win0_8.index ⟨(i 1).val / 128, ht⟩ (1 : Fin 2) = (i 1).val / 128 := e1
    omega

/-! ## The result arrays after the launch -/

/-- The hidden-state array ends holding the layer's hidden state of the arrays the launch found. -/
theorem final_7 (c : Dev nD) : (dat0 V c).arrAt 7 cfg0.N
    = hiddenArr (V c main_v0) (V c main_v2) (V c main_v4) (V c main_v5) (V c main_v6) (V c main_v7) (V c main_v8) :=
  (dat0 V c).arrAt_eq_of_cover 7 _ (fun t _ => flushed_7 V c t) cover_7

/-- The cell-state array ends holding the layer's cell state of the arrays the launch found. -/
theorem final_8 (c : Dev nD) : (dat0 V c).arrAt 8 cfg0.N
    = cellArr (V c main_v0) (V c main_v2) (V c main_v4) (V c main_v5) (V c main_v6) (V c main_v7) (V c main_v8) :=
  (dat0 V c).arrAt_eq_of_cover 8 _ (fun t _ => flushed_8 V c t) cover_8

end Cert.KernelIdeal.Region0

end
-- ==== Proof.KRegion1.lean ====
/-
  Kernel launch 1 (an LSTM layer) as a whole: what its two result arrays hold when it returns.

  The launch has 16 grid points; point t is handed the whole input row and recurrent row, rows 128·t … 128·t + 127 of
  every gate of the re-shaped weights and biases and of the previous cell state, and writes back the same 128 units of
  the new hidden state and of the new cell state. Those blocks tile the 2048 units, so each result array ends
  holding the layer's value everywhere.
-/
import proofs.«173036_j7464653160860_2_alg».proof.Proof.Gen.KernelIdeal.Frame
import proofs.«173036_j7464653160860_2_alg».proof.Proof.KLayer

set_option maxRecDepth 16384

open scoped BigOperators

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Layer

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the rows and the cell-state, bias and weight blocks move with the point along
    the hidden-unit axis, everything else stays at block 0. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val
    ∧ win1_8.index t (0 : Fin 2) = 0 ∧ win1_8.index t (1 : Fin 2) = t.val :=
  (by decide +kernel : ∀ t : Fin grid1.N, _)

/-! ## The input blocks at a point -/

theorem blk_0 (c : Dev nD) (t : Fin cfg1.N) (k : Fin 2048) : iblk1 V c 0 t (ix2 0 k) = V c main_v9_0 (ix2 0 k) := by
  obtain ⟨e00, e01, -⟩ := idx_facts t
  show V c main_v9_0 (((cfg1.win 0).blk t).view.emb (ix2 0 k)) = V c main_v9_0 (ix2 0 k)
  refine congrArg (V c main_v9_0) (funext fun a => Fin.ext ?_)
  match a with
  | ⟨0, _⟩ => show win1_0.index t (0 : Fin 2) * 1 + 1 * 0 = 0; omega
  | ⟨1, _⟩ => show win1_0.index t (1 : Fin 2) * 2048 + 1 * k.val = k.val; omega

theorem blk_1 (c : Dev nD) (t : Fin cfg1.N) (k : Fin 2048) : iblk1 V c 1 t (ix2 0 k) = V c main_v11 (ix2 0 k) := by
  obtain ⟨-, -, e10, e11, -⟩ := idx_facts t
  show V c main_v11 (((cfg1.win 1).blk t).view.emb (ix2 0 k)) = V c main_v11 (ix2 0 k)
  refine congrArg (V c main_v11) (funext fun a => Fin.ext ?_)
  match a with
  | ⟨0, _⟩ => show win1_1.index t (0 : Fin 2) * 1 + 1 * 0 = 0; omega
  | ⟨1, _⟩ => show win1_1.index t (1 : Fin 2) * 2048 + 1 * k.val = k.val; omega

theorem blk_2 (c : Dev nD) (t : Fin cfg1.N) (g : Fin 4) (p : Fin 128) (k : Fin 2048) :
    iblk1 V c 2 t (ix3 g p k) = V c main_v14 (ix3 g (unit t.val t.isLt p) k) := by
  obtain ⟨-, -, -, -, e0, e1, e2, -⟩ := idx_facts t
  show V c main_v14 (((cfg1.win 2).blk t).view.emb (ix3 g p k)) = V c main_v14 (ix3 g (unit t.val t.isLt p) k)
  refine congrArg (V c main_v14) (funext fun a => Fin.ext ?_)
  match a with
  | ⟨0, _⟩ => show win1_2.index t (0 : Fin 3) * 4 + 1 * g.val = g.val; omega
  | ⟨1, _⟩ => show win1_2.index t (1 : Fin 3) * 128 + 1 * p.val = t.val * 128 + p.val; omega
  | ⟨2, _⟩ => show win1_2.index t (2 : Fin 3) * 2048 + 1 * k.val = k.val; omega

theorem blk_3 (c : Dev nD) (t : Fin cfg1.N) (g : Fin 4) (p : Fin 128) (k : Fin 2048) :
    iblk1 V c 3 t (ix3 g p k) = V c main_v15 (ix3 g (unit t.val t.isLt p) k) := by
  obtain ⟨-, -, -, -, -, -, -, e0, e1, e2, -⟩ := idx_facts t
  show V c main_v15 (((cfg1.win 3).blk t).view.emb (ix3 g p k)) = V c main_v15 (ix3 g (unit t.val t.isLt p) k)
  refine congrArg (V c main_v15) (funext fun a => Fin.ext ?_)
  match a with
  | ⟨0, _⟩ => show win1_3.index t (0 : Fin 3) * 4 + 1 * g.val = g.val; omega
  | ⟨1, _⟩ => show win1_3.index t (1 : Fin 3) * 128 + 1 * p.val = t.val * 128 + p.val; omega
  | ⟨2, _⟩ => show win1_3.index t (2 : Fin 3) * 2048 + 1 * k.val = k.val; omega

theorem blk_4 (c : Dev nD) (t : Fin cfg1.N) (g : Fin 4) (p : Fin 128) :
    iblk1 V c 4 t (ix2 g p) = V c main_v16 (ix2 g (unit t.val t.isLt p)) := by
  obtain ⟨-, -, -, -, -, -, -, -, -, -, e0, e1, -⟩ := idx_facts t
  show V c main_v16 (((cfg1.win 4).blk t).view.emb (ix2 g p)) = V c main_v16 (ix2 g (unit t.val t.isLt p))
  refine congrArg (V c main_v16) (funext fun a => Fin.ext ?_)
  match a with
  | ⟨0, _⟩ => show win1_4.index t (0 : Fin 2) * 4 + 1 * g.val = g.val; omega
  | ⟨1, _⟩ => show win1_4.index t (1 : Fin 2) * 128 + 1 * p.val = t.val * 128 + p.val; omega

theorem blk_5 (c : Dev nD) (t : Fin cfg1.N) (g : Fin 4) (p : Fin 128) :
    iblk1 V c 5 t (ix2 g p) = V c main_v17 (ix2 g (unit t.val t.isLt p)) := by
  obtain ⟨-, -, -, -, -, -, -, -, -, -, -, -, e0, e1, -⟩ := idx_facts t
  show V c main_v17 (((cfg1.win 5).blk t).view.emb (ix2 g p)) = V c main_v17 (ix2 g (unit t.val t.isLt p))
  refine congrArg (V c main_v17) (funext fun a => Fin.ext ?_)
  match a with
  | ⟨0, _⟩ => show win1_5.index t (0 : Fin 2) * 4 + 1 * g.val = g.val; omega
  | ⟨1, _⟩ => show win1_5.index t (1 : Fin 2) * 128 + 1 * p.val = t.val * 128 + p.val; omega

theorem blk_6 (c : Dev nD) (t : Fin cfg1.N) (p : Fin 128) :
    iblk1 V c 6 t (ix2 0 p) = V c main_v13 (ix2 0 (unit t.val t.isLt p)) := by
  obtain ⟨-, -, -, -, -, -, -, -, -, -, -, -, -, -, e0, e1, -⟩ := idx_facts t
  show V c main_v13 (((cfg1.win 6).blk t).view.emb (ix2 0 p)) = V c main_v13 (ix2 0 (unit t.val t.isLt p))
  refine congrArg (V c main_v13) (funext fun a => Fin.ext ?_)
  match a with
  | ⟨0, _⟩ => show win1_6.index t (0 : Fin 2) * 1 + 1 * 0 = 0; omega
  | ⟨1, _⟩ => show win1_6.index t (1 : Fin 2) * 128 + 1 * p.val = t.val * 128 + p.val; omega

/-! ## What a point writes back -/

/-- Point t writes back block t of the layer's hidden state. -/
theorem flushed_7 (c : Dev nD) (t : Fin cfg1.N) :
    (dat1 V c).flushed 7 t = ((cfg1.win 7).blk t).view.read (Elt Ideal)
      (hiddenArr (V c main_v9_0) (V c main_v11) (V c main_v13) (V c main_v14) (V c main_v15) (V c main_v16) (V c main_v17)) := by
  show (cfg1.win 7).cut (grid1.coords t) ((dat1 V c).after 7 t) = _
  rw [after1_7]
  unfold out1_7
  rw [View.canon_unit_zero hz2]
  simp only [View.ld_unit_zero (S := S1x2048) hz2, View.ld_unit_zero (S := S4x128x2048) hz3,
    View.ld_unit_zero (S := S4x128) hz2, View.ld_unit_zero (S := S1x128) hz2]
  obtain ⟨-, -, -, -, -, -, -, -, -, -, -, -, -, -, -, -, e0, e1, -⟩ := idx_facts t
  funext y
  refine hidden1_point (iblk1 V c 0 t) (iblk1 V c 1 t) (iblk1 V c 2 t) (iblk1 V c 3 t) (iblk1 V c 4 t) (iblk1 V c 5 t)
    (iblk1 V c 6 t) (V c main_v9_0) (V c main_v11) (V c main_v13) (V c main_v14) (V c main_v15) (V c main_v16) (V c main_v17) t.val t.isLt
    (blk_0 V c t) (blk_1 V c t) (blk_2 V c t) (blk_3 V c t) (blk_4 V c t) (blk_5 V c t) (blk_6 V c t) y
    (((cfg1.win 7).blk t).view.emb y) ?_
  show win1_7.index t (1 : Fin 2) * 128 + 1 * (y 1).val = t.val * 128 + (y 1).val
  omega

/-- Point t writes back block t of the layer's cell state. -/
theorem flushed_8 (c : Dev nD) (t : Fin cfg1.N) :
    (dat1 V c).flushed 8 t = ((cfg1.win 8).blk t).view.read (Elt Ideal)
      (cellArr (V c main_v9_0) (V c main_v11) (V c main_v13) (V c main_v14) (V c main_v15) (V c main_v16) (V c main_v17)) := by
  show (cfg1.win 8).cut (grid1.coords t) ((dat1 V c).after 8 t) = _
  rw [after1_8]
  unfold out1_8
  rw [View.canon_unit_zero hz2]
  simp only [View.ld_unit_zero (S := S1x2048) hz2, View.ld_unit_zero (S := S4x128x2048) hz3,
    View.ld_unit_zero (S := S4x128) hz2, View.ld_unit_zero (S := S1x128) hz2]
  obtain ⟨-, -, -, -, -, -, -, -, -, -, -, -, -, -, -, -, -, -, e0, e1⟩ := idx_facts t
  funext y
  refine cell1_point (iblk1 V c 0 t) (iblk1 V c 1 t) (iblk1 V c 2 t) (iblk1 V c 3 t) (iblk1 V c 4 t) (iblk1 V c 5 t)
    (iblk1 V c 6 t) (V c main_v9_0) (V c main_v11) (V c main_v13) (V c main_v14) (V c main_v15) (V c main_v16) (V c main_v17) t.val t.isLt
    (blk_0 V c t) (blk_1 V c t) (blk_2 V c t) (blk_3 V c t) (blk_4 V c t) (blk_5 V c t) (blk_6 V c t) y
    (((cfg1.win 8).blk t).view.emb y) ?_
  show win1_8.index t (1 : Fin 2) * 128 + 1 * (y 1).val = t.val * 128 + (y 1).val
  omega

/-! ## The blocks tile the arrays -/

theorem mem_blk_7 (t : Fin cfg1.N) (i : S1x2048.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v18_0).slice (win1_7.rect t)).set ↔ _
  rw [View.set_slice_whole, Rect.mem_set_unit]
  exact Iff.rfl

theorem mem_blk_8 (t : Fin cfg1.N) (i : S1x2048.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v18_1).slice (win1_8.rect t)).set ↔ _
  rw [View.set_slice_whole, Rect.mem_set_unit]
  exact Iff.rfl

theorem cover_7 (i : S1x2048.Idx) : ∃ t : Fin cfg1.N, (cfg1.win 7).flush t = true ∧ i ∈ ((cfg1.win 7).blk t).view.set := by
  have hi0 : (i 0).val < 1 := (i 0).isLt
  have hi1 : (i 1).val < 2048 := (i 1).isLt
  have ht : (i 1).val / 128 < 16 := by omega
  obtain ⟨-, -, -, -, -, -, -, -, -, -, -, -, -, -, -, -, e0, e1, -⟩ := idx_facts ⟨(i 1).val / 128, ht⟩
  refine ⟨⟨(i 1).val / 128, ht⟩, flush1_7 _, ?_⟩
  rw [mem_blk_7]
  intro a
  match a with
  | ⟨0, _⟩ =>
    show win1_7.index ⟨(i 1).val / 128, ht⟩ (0 : Fin 2) * 1 ≤ (i 0).val ∧ (i 0).val < win1_7.index ⟨(i 1).val / 128, ht⟩ (0 : Fin 2) * 1 + 1
    omega
  | ⟨1, _⟩ =>
    show win1_7.index ⟨(i 1).val / 128, ht⟩ (1 : Fin 2) * 128 ≤ (i 1).val ∧ (i 1).val < win1_7.index ⟨(i 1).val / 128, ht⟩ (1 : Fin 2) * 128 + 128
    have e1' : win1_7.index ⟨(i 1).val / 128, ht⟩ (1 : Fin 2) = (i 1).val / 128 := e1
    omega

theorem cover_8 (i : S1x2048.Idx) : ∃ t : Fin cfg1.N, (cfg1.win 8).flush t = true ∧ i ∈ ((cfg1.win 8).blk t).view.set := by
  have hi0 : (i 0).val < 1 := (i 0).isLt
  have hi1 : (i 1).val < 2048 := (i 1).isLt
  have ht : (i 1).val / 128 < 16 := by omega
  obtain ⟨-, -, -, -, -, -, -, -, -, -, -, -, -, -, -, -, -, -, e0, e1⟩ := idx_facts ⟨(i 1).val / 128, ht⟩
  refine ⟨⟨(i 1).val / 128, ht⟩, flush1_8 _, ?_⟩
  rw [mem_blk_8]
  intro a
  match a with
  | ⟨0, _⟩ =>
    show win1_8.index ⟨(i 1).val / 128, ht⟩ (0 : Fin 2) * 1 ≤ (i 0).val ∧ (i 0).val < win1_8.index ⟨(i 1).val / 128, ht⟩ (0 : Fin 2) * 1 + 1
    omega
  | ⟨1, _⟩ =>
    show win1_8.index ⟨(i 1).val / 128, ht⟩ (1 : Fin 2) * 128 ≤ (i 1).val ∧ (i 1).val < win1_8.index ⟨(i 1).val / 128, ht⟩ (1 : Fin 2) * 128 + 128
    have e1' : win1_8.index ⟨(i 1).val / 128, ht⟩ (1 : Fin 2) = (i 1).val / 128 := e1
    omega

/-! ## The result arrays after the launch -/

/-- The hidden-state array ends holding the layer's hidden state of the arrays the launch found. -/
theorem final_7 (c : Dev nD) : (dat1 V c).arrAt 7 cfg1.N
    = hiddenArr (V c main_v9_0) (V c main_v11) (V c main_v13) (V c main_v14) (V c main_v15) (V c main_v16) (V c main_v17) :=
  (dat1 V c).arrAt_eq_of_cover 7 _ (fun t _ => flushed_7 V c t) cover_7

/-- The cell-state array ends holding the layer's cell state of the arrays the launch found. -/
theorem final_8 (c : Dev nD) : (dat1 V c).arrAt 8 cfg1.N
    = cellArr (V c main_v9_0) (V c main_v11) (V c main_v13) (V c main_v14) (V c main_v15) (V c main_v16) (V c main_v17) :=
  (dat1 V c).arrAt_eq_of_cover 8 _ (fun t _ => flushed_8 V c t) cover_8

end Cert.KernelIdeal.Region1

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«173036_j7464653160860_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«173036_j7464653160860_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibLogSoftmaxRows.lean ====
/-
  The logarithm of the softmax along each row of an a×b array, on the extended reals.

  For a row p write top(p) for its largest entry joined with −∞, and lse(p) for the logarithm of the sum over k of
  e^(x(p, k) − top(p)). The reference groups the result as (x(p, q) − top(p)) − lse(p); a kernel body may group it as
  x(p, q) − (top(p) + lse(p)). The two agree whenever top(p) is a real — subtracting a sum is subtracting its terms
  one after the other as long as the first term is not an infinity — and top(p) is a real as soon as the row is not
  empty and holds reals. Both spellings are read here once at an index (the kernel body's: lane maximum with a −∞
  accumulator, re-shaped [a]→[a,1], broadcast, subtract, exponential, lane sum, logarithm, add, broadcast, subtract;
  the reference's: max-reduce from −∞ joined with a −∞ splat, two broadcasts, subtract, exponential, sum-reduce from
  zero, broadcast, logarithm, broadcast, subtract), and an entry of the result depends on one row only.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«173036_j7464653160860_2_alg».proof.Proof.LibIdealSums
import proofs.«173036_j7464653160860_2_alg».proof.Proof.LibRowReductions
import proofs.«173036_j7464653160860_2_alg».proof.Proof.LibRowVector
import proofs.«173036_j7464653160860_2_alg».proof.Proof.LibHostRows

open scoped BigOperators

noncomputable section

namespace Cert.Lib.LogSoftmaxRows

open Idealize.ShloMosaic Idealize.ShloMosaic.ValueIdx Cert.Lib.IdealSums Cert.Lib.RowReductions

variable {a a' b : Nat}

/-- The largest entry of row p, joined with −∞. -/
def rowTop (x : (⟨2, ![a, b]⟩ : Shape).Idx → EReal) (p : Fin a) : EReal :=
  (Finset.univ : Finset (Fin b)).fold max ⊥ (fun k => x (ix2 p k))

/-- The logarithm of the sum of the exponentials of row p's entries, each less the row's top. -/
def rowLogSum (x : (⟨2, ![a, b]⟩ : Shape).Idx → EReal) (p : Fin a) : EReal :=
  Ideal.log (∑ k : Fin b, Ideal.exp (x (ix2 p k) - rowTop x p))

/-- The logarithm of the softmax along each row, grouped as the reference does: (x − top) − lse. -/
def logSoftmax (x : (⟨2, ![a, b]⟩ : Shape).Idx → EReal) : (⟨2, ![a, b]⟩ : Shape).Idx → EReal :=
  fun i => (x i - rowTop x ⟨(i 0).val, idx2_lt0 i⟩) - rowLogSum x ⟨(i 0).val, idx2_lt0 i⟩

/-- The same grouped as x − (top + lse). -/
def logSoftmaxK (x : (⟨2, ![a, b]⟩ : Shape).Idx → EReal) : (⟨2, ![a, b]⟩ : Shape).Idx → EReal :=
  fun i => x i - (rowTop x ⟨(i 0).val, idx2_lt0 i⟩ + rowLogSum x ⟨(i 0).val, idx2_lt0 i⟩)

theorem logSoftmax_apply (x : (⟨2, ![a, b]⟩ : Shape).Idx → EReal) (p : Fin a) (q : Fin b) :
    logSoftmax x (ix2 p q) = (x (ix2 p q) - rowTop x p) - rowLogSum x p := rfl

theorem logSoftmaxK_apply (x : (⟨2, ![a, b]⟩ : Shape).Idx → EReal) (p : Fin a) (q : Fin b) :
    logSoftmaxK x (ix2 p q) = x (ix2 p q) - (rowTop x p + rowLogSum x p) := rfl

/-! ## The two groupings agree over reals -/

/-- Subtracting a sum whose first term is a real is subtracting its terms one after the other. -/
theorem sub_add_of_isReal (x m l : EReal) (hm : IsReal m) : x - (m + l) = (x - m) - l := by
  obtain ⟨r, rfl⟩ := hm
  rw [sub_eq_add_neg, sub_eq_add_neg, sub_eq_add_neg,
    EReal.neg_add (Or.inl (EReal.coe_ne_bot r)) (Or.inl (EReal.coe_ne_top r)), sub_eq_add_neg, add_assoc]

/-- The top of a row of reals that is not empty is a real: it is below +∞ since every entry is, and above −∞ since
    some entry is. -/
theorem rowTop_isReal (x : (⟨2, ![a, b]⟩ : Shape).Idx → EReal) (p : Fin a) (hb : 0 < b)
    (h : ∀ k : Fin b, IsReal (x (ix2 p k))) : IsReal (rowTop x p) := by
  refine isReal_iff.2 ⟨ne_of_lt ?_, ne_of_gt ?_⟩
  · exact (Finset.fold_max_lt (c := (⊤ : EReal))).2 ⟨bot_lt_top, fun k _ => lt_top_iff_ne_top.2 (h k).ne_top⟩
  · exact (Finset.lt_fold_max (c := (⊥ : EReal))).2 (Or.inr ⟨⟨0, hb⟩, Finset.mem_univ _, bot_lt_iff_ne_bot.2 (h _).ne_bot⟩)

/-- Over an array of reals with rows that are not empty the two groupings are one function. -/
theorem logSoftmaxK_eq (x : (⟨2, ![a, b]⟩ : Shape).Idx → EReal) (hb : 0 < b) (h : ∀ i, IsReal (x i)) :
    logSoftmaxK x = logSoftmax x := by
  funext i
  obtain ⟨p, q, rfl⟩ : ∃ (p : Fin a) (q : Fin b), i = ix2 p q := ⟨i 0, i 1, eq_ix2 i⟩
  rw [logSoftmaxK_apply, logSoftmax_apply]
  exact sub_add_of_isReal _ _ _ (rowTop_isReal x p hb fun k => h _)

/-! ## An entry depends on one row -/

theorem rowTop_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowTop x' p' = rowTop x p := by
  unfold rowTop
  exact congrArg (fun f => Finset.fold max ⊥ f (Finset.univ : Finset (Fin b))) (funext h)

theorem rowLogSum_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowLogSum x' p' = rowLogSum x p := by
  unfold rowLogSum
  rw [rowTop_congr x x' p' p h]
  exact congrArg Ideal.log (Finset.sum_congr rfl fun k _ => by rw [h k])

/-- If row (y 0) of x' is row (i 0) of x and y, i have the same column, the result of x' at y is that of x at i. -/
theorem logSoftmaxK_rows (x : (⟨2, ![a, b]⟩ : Shape).Idx → EReal) (x' : (⟨2, ![a', b]⟩ : Shape).Idx → EReal)
    (y : (⟨2, ![a', b]⟩ : Shape).Idx) (i : (⟨2, ![a, b]⟩ : Shape).Idx)
    (h : ∀ k : Fin b, x' (ix2 (⟨(y 0).val, idx2_lt0 y⟩ : Fin a') k) = x (ix2 (⟨(i 0).val, idx2_lt0 i⟩ : Fin a) k))
    (hcol : (y 1).val = (i 1).val) : logSoftmaxK x' y = logSoftmaxK x i := by
  obtain ⟨p', q', rfl⟩ : ∃ (p' : Fin a') (q' : Fin b), y = ix2 p' q' := ⟨y 0, y 1, eq_ix2 y⟩
  obtain ⟨p, q, rfl⟩ : ∃ (p : Fin a) (q : Fin b), i = ix2 p q := ⟨i 0, i 1, eq_ix2 i⟩
  have hq : q' = q := Fin.ext hcol
  subst hq
  rw [logSoftmaxK_apply, logSoftmaxK_apply, rowTop_congr x x' p' p h, rowLogSum_congr x x' p' p h]
  exact congrArg (· - _) (h q')

/-! ## The kernel body's spelling -/

/-- Lane maximum into a −∞ accumulator, re-shaped to a column, broadcast and subtracted; exponential; lane sum into a
    zero accumulator, re-shaped to a column; logarithm; the two columns added, broadcast and subtracted from the
    block: `logSoftmaxK` of the block. -/
theorem body_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf x (broadcastTo ⟨2, ![a, b]⟩
      (addf (shapeCast ⟨2, ![a, 1]⟩ (multiReduction .maximumf [1] ⟨1, ![a]⟩ x 0xFF800000#32 hr hφ hmax) hc)
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc))) hb)
      = logSoftmaxK x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, broadcast_col_apply, addf_apply, top, logSoftmaxK_apply]
  refine congrArg (fun z => x (ix2 p q) - (rowTop x p + z)) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

/-! ## The reference's spelling -/

/-- Max-reduce along each row from −∞, joined with a −∞ splat, broadcast [n]→[n,1]→[n,c] and subtracted; exponential;
    sum-reduce from zero, broadcast [n]→[n,1]; logarithm; broadcast to [n,c] and subtracted: `logSoftmax`. -/
theorem host_eq {n c : Nat} (L : FVec Ideal ⟨2, ![n, c]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, c]⟩ ![0, 1])
    (hr : (⟨2, ![n, c]⟩ : Shape).ReducesTo [1] ⟨1, ![n]⟩) (hu : 0 < (⟨0, ![]⟩ : Shape).numel) :
    subf (subf L (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf L (constant (F := Ideal) ⟨0, ![]⟩ .f32 0xFF800000#32) hr hu)))))
      (broadcastInDim ⟨2, ![n, c]⟩ ![0, 1] h2 (Host.log (broadcastInDim ⟨2, ![n, 1]⟩ ![0] h1
        (Host.reduceAdd (Host.exp (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr hu))))))
          (constant (F := Ideal) ⟨0, ![]⟩ .f32 0x00000000#32) hr hu))))
      = logSoftmax L := by
  have top : ∀ p : Fin n,
      maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr hu) (ix1 p) = rowTop L p := by
    intro p
    rw [maximumf_apply, Cert.Lib.RowVector.bcastInDim_scalar_apply, host_rowmax_apply]
    show max (Ideal.ofBits .f32 0xFF800000#32) (Finset.fold max (Ideal.ofBits .f32 0xFF800000#32) _ _) = _
    rw [ofBits_neg_inf_f32, fold_max_bot]
    rfl
  funext i
  obtain ⟨p, q, rfl⟩ : ∃ (p : Fin n) (q : Fin c), i = ix2 p q := ⟨i 0, i 1, eq_ix2 i⟩
  rw [subf_apply, subf_apply, bcastInDim_cols_apply, bcastInDim_col_apply, top, bcastInDim_cols_apply, logSoftmax_apply]
  refine congrArg (fun z => (L (ix2 p q) - rowTop L p) - z) ?_
  show Ideal.log _ = _
  rw [bcastInDim_col_apply, Cert.Lib.HostRows.host_rowsum_apply]
  show Ideal.log (Ideal.ofBits .f32 0x00000000#32 + _) = _
  rw [Ideal.ofBits_zero_f32, zero_add]
  refine congrArg Ideal.log (Finset.sum_congr rfl fun k _ => ?_)
  show Ideal.exp (L (ix2 p k) - _) = _
  rw [bcastInDim_cols_apply, bcastInDim_col_apply, top]

end Cert.Lib.LogSoftmaxRows

end
-- ==== Proof.LibLogSoftmaxBody.lean ====
/-
  A second kernel-body spelling of the logarithm of the softmax along each row of an a×b array, on the extended reals:
  the row maximum (a lane maximum into a −∞ accumulator, re-shaped [a]→[a,1] and broadcast) is subtracted FIRST, and the
  logarithm of the row sum of the exponentials (a lane sum into a zero accumulator, re-shaped, its logarithm broadcast) is
  subtracted from that difference — (x − top) − lse, the grouping of `logSoftmax`. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«173036_j7464653160860_2_alg».proof.Proof.LibRowReductions
import proofs.«173036_j7464653160860_2_alg».proof.Proof.LibLogSoftmaxRows

open scoped BigOperators

noncomputable section

namespace Cert.Lib.LogSoftmaxBody

open Idealize.ShloMosaic Idealize.ShloMosaic.ValueIdx Cert.Lib.RowReductions Cert.Lib.LogSoftmaxRows

variable {a b : Nat}

/-- Lane maximum into a −∞ accumulator, re-shaped to a column, broadcast and subtracted; exponential; lane sum into a
    zero accumulator, re-shaped to a column; its logarithm broadcast and subtracted from the first difference:
    `logSoftmax` of the block. -/
theorem body_grouped_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf (subf x (broadcastTo ⟨2, ![a, b]⟩
        (shapeCast ⟨2, ![a, 1]⟩ (multiReduction .maximumf [1] ⟨1, ![a]⟩ x 0xFF800000#32 hr hφ hmax) hc) hb))
      (broadcastTo ⟨2, ![a, b]⟩
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc)) hb)
      = logSoftmax x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, subf_apply, broadcast_col_apply, top, broadcast_col_apply, logSoftmax_apply]
  refine congrArg (fun z => (x (ix2 p q) - rowTop x p) - z) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

end Cert.Lib.LogSoftmaxBody

end
-- ==== Proof.KTail.lean ====
/-
  The read-out kernels, one grid point at a time, on the extended reals.

  The linear kernel holds the whole 1×3072 input row, rows 640·T … 640·T + 639 of the 32000×3072 weight array and the
  matching 640 entries of the bias row; it stores x · W[n, :] + b[n] for those n (a product into a zero accumulator
  contracting the columns of both operands; narrowing to bf16 is the identity on the extended reals). The last kernel
  holds the whole 1×32000 row of logits and stores (x − top) − log Σ e^(x − top), top the row's largest entry joined
  with −∞: the logarithm of the softmax of the row.
-/
import proofs.«173036_j7464653160860_2_alg».proof.Proof.Gen.KernelIdeal.Skeleton
import proofs.«173036_j7464653160860_2_alg».proof.Proof.LibBlockReads
import proofs.«173036_j7464653160860_2_alg».proof.Proof.LibRowReductions
import proofs.«173036_j7464653160860_2_alg».proof.Proof.LibLogSoftmaxRows
import proofs.«173036_j7464653160860_2_alg».proof.Proof.LibLogSoftmaxBody
import Idealize.ShloMosaic.PureOps.Ideal.Laws
import Idealize.ShloMosaic.Lib.ValueIdx
import Idealize.ShloMosaic.Lib.Pipeline.Value

open scoped BigOperators

noncomputable section

namespace Cert.KernelIdeal.Tail

open Idealize.ShloMosaic Idealize.ShloMosaic.ValueIdx Cert.KernelIdeal Cert.KernelIdeal.Gen
open Cert.Lib.RowReductions Cert.Lib.LogSoftmaxRows

/-! ## The linear layer -/

/-- Entry n of the linear layer from the arrays as the kernel is given them (the bias already a 1×32000 row). -/
def linK (X : S1x3072.Idx → EReal) (W : S32000x3072.Idx → EReal) (B : S1x32000.Idx → EReal) (n : Fin 32000) : EReal :=
  (∑ k : Fin 3072, X (ix2 0 k) * W (ix2 n k)) + B (ix2 0 n)

/-- The linear layer as a 1×32000 array. -/
def linArr (X : S1x3072.Idx → EReal) (W : S32000x3072.Idx → EReal) (B : S1x32000.Idx → EReal) : S1x32000.Idx → EReal :=
  fun i => linK X W B ⟨(i 1).val, idx2_lt1 i⟩

/-- Every index of a 1×640 block is (0, its column). -/
theorem blk_row (y : S1x640.Idx) : y = ix2 0 ⟨(y 1).val, idx2_lt1 y⟩ := by
  funext d
  match d with
  | ⟨0, _⟩ =>
    have h : (y 0).val < 1 := (y 0).isLt
    exact Fin.ext (by show (y 0).val = 0; omega)
  | ⟨1, _⟩ => rfl

/-- What the body stores at entry p of the block. -/
theorem lin_apply (x0 : Vec Ideal S1x3072 .f32) (x1 : Vec Ideal S640x3072 .f32) (x2 : Vec Ideal S1x640 .f32) (p : Fin 640) :
    k2_pay1 x0 x1 x2 (ix2 0 p) = (∑ k : Fin 3072, x0 (ix2 0 k) * x1 (ix2 p k)) + x2 (ix2 0 p) := by
  unfold k2_pay1
  simp only [shapeCast_self]
  rw [addf_apply, Cert.Lib.BlockReads.matmul_zero_cols_apply dot_S1x3072_S640x3072_S1x640_1_1_0_0_n_n rfl rfl rfl rfl rfl rfl]
  rfl

/-- Entry n = 640·T + p of the layer is entry p of point T's block. -/
def entry (T : Nat) (hT : T < 50) (p : Fin 640) : Fin 32000 := ⟨T * 640 + p.val, by have := p.isLt; omega⟩

theorem lin_point (x0 : S1x3072.Idx → EReal) (x1 : S640x3072.Idx → EReal) (x2 : S1x640.Idx → EReal)
    (X : S1x3072.Idx → EReal) (W : S32000x3072.Idx → EReal) (B : S1x32000.Idx → EReal) (T : Nat) (hT : T < 50)
    (h0 : ∀ k : Fin 3072, x0 (ix2 0 k) = X (ix2 0 k))
    (h1 : ∀ (p : Fin 640) (k : Fin 3072), x1 (ix2 p k) = W (ix2 (entry T hT p) k))
    (h2 : ∀ p : Fin 640, x2 (ix2 0 p) = B (ix2 0 (entry T hT p)))
    (y : S1x640.Idx) (i : S1x32000.Idx) (hi : (i 1).val = T * 640 + (y 1).val) :
    k2_pay1 (F := Ideal) x0 x1 x2 y = linArr X W B i := by
  rw [blk_row y, lin_apply]
  unfold linArr linK
  simp only [h0, h1, h2]
  have e : entry T hT ⟨(y 1).val, idx2_lt1 y⟩ = ⟨(i 1).val, idx2_lt1 i⟩ := Fin.ext hi.symm
  rw [e]

/-! ## The logarithm of the softmax -/

/-- The body's spelling is the logarithm of the softmax of the row. -/
theorem logsoftmax_body (x : Vec Ideal S1x32000 .f32) : k3_pay1 x = logSoftmax (a := 1) (b := 32000) x := by
  unfold k3_pay1
  simp only [shapeCast_self]
  exact Cert.Lib.LogSoftmaxBody.body_grouped_eq (a := 1) (b := 32000) x reduces_S1x32000_S1 shapeCasts_S1_S1x1
    broadcasts_S1x1_S1x32000 (.inl rfl) rfl rfl

theorem logsoftmax_point (x0 L : S1x32000.Idx → EReal) (h0 : ∀ i, x0 i = L i) (y i : S1x32000.Idx) (hi : i = y) :
    k3_pay1 (F := Ideal) x0 y = logSoftmax (a := 1) (b := 32000) L i := by
  have e : x0 = L := funext h0
  subst e
  subst hi
  rw [logsoftmax_body]

end Cert.KernelIdeal.Tail

end
-- ==== Proof.KRegion2.lean ====
/-
  Kernel launch 2 (the linear read-out) as a whole. Its 50 grid points each take the whole input row, 640 consecutive rows
  of the weight array and the matching 640 bias entries, and write back those 640 entries of the result; the blocks tile
  the 32000 entries, so the result array ends holding the layer everywhere.
-/
import proofs.«173036_j7464653160860_2_alg».proof.Proof.Gen.KernelIdeal.Frame
import proofs.«173036_j7464653160860_2_alg».proof.Proof.KTail

set_option maxRecDepth 16384

open scoped BigOperators

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Tail

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the weight rows, the bias entries and the result entries move with the point. -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

theorem blk_0 (c : Dev nD) (t : Fin cfg2.N) (k : Fin 3072) : iblk2 V c 0 t (ix2 0 k) = V c main_v19 (ix2 0 k) := by
  obtain ⟨e00, e01, -⟩ := idx_facts t
  show V c main_v19 (((cfg2.win 0).blk t).view.emb (ix2 0 k)) = V c main_v19 (ix2 0 k)
  refine congrArg (V c main_v19) (funext fun a => Fin.ext ?_)
  match a with
  | ⟨0, _⟩ => show win2_0.index t (0 : Fin 2) * 1 + 1 * 0 = 0; omega
  | ⟨1, _⟩ => show win2_0.index t (1 : Fin 2) * 3072 + 1 * k.val = k.val; omega

theorem blk_1 (c : Dev nD) (t : Fin cfg2.N) (p : Fin 640) (k : Fin 3072) :
    iblk2 V c 1 t (ix2 p k) = V c main_arg12 (ix2 (entry t.val t.isLt p) k) := by
  obtain ⟨-, -, e0, e1, -⟩ := idx_facts t
  show V c main_arg12 (((cfg2.win 1).blk t).view.emb (ix2 p k)) = V c main_arg12 (ix2 (entry t.val t.isLt p) k)
  refine congrArg (V c main_arg12) (funext fun a => Fin.ext ?_)
  match a with
  | ⟨0, _⟩ => show win2_1.index t (0 : Fin 2) * 640 + 1 * p.val = t.val * 640 + p.val; omega
  | ⟨1, _⟩ => show win2_1.index t (1 : Fin 2) * 3072 + 1 * k.val = k.val; omega

theorem blk_2 (c : Dev nD) (t : Fin cfg2.N) (p : Fin 640) :
    iblk2 V c 2 t (ix2 0 p) = V c main_v20 (ix2 0 (entry t.val t.isLt p)) := by
  obtain ⟨-, -, -, -, e0, e1, -⟩ := idx_facts t
  show V c main_v20 (((cfg2.win 2).blk t).view.emb (ix2 0 p)) = V c main_v20 (ix2 0 (entry t.val t.isLt p))
  refine congrArg (V c main_v20) (funext fun a => Fin.ext ?_)
  match a with
  | ⟨0, _⟩ => show win2_2.index t (0 : Fin 2) * 1 + 1 * 0 = 0; omega
  | ⟨1, _⟩ => show win2_2.index t (1 : Fin 2) * 640 + 1 * p.val = t.val * 640 + p.val; omega

/-- Point t writes back block t of the linear layer. -/
theorem flushed_3 (c : Dev nD) (t : Fin cfg2.N) :
    (dat2 V c).flushed 3 t = ((cfg2.win 3).blk t).view.read (Elt Ideal) (linArr (V c main_v19) (V c main_arg12) (V c main_v20)) := by
  show (cfg2.win 3).cut (grid2.coords t) ((dat2 V c).after 3 t) = _
  rw [after2_3]
  unfold out2_3
  rw [View.canon_unit_zero hz2]
  simp only [View.ld_unit_zero (S := S1x3072) hz2, View.ld_unit_zero (S := S640x3072) hz2, View.ld_unit_zero (S := S1x640) hz2]
  obtain ⟨-, -, -, -, -, -, e0, e1⟩ := idx_facts t
  funext y
  refine lin_point (iblk2 V c 0 t) (iblk2 V c 1 t) (iblk2 V c 2 t) (V c main_v19) (V c main_arg12) (V c main_v20) t.val t.isLt
    (blk_0 V c t) (blk_1 V c t) (blk_2 V c t) y (((cfg2.win 3).blk t).view.emb y) ?_
  show win2_3.index t (1 : Fin 2) * 640 + 1 * (y 1).val = t.val * 640 + (y 1).val
  omega

theorem mem_blk_3 (t : Fin cfg2.N) (i : S1x32000.Idx) :
    i ∈ ((cfg2.win 3).blk t).view.set ↔ ∀ a : Fin 2, win2_3.index t a * S1x640.size a ≤ (i a).val ∧ (i a).val < win2_3.index t a * S1x640.size a + S1x640.size a := by
  show i ∈ ((View.whole main_v21).slice (win2_3.rect t)).set ↔ _
  rw [View.set_slice_whole, Rect.mem_set_unit]
  exact Iff.rfl

theorem cover_3 (i : S1x32000.Idx) : ∃ t : Fin cfg2.N, (cfg2.win 3).flush t = true ∧ i ∈ ((cfg2.win 3).blk t).view.set := by
  have hi0 : (i 0).val < 1 := (i 0).isLt
  have hi1 : (i 1).val < 32000 := (i 1).isLt
  have ht : (i 1).val / 640 < 50 := by omega
  obtain ⟨-, -, -, -, -, -, e0, e1⟩ := idx_facts ⟨(i 1).val / 640, ht⟩
  refine ⟨⟨(i 1).val / 640, ht⟩, flush2_3 _, ?_⟩
  rw [mem_blk_3]
  intro a
  match a with
  | ⟨0, _⟩ =>
    show win2_3.index ⟨(i 1).val / 640, ht⟩ (0 : Fin 2) * 1 ≤ (i 0).val ∧ (i 0).val < win2_3.index ⟨(i 1).val / 640, ht⟩ (0 : Fin 2) * 1 + 1
    omega
  | ⟨1, _⟩ =>
    show win2_3.index ⟨(i 1).val / 640, ht⟩ (1 : Fin 2) * 640 ≤ (i 1).val ∧ (i 1).val < win2_3.index ⟨(i 1).val / 640, ht⟩ (1 : Fin 2) * 640 + 640
    have e1' : win2_3.index ⟨(i 1).val / 640, ht⟩ (1 : Fin 2) = (i 1).val / 640 := e1
    omega

/-- The result array ends holding the linear layer of the arrays the launch found. -/
theorem final_3 (c : Dev nD) : (dat2 V c).arrAt 3 cfg2.N = linArr (V c main_v19) (V c main_arg12) (V c main_v20) :=
  (dat2 V c).arrAt_eq_of_cover 3 _ (fun t _ => flushed_3 V c t) cover_3

end Cert.KernelIdeal.Region2

end
-- ==== Proof.KRegion3.lean ====
/-
  Kernel launch 3 (the logarithm of the softmax) as a whole: one grid point holding the whole 1×32000 row of logits,
  which writes the whole result row back.
-/
import proofs.«173036_j7464653160860_2_alg».proof.Proof.Gen.KernelIdeal.Frame
import proofs.«173036_j7464653160860_2_alg».proof.Proof.KTail

set_option maxRecDepth 16384

open scoped BigOperators

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Tail Cert.Lib.LogSoftmaxRows

variable (V : (c : Dev nD) → (b : Ref sig .tc) → Buf (Elt Ideal) ((c : Thread nD τ).loc b))

theorem hz2 : (![0, 0] : Fin 2 → Nat) = fun _ => 0 := funext fun a => by fin_cases a <;> rfl

/-- The one point's blocks sit at block 0 of both arrays. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0 :=
  (by decide +kernel : ∀ t : Fin grid3.N, _)

theorem blk_0 (c : Dev nD) (t : Fin cfg3.N) (y : S1x32000.Idx) : iblk3 V c 0 t y = V c main_v21 y := by
  obtain ⟨e00, e01, -⟩ := idx_facts t
  show V c main_v21 (((cfg3.win 0).blk t).view.emb y) = V c main_v21 y
  refine congrArg (V c main_v21) (funext fun a => Fin.ext ?_)
  match a with
  | ⟨0, _⟩ => show win3_0.index t (0 : Fin 2) * 1 + 1 * (y 0).val = (y 0).val; omega
  | ⟨1, _⟩ => show win3_0.index t (1 : Fin 2) * 32000 + 1 * (y 1).val = (y 1).val; omega

/-- The point writes back the logarithm of the softmax of the row the launch found. -/
theorem flushed_1 (c : Dev nD) (t : Fin cfg3.N) :
    (dat3 V c).flushed 1 t = ((cfg3.win 1).blk t).view.read (Elt Ideal) (logSoftmax (a := 1) (b := 32000) (V c main_v21)) := by
  show (cfg3.win 1).cut (grid3.coords t) ((dat3 V c).after 1 t) = _
  rw [after3_1]
  unfold out3_1
  rw [View.canon_unit_zero hz2]
  simp only [View.ld_unit_zero (S := S1x32000) hz2]
  obtain ⟨-, -, e0, e1⟩ := idx_facts t
  funext y
  refine logsoftmax_point (iblk3 V c 0 t) (V c main_v21) (blk_0 V c t) y (((cfg3.win 1).blk t).view.emb y) ?_
  funext a
  apply Fin.ext
  match a with
  | ⟨0, _⟩ => show win3_1.index t (0 : Fin 2) * 1 + 1 * (y 0).val = (y 0).val; omega
  | ⟨1, _⟩ => show win3_1.index t (1 : Fin 2) * 32000 + 1 * (y 1).val = (y 1).val; omega

theorem mem_blk_1 (t : Fin cfg3.N) (i : S1x32000.Idx) :
    i ∈ ((cfg3.win 1).blk t).view.set ↔ ∀ a : Fin 2, win3_1.index t a * S1x32000.size a ≤ (i a).val ∧ (i a).val < win3_1.index t a * S1x32000.size a + S1x32000.size a := by
  show i ∈ ((View.whole main_v22).slice (win3_1.rect t)).set ↔ _
  rw [View.set_slice_whole, Rect.mem_set_unit]
  exact Iff.rfl

theorem cover_1 (i : S1x32000.Idx) : ∃ t : Fin cfg3.N, (cfg3.win 1).flush t = true ∧ i ∈ ((cfg3.win 1).blk t).view.set := by
  have hi0 : (i 0).val < 1 := (i 0).isLt
  have hi1 : (i 1).val < 32000 := (i 1).isLt
  have ht : 0 < 1 := by omega
  obtain ⟨-, -, e0, e1⟩ := idx_facts ⟨0, ht⟩
  refine ⟨⟨0, ht⟩, flush3_1 _, ?_⟩
  rw [mem_blk_1]
  intro a
  match a with
  | ⟨0, _⟩ =>
    show win3_1.index ⟨0, ht⟩ (0 : Fin 2) * 1 ≤ (i 0).val ∧ (i 0).val < win3_1.index ⟨0, ht⟩ (0 : Fin 2) * 1 + 1
    omega
  | ⟨1, _⟩ =>
    show win3_1.index ⟨0, ht⟩ (1 : Fin 2) * 32000 ≤ (i 1).val ∧ (i 1).val < win3_1.index ⟨0, ht⟩ (1 : Fin 2) * 32000 + 32000
    omega

/-- The result array ends holding the logarithm of the softmax of the row of logits the launch found. -/
theorem final_1 (c : Dev nD) : (dat3 V c).arrAt 1 cfg3.N = logSoftmax (a := 1) (b := 32000) (V c main_v21) :=
  (dat3 V c).arrAt_eq_of_cover 1 _ (fun t _ => flushed_1 V c t) cover_1

end Cert.KernelIdeal.Region3

end
-- ==== Proof.LstmSpec.lean ====
/-
  One step of a two-layer LSTM followed by a linear read-out, as functions of whole arrays on the extended reals.

  For a row vector x (1×K) and a weight matrix W (R×K), dotRow x W r is the inner product of x with row r of W. A gate's
  pre-activation at row r is the two inner products (input and recurrent) plus the two biases; the four gates of hidden
  unit j sit at rows j, 2048 + j, 4096 + j and 6144 + j (input, forget, cell, output). The new cell state is
  σ(forget)·c + σ(input)·tanh(cell) and the new hidden state σ(output)·tanh(new cell).
  Addition on the extended reals is commutative and associative, so the order in which the four contributions of a
  pre-activation are added does not matter; nothing here needs finiteness.  Nothing here mentions a program.
-/
import Idealize.ShloMosaic.PureOps.Ideal
import Idealize.ShloMosaic.Lib.ValueIdx

open scoped BigOperators

noncomputable section

namespace Cert.Spec

open Idealize.ShloMosaic Idealize.ShloMosaic.ValueIdx

/-- The inner product of the row vector x with row r of W. -/
def dotRow {K R : Nat} (x : (⟨2, ![1, K]⟩ : Shape).Idx → EReal) (W : (⟨2, ![R, K]⟩ : Shape).Idx → EReal) (r : Fin R) : EReal :=
  ∑ k : Fin K, x (ix2 0 k) * W (ix2 r k)

/-- A gate's pre-activation at row r: input product, recurrent product, input bias, recurrent bias, added in
    that order. -/
def pre {K R : Nat} (x h : (⟨2, ![1, K]⟩ : Shape).Idx → EReal) (Wi Wh : (⟨2, ![R, K]⟩ : Shape).Idx → EReal)
    (bi bh : (⟨1, ![R]⟩ : Shape).Idx → EReal) (r : Fin R) : EReal :=
  ((dotRow x Wi r + dotRow h Wh r) + bi (ix1 r)) + bh (ix1 r)

/-- The same four contributions added as input product, input bias, recurrent product, recurrent bias. -/
theorem pre_comm {K R : Nat} (x h : (⟨2, ![1, K]⟩ : Shape).Idx → EReal) (Wi Wh : (⟨2, ![R, K]⟩ : Shape).Idx → EReal)
    (bi bh : (⟨1, ![R]⟩ : Shape).Idx → EReal) (r : Fin R) :
    ((dotRow x Wi r + bi (ix1 r)) + dotRow h Wh r) + bh (ix1 r) = pre x h Wi Wh bi bh r := by
  unfold pre
  rw [add_right_comm (dotRow x Wi r) (bi (ix1 r)) (dotRow h Wh r)]

/-- Row of gate g (0 input, 1 forget, 2 cell, 3 output) of hidden unit j. -/
def gateRow (g : Fin 4) (j : Fin 2048) : Fin 8192 := ⟨g.val * 2048 + j.val, by have := g.isLt; have := j.isLt; omega⟩

section Cell
variable (x h c : (⟨2, ![1, 2048]⟩ : Shape).Idx → EReal) (Wi Wh : (⟨2, ![8192, 2048]⟩ : Shape).Idx → EReal)
  (bi bh : (⟨1, ![8192]⟩ : Shape).Idx → EReal)

/-- The new cell state of unit j. -/
def cellAt (j : Fin 2048) : EReal :=
  Ideal.logistic (pre x h Wi Wh bi bh (gateRow 1 j)) * c (ix2 0 j)
    + Ideal.logistic (pre x h Wi Wh bi bh (gateRow 0 j)) * Ideal.tanh (pre x h Wi Wh bi bh (gateRow 2 j))

/-- The new hidden state of unit j. -/
def hiddenAt (j : Fin 2048) : EReal :=
  Ideal.logistic (pre x h Wi Wh bi bh (gateRow 3 j)) * Ideal.tanh (cellAt x h c Wi Wh bi bh j)

/-- The new cell state as a 1×2048 array. -/
def cellC : (⟨2, ![1, 2048]⟩ : Shape).Idx → EReal := fun i => cellAt x h c Wi Wh bi bh ⟨(i 1).val, idx2_lt1 i⟩

/-- The new hidden state as a 1×2048 array. -/
def cellH : (⟨2, ![1, 2048]⟩ : Shape).Idx → EReal := fun i => hiddenAt x h c Wi Wh bi bh ⟨(i 1).val, idx2_lt1 i⟩

theorem cellC_apply (j : Fin 2048) : cellC x h c Wi Wh bi bh (ix2 0 j) = cellAt x h c Wi Wh bi bh j := rfl
theorem cellH_apply (j : Fin 2048) : cellH x h c Wi Wh bi bh (ix2 0 j) = hiddenAt x h c Wi Wh bi bh j := rfl

end Cell

/-- The linear read-out: entry n is the inner product of x with row n of W, plus b(n). -/
def linear {K N : Nat} (x : (⟨2, ![1, K]⟩ : Shape).Idx → EReal) (W : (⟨2, ![N, K]⟩ : Shape).Idx → EReal)
    (b : (⟨1, ![N]⟩ : Shape).Idx → EReal) : (⟨2, ![1, N]⟩ : Shape).Idx → EReal :=
  fun i => dotRow x W ⟨(i 1).val, idx2_lt1 i⟩ + b (ix1 ⟨(i 1).val, idx2_lt1 i⟩)

theorem linear_apply {K N : Nat} (x : (⟨2, ![1, K]⟩ : Shape).Idx → EReal) (W : (⟨2, ![N, K]⟩ : Shape).Idx → EReal)
    (b : (⟨1, ![N]⟩ : Shape).Idx → EReal) (n : Fin N) : linear x W b (ix2 0 n) = dotRow x W n + b (ix1 n) := rfl

/-- Every index of a 1×n array is (0, its column). -/
theorem idx_row {n : Nat} (i : (⟨2, ![1, n]⟩ : Shape).Idx) : i = ix2 0 ⟨(i 1).val, idx2_lt1 i⟩ := by
  funext d
  match d with
  | ⟨0, _⟩ =>
    have h : (i 0).val < 1 := (i 0).isLt
    exact Fin.ext (by show (i 0).val = 0; omega)
  | ⟨1, _⟩ => rfl

end Cert.Spec

end
-- ==== Proof.KLayerSpec.lean ====
/-
  The kernel's re-shaped layout against the plain one. Re-shaping an 8192×2048 weight array to 4×2048×2048 puts row
  2048·g + j at (g, j, :), and re-shaping an 8192-vector of biases to 4×2048 puts entry 2048·g + j at (g, j); so a layer
  read through the re-shaped arrays is the layer of the plain arrays. Likewise a 32000-vector re-shaped to a 1×32000
  row holds entry n at (0, n), so the linear layer with the re-shaped bias is the plain one.
-/
import proofs.«173036_j7464653160860_2_alg».proof.Proof.KLayer
import proofs.«173036_j7464653160860_2_alg».proof.Proof.KTail
import proofs.«173036_j7464653160860_2_alg».proof.Proof.LstmSpec

open scoped BigOperators

noncomputable section

namespace Cert.KernelIdeal.LayerSpec

open Idealize.ShloMosaic Idealize.ShloMosaic.ValueIdx Cert.KernelIdeal Cert.KernelIdeal.Gen Cert.KernelIdeal.Layer Cert.KernelIdeal.Tail Cert.Spec

theorem reshapeW (W : S8192x2048.Idx → EReal) (g : Fin 4) (j : Fin 2048) (k : Fin 2048) :
    shapeCast S4x2048x2048 W shapeCasts_S8192x2048_S4x2048x2048 (ix3 g j k) = W (ix2 (gateRow g j) k) := by
  refine shapeCast_apply W shapeCasts_S8192x2048_S4x2048x2048 _ _ ?_
  rw [Shape.rowMajor_val_two, Shape.rowMajor_val_three]
  rfl

theorem reshapeB (b : S8192.Idx → EReal) (g : Fin 4) (j : Fin 2048) :
    shapeCast S4x2048 b shapeCasts_S8192_S4x2048 (ix2 g j) = b (ix1 (gateRow g j)) := by
  refine shapeCast_apply b shapeCasts_S8192_S4x2048 _ _ ?_
  rw [Shape.rowMajor_val_one, Shape.rowMajor_val_two]
  rfl

section
variable (X H C : S1x2048.Idx → EReal) (Wi Wh : S8192x2048.Idx → EReal) (bi bh : S8192.Idx → EReal)

theorem preK_eq (g : Fin 4) (j : Fin 2048) :
    preK X H (shapeCast S4x2048x2048 Wi shapeCasts_S8192x2048_S4x2048x2048) (shapeCast S4x2048x2048 Wh shapeCasts_S8192x2048_S4x2048x2048)
      (shapeCast S4x2048 bi shapeCasts_S8192_S4x2048) (shapeCast S4x2048 bh shapeCasts_S8192_S4x2048) g j
      = pre X H Wi Wh bi bh (gateRow g j) := by
  unfold preK pre dotRow
  simp only [reshapeW, reshapeB]

theorem cellArr_eq :
    cellArr X H C (shapeCast S4x2048x2048 Wi shapeCasts_S8192x2048_S4x2048x2048) (shapeCast S4x2048x2048 Wh shapeCasts_S8192x2048_S4x2048x2048)
      (shapeCast S4x2048 bi shapeCasts_S8192_S4x2048) (shapeCast S4x2048 bh shapeCasts_S8192_S4x2048)
      = cellC X H C Wi Wh bi bh := by
  funext i
  unfold cellArr cellK cellC cellAt
  simp only [preK_eq]

theorem hiddenArr_eq :
    hiddenArr X H C (shapeCast S4x2048x2048 Wi shapeCasts_S8192x2048_S4x2048x2048) (shapeCast S4x2048x2048 Wh shapeCasts_S8192x2048_S4x2048x2048)
      (shapeCast S4x2048 bi shapeCasts_S8192_S4x2048) (shapeCast S4x2048 bh shapeCasts_S8192_S4x2048)
      = cellH X H C Wi Wh bi bh := by
  funext i
  unfold hiddenArr hiddenK cellK cellH hiddenAt cellAt
  simp only [preK_eq]

end

theorem linArr_eq (X : S1x3072.Idx → EReal) (W : S32000x3072.Idx → EReal) (b : S32000.Idx → EReal) :
    linArr X W (shapeCast S1x32000 b shapeCasts_S32000_S1x32000) = linear X W b := by
  funext i
  unfold linArr linK linear dotRow
  refine congrArg (fun z => _ + z) ?_
  refine shapeCast_apply b shapeCasts_S32000_S1x32000 _ _ ?_
  rw [Shape.rowMajor_val_one, Shape.rowMajor_val_two]
  show (i 1).val = 0 * 32000 + (i 1).val
  omega

end Cert.KernelIdeal.LayerSpec

end
-- ==== Proof.WholeSpec.lean ====
/-
  The three results of the program as functions of its fourteen argument arrays, on the extended reals.

  x0 is the category row beside the input row (1×2048); layer k's previous hidden and cell state are slab k of the 2×1×2048
  state arrays, re-shaped to 1×2048. Layer 0 runs on x0, layer 1 on layer 0's new hidden state. The logits are the linear
  read-out of the category row beside layer 1's new hidden state (1×3072); the first result is the logarithm of their
  softmax, and the other two stack the two layers' new hidden states, and new cell states, into 2×1×2048 arrays.
-/
import proofs.«173036_j7464653160860_2_alg».proof.Proof.Gen.KernelIdeal
import proofs.«173036_j7464653160860_2_alg».proof.Proof.LstmSpec
import proofs.«173036_j7464653160860_2_alg».proof.Proof.LibLogSoftmaxRows

noncomputable section

namespace Cert.Whole

open Idealize.ShloMosaic Idealize.ShloMosaic.ValueIdx Cert.KernelIdeal Cert.KernelIdeal.Gen Cert.Spec Cert.Lib.LogSoftmaxRows

/-- Slab 0 of a 2×1×2048 state array as a row. -/
def prev0 (a : S2x1x2048.Idx → EReal) : S1x2048.Idx → EReal :=
  shapeCast S1x2048 (extractStridedSlice S1x1x2048 ![0, 0, 0] a slices_S2x1x2048_S1x1x2048_0_0_0) shapeCasts_S1x1x2048_S1x2048

/-- Slab 1 of a 2×1×2048 state array as a row. -/
def prev1 (a : S2x1x2048.Idx → EReal) : S1x2048.Idx → EReal :=
  shapeCast S1x2048 (extractStridedSlice S1x1x2048 ![1, 0, 0] a slices_S2x1x2048_S1x1x2048_1_0_0) shapeCasts_S1x1x2048_S1x2048

/-- Two rows stacked into a 2×1×2048 array. -/
def stack (u v : S1x2048.Idx → EReal) : S2x1x2048.Idx → EReal :=
  concatenate S2x1x2048 0 [⟨S1x1x2048, broadcastInDim S1x1x2048 ![1, 2] bcast_S1x2048_S1x1x2048_1_2 u⟩,
    ⟨S1x1x2048, broadcastInDim S1x1x2048 ![1, 2] bcast_S1x2048_S1x1x2048_1_2 v⟩] concatenates_S1x1x2048_S1x1x2048_S2x1x2048_d0

section
variable (a0 a1 : S1x1024.Idx → EReal) (a2 a3 : S2x1x2048.Idx → EReal) (a4 a5 : S8192x2048.Idx → EReal)
  (a6 a7 : S8192.Idx → EReal) (a8 a9 : S8192x2048.Idx → EReal) (a10 a11 : S8192.Idx → EReal)
  (a12 : S32000x3072.Idx → EReal) (a13 : S32000.Idx → EReal)

/-- The category row beside the input row. -/
def x0 : S1x2048.Idx → EReal :=
  concatenate S1x2048 1 [⟨S1x1024, a0⟩, ⟨S1x1024, a1⟩] concatenates_S1x1024_S1x1024_S1x2048_d1

/-- Layer 0's new hidden state. -/
def h1 : S1x2048.Idx → EReal := cellH (x0 a0 a1) (prev0 a2) (prev0 a3) a4 a5 a6 a7
/-- Layer 0's new cell state. -/
def c1 : S1x2048.Idx → EReal := cellC (x0 a0 a1) (prev0 a2) (prev0 a3) a4 a5 a6 a7
/-- Layer 1's new hidden state. -/
def h2 : S1x2048.Idx → EReal := cellH (h1 a0 a1 a2 a3 a4 a5 a6 a7) (prev1 a2) (prev1 a3) a8 a9 a10 a11
/-- Layer 1's new cell state. -/
def c2 : S1x2048.Idx → EReal := cellC (h1 a0 a1 a2 a3 a4 a5 a6 a7) (prev1 a2) (prev1 a3) a8 a9 a10 a11

/-- The category row beside a hidden row. -/
def xOut (h : S1x2048.Idx → EReal) : S1x3072.Idx → EReal :=
  concatenate S1x3072 1 [⟨S1x1024, a0⟩, ⟨S1x2048, h⟩] concatenates_S1x1024_S1x2048_S1x3072_d1

/-- The logits. -/
def logits : S1x32000.Idx → EReal := linear (xOut a0 (h2 a0 a1 a2 a3 a4 a5 a6 a7 a8 a9 a10 a11)) a12 a13

/-- First result: the logarithm of the softmax of the logits. -/
def out0 : S1x32000.Idx → EReal := logSoftmax (a := 1) (b := 32000) (logits a0 a1 a2 a3 a4 a5 a6 a7 a8 a9 a10 a11 a12 a13)
/-- Second result: the new hidden states. -/
def out1 : S2x1x2048.Idx → EReal := stack (h1 a0 a1 a2 a3 a4 a5 a6 a7) (h2 a0 a1 a2 a3 a4 a5 a6 a7 a8 a9 a10 a11)
/-- Third result: the new cell states. -/
def out2 : S2x1x2048.Idx → EReal := stack (c1 a0 a1 a2 a3 a4 a5 a6 a7) (c2 a0 a1 a2 a3 a4 a5 a6 a7 a8 a9 a10 a11)

end

end Cert.Whole

end
-- ==== Proof.KValue.lean ====
/-
  The idealized kernel's three results as functions of its arguments.

  The run is a fold through eight segments. After the first stretch of host operations the buffers the first launch
  reads hold the category row beside the input row, slab 0 of the two state arrays as rows, and the first layer's
  weights and biases re-shaped; the launch leaves the layer's new hidden and cell state. The second stretch and launch
  do the same for the second layer on the first layer's hidden state. Then the category row beside the second hidden
  state and the re-shaped output bias feed the linear launch, its logits feed the last launch, and the last stretch
  stacks the two layers' states. Every buffer read along the way is followed back to the launch memory.
-/
import proofs.«173036_j7464653160860_2_alg».proof.Proof.KRun
import proofs.«173036_j7464653160860_2_alg».proof.Proof.KRegion0
import proofs.«173036_j7464653160860_2_alg».proof.Proof.KRegion1
import proofs.«173036_j7464653160860_2_alg».proof.Proof.KRegion2
import proofs.«173036_j7464653160860_2_alg».proof.Proof.KRegion3
import proofs.«173036_j7464653160860_2_alg».proof.Proof.KLayerSpec
import proofs.«173036_j7464653160860_2_alg».proof.Proof.WholeSpec

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Layer Cert.KernelIdeal.Tail Cert.KernelIdeal.LayerSpec
open Cert.Whole Cert.Lib.LogSoftmaxRows

variable (m : (ℓ : Loc nD τ sig) → Buf (Elt Ideal) ℓ) (ρ : Dev nD → PrngReg)

/-! ## Arguments at each boundary -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W2_arg0 (c : Dev nD) : W2 m ρ c (Proc.devRef .tc main_arg0) = m ((c : Thread nD τ).loc main_arg0) :=
  (W2_of_ne m ρ c main_arg0 (by decide)).trans (W1_arg0 m ρ c)
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W2_arg2 (c : Dev nD) : W2 m ρ c (Proc.devRef .tc main_arg2) = m ((c : Thread nD τ).loc main_arg2) :=
  (W2_of_ne m ρ c main_arg2 (by decide)).trans (W1_arg2 m ρ c)
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W2_arg3 (c : Dev nD) : W2 m ρ c (Proc.devRef .tc main_arg3) = m ((c : Thread nD τ).loc main_arg3) :=
  (W2_of_ne m ρ c main_arg3 (by decide)).trans (W1_arg3 m ρ c)
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W2_arg8 (c : Dev nD) : W2 m ρ c (Proc.devRef .tc main_arg8) = m ((c : Thread nD τ).loc main_arg8) :=
  (W2_of_ne m ρ c main_arg8 (by decide)).trans (W1_arg8 m ρ c)
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W2_arg9 (c : Dev nD) : W2 m ρ c (Proc.devRef .tc main_arg9) = m ((c : Thread nD τ).loc main_arg9) :=
  (W2_of_ne m ρ c main_arg9 (by decide)).trans (W1_arg9 m ρ c)
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W2_arg10 (c : Dev nD) : W2 m ρ c (Proc.devRef .tc main_arg10) = m ((c : Thread nD τ).loc main_arg10) :=
  (W2_of_ne m ρ c main_arg10 (by decide)).trans (W1_arg10 m ρ c)
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W2_arg11 (c : Dev nD) : W2 m ρ c (Proc.devRef .tc main_arg11) = m ((c : Thread nD τ).loc main_arg11) :=
  (W2_of_ne m ρ c main_arg11 (by decide)).trans (W1_arg11 m ρ c)
theorem W1_arg12 (c : Dev nD) : W1 m ρ c (Proc.devRef .tc main_arg12) = m ((c : Thread nD τ).loc main_arg12) := by
  show StableHlo.after hostOps0 (W0 m ρ c) (Proc.devRef .tc main_arg12) = _
  after_results
theorem W2_arg12 (c : Dev nD) : W2 m ρ c (Proc.devRef .tc main_arg12) = m ((c : Thread nD τ).loc main_arg12) :=
  (W2_of_ne m ρ c main_arg12 (by decide)).trans (W1_arg12 m ρ c)
theorem W1_arg13 (c : Dev nD) : W1 m ρ c (Proc.devRef .tc main_arg13) = m ((c : Thread nD τ).loc main_arg13) := by
  show StableHlo.after hostOps0 (W0 m ρ c) (Proc.devRef .tc main_arg13) = _
  after_results
theorem W2_arg13 (c : Dev nD) : W2 m ρ c (Proc.devRef .tc main_arg13) = m ((c : Thread nD τ).loc main_arg13) :=
  (W2_of_ne m ρ c main_arg13 (by decide)).trans (W1_arg13 m ρ c)

theorem W3_arg0 (c : Dev nD) : W3 m ρ c (Proc.devRef .tc main_arg0) = m ((c : Thread nD τ).loc main_arg0) := by
  show StableHlo.after hostOps1 (W2 m ρ c) (Proc.devRef .tc main_arg0) = _
  after_results; exact W2_arg0 m ρ c
theorem W4_arg0 (c : Dev nD) : W4 m ρ c (Proc.devRef .tc main_arg0) = m ((c : Thread nD τ).loc main_arg0) :=
  (W4_of_ne m ρ c main_arg0 (by decide)).trans (W3_arg0 m ρ c)
theorem W3_arg12 (c : Dev nD) : W3 m ρ c (Proc.devRef .tc main_arg12) = m ((c : Thread nD τ).loc main_arg12) := by
  show StableHlo.after hostOps1 (W2 m ρ c) (Proc.devRef .tc main_arg12) = _
  after_results; exact W2_arg12 m ρ c
theorem W4_arg12 (c : Dev nD) : W4 m ρ c (Proc.devRef .tc main_arg12) = m ((c : Thread nD τ).loc main_arg12) :=
  (W4_of_ne m ρ c main_arg12 (by decide)).trans (W3_arg12 m ρ c)
theorem W3_arg13 (c : Dev nD) : W3 m ρ c (Proc.devRef .tc main_arg13) = m ((c : Thread nD τ).loc main_arg13) := by
  show StableHlo.after hostOps1 (W2 m ρ c) (Proc.devRef .tc main_arg13) = _
  after_results; exact W2_arg13 m ρ c
theorem W4_arg13 (c : Dev nD) : W4 m ρ c (Proc.devRef .tc main_arg13) = m ((c : Thread nD τ).loc main_arg13) :=
  (W4_of_ne m ρ c main_arg13 (by decide)).trans (W3_arg13 m ρ c)

/-! ## The first layer -/

theorem V1_v0 (c : Dev nD) : V1 m ρ c main_v0 = x0 (m ((c : Thread nD τ).loc main_arg0)) (m ((c : Thread nD τ).loc main_arg1)) := by
  show StableHlo.after hostOps0 (W0 m ρ c) (Proc.devRef .tc main_v0) = _
  after_results; rfl
theorem V1_v2 (c : Dev nD) : V1 m ρ c main_v2 = prev0 (m ((c : Thread nD τ).loc main_arg2)) := by
  show StableHlo.after hostOps0 (W0 m ρ c) (Proc.devRef .tc main_v2) = _
  after_results; rfl
theorem V1_v4 (c : Dev nD) : V1 m ρ c main_v4 = prev0 (m ((c : Thread nD τ).loc main_arg3)) := by
  show StableHlo.after hostOps0 (W0 m ρ c) (Proc.devRef .tc main_v4) = _
  after_results; rfl
theorem V1_v5 (c : Dev nD) : V1 m ρ c main_v5 = shapeCast S4x2048x2048 (m ((c : Thread nD τ).loc main_arg4)) shapeCasts_S8192x2048_S4x2048x2048 := by
  show StableHlo.after hostOps0 (W0 m ρ c) (Proc.devRef .tc main_v5) = _
  after_results; rfl
theorem V1_v6 (c : Dev nD) : V1 m ρ c main_v6 = shapeCast S4x2048x2048 (m ((c : Thread nD τ).loc main_arg5)) shapeCasts_S8192x2048_S4x2048x2048 := by
  show StableHlo.after hostOps0 (W0 m ρ c) (Proc.devRef .tc main_v6) = _
  after_results; rfl
theorem V1_v7 (c : Dev nD) : V1 m ρ c main_v7 = shapeCast S4x2048 (m ((c : Thread nD τ).loc main_arg6)) shapeCasts_S8192_S4x2048 := by
  show StableHlo.after hostOps0 (W0 m ρ c) (Proc.devRef .tc main_v7) = _
  after_results; rfl
theorem V1_v8 (c : Dev nD) : V1 m ρ c main_v8 = shapeCast S4x2048 (m ((c : Thread nD τ).loc main_arg7)) shapeCasts_S8192_S4x2048 := by
  show StableHlo.after hostOps0 (W0 m ρ c) (Proc.devRef .tc main_v8) = _
  after_results; rfl

/-- The first launch leaves the first layer's new hidden state. -/
theorem W2_h (c : Dev nD) : W2 m ρ c (Proc.devRef .tc main_v9_0) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 7).trans ((Region0.final_7 (V1 m ρ) c).trans ?_)
  rw [V1_v0, V1_v2, V1_v4, V1_v5, V1_v6, V1_v7, V1_v8]
  exact hiddenArr_eq _ _ _ _ _ _ _

/-- And its new cell state. -/
theorem W2_c (c : Dev nD) : W2 m ρ c (Proc.devRef .tc main_v9_1) = c1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W2_arr m ρ c 8).trans ((Region0.final_8 (V1 m ρ) c).trans ?_)
  rw [V1_v0, V1_v2, V1_v4, V1_v5, V1_v6, V1_v7, V1_v8]
  exact cellArr_eq _ _ _ _ _ _ _

/-! ## The second layer -/

theorem V3_v9_0 (c : Dev nD) : V3 m ρ c main_v9_0 = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v9_0) = _
  after_results; exact W2_h m ρ c
theorem W3_v9_1 (c : Dev nD) : W3 m ρ c (Proc.devRef .tc main_v9_1) = c1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v9_1) = _
  after_results; exact W2_c m ρ c
theorem V3_v11 (c : Dev nD) : V3 m ρ c main_v11 = prev1 (m ((c : Thread nD τ).loc main_arg2)) := by
  show StableHlo.after hostOps1 (W2 m ρ c) (Proc.devRef .tc main_v11) = _
  after_results; rw [W2_arg2]; rfl
theorem V3_v13 (c : Dev nD) : V3 m ρ c main_v13 = prev1 (m ((c : Thread nD τ).loc main_arg3)) := by
  show StableHlo.after hostOps1 (W2 m ρ c) (Proc.devRef .tc main_v13) = _
  after_results; rw [W2_arg3]; rfl
theorem V3_v14 (c : Dev nD) : V3 m ρ c main_v14 = shapeCast S4x2048x2048 (m ((c : Thread nD τ).loc main_arg8)) shapeCasts_S8192x2048_S4x2048x2048 := by
  show StableHlo.after hostOps1 (W2 m ρ c) (Proc.devRef .tc main_v14) = _
  after_results; rw [W2_arg8]; rfl
theorem V3_v15 (c : Dev nD) : V3 m ρ c main_v15 = shapeCast S4x2048x2048 (m ((c : Thread nD τ).loc main_arg9)) shapeCasts_S8192x2048_S4x2048x2048 := by
  show StableHlo.after hostOps1 (W2 m ρ c) (Proc.devRef .tc main_v15) = _
  after_results; rw [W2_arg9]; rfl
theorem V3_v16 (c : Dev nD) : V3 m ρ c main_v16 = shapeCast S4x2048 (m ((c : Thread nD τ).loc main_arg10)) shapeCasts_S8192_S4x2048 := by
  show StableHlo.after hostOps1 (W2 m ρ c) (Proc.devRef .tc main_v16) = _
  after_results; rw [W2_arg10]; rfl
theorem V3_v17 (c : Dev nD) : V3 m ρ c main_v17 = shapeCast S4x2048 (m ((c : Thread nD τ).loc main_arg11)) shapeCasts_S8192_S4x2048 := by
  show StableHlo.after hostOps1 (W2 m ρ c) (Proc.devRef .tc main_v17) = _
  after_results; rw [W2_arg11]; rfl

/-- The second launch leaves the second layer's new hidden state. -/
theorem W4_h (c : Dev nD) : W4 m ρ c (Proc.devRef .tc main_v18_0) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 7).trans ((Region1.final_7 (V3 m ρ) c).trans ?_)
  rw [V3_v9_0, V3_v11, V3_v13, V3_v14, V3_v15, V3_v16, V3_v17]
  exact hiddenArr_eq _ _ _ _ _ _ _

/-- And its new cell state. -/
theorem W4_c (c : Dev nD) : W4 m ρ c (Proc.devRef .tc main_v18_1) = c2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 8).trans ((Region1.final_8 (V3 m ρ) c).trans ?_)
  rw [V3_v9_0, V3_v11, V3_v13, V3_v14, V3_v15, V3_v16, V3_v17]
  exact cellArr_eq _ _ _ _ _ _ _

/-- The first layer's hidden state, an input of the second launch, passes through it. -/
theorem W4_v9_0 (c : Dev nD) : W4 m ρ c (Proc.devRef .tc main_v9_0) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 0).trans ((((dat1 (V3 m ρ) c).arrAt_in 0 rfl _).trans (A_eq1 (V3 m ρ) c 0)).trans (V3_v9_0 m ρ c))
theorem W4_v9_1 (c : Dev nD) : W4 m ρ c (Proc.devRef .tc main_v9_1) = c1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_of_ne m ρ c main_v9_1 (by decide)).trans (W3_v9_1 m ρ c)

/-! ## The read-out -/

theorem V5_v19 (c : Dev nD) : V5 m ρ c main_v19 = xOut (m ((c : Thread nD τ).loc main_arg0)) (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show StableHlo.after hostOps2 (W4 m ρ c) (Proc.devRef .tc main_v19) = _
  after_results; rw [W4_arg0, W4_h]; rfl
theorem V5_v20 (c : Dev nD) : V5 m ρ c main_v20 = shapeCast S1x32000 (m ((c : Thread nD τ).loc main_arg13)) shapeCasts_S32000_S1x32000 := by
  show StableHlo.after hostOps2 (W4 m ρ c) (Proc.devRef .tc main_v20) = _
  after_results; rw [W4_arg13]; rfl
theorem V5_arg12 (c : Dev nD) : V5 m ρ c main_arg12 = (m ((c : Thread nD τ).loc main_arg12)) := by
  show StableHlo.after hostOps2 (W4 m ρ c) (Proc.devRef .tc main_arg12) = _
  after_results; exact W4_arg12 m ρ c
theorem W5_v9_0 (c : Dev nD) : W5 m ρ c (Proc.devRef .tc main_v9_0) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v9_0) = _
  after_results; exact W4_v9_0 m ρ c
theorem W7_v9_0 (c : Dev nD) : W7 m ρ c (Proc.devRef .tc main_v9_0) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W7_of_ne m ρ c main_v9_0 (by decide)).trans ((W6_of_ne m ρ c main_v9_0 (by decide)).trans (W5_v9_0 m ρ c))
theorem W5_v9_1 (c : Dev nD) : W5 m ρ c (Proc.devRef .tc main_v9_1) = c1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v9_1) = _
  after_results; exact W4_v9_1 m ρ c
theorem W7_v9_1 (c : Dev nD) : W7 m ρ c (Proc.devRef .tc main_v9_1) = c1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W7_of_ne m ρ c main_v9_1 (by decide)).trans ((W6_of_ne m ρ c main_v9_1 (by decide)).trans (W5_v9_1 m ρ c))
theorem W5_v18_0 (c : Dev nD) : W5 m ρ c (Proc.devRef .tc main_v18_0) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v18_0) = _
  after_results; exact W4_h m ρ c
theorem W7_v18_0 (c : Dev nD) : W7 m ρ c (Proc.devRef .tc main_v18_0) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W7_of_ne m ρ c main_v18_0 (by decide)).trans ((W6_of_ne m ρ c main_v18_0 (by decide)).trans (W5_v18_0 m ρ c))
theorem W5_v18_1 (c : Dev nD) : W5 m ρ c (Proc.devRef .tc main_v18_1) = c2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v18_1) = _
  after_results; exact W4_c m ρ c
theorem W7_v18_1 (c : Dev nD) : W7 m ρ c (Proc.devRef .tc main_v18_1) = c2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W7_of_ne m ρ c main_v18_1 (by decide)).trans ((W6_of_ne m ρ c main_v18_1 (by decide)).trans (W5_v18_1 m ρ c))

/-- The linear launch leaves the logits. -/
theorem W6_v21 (c : Dev nD) : W6 m ρ c (Proc.devRef .tc main_v21) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 3).trans ((Region2.final_3 (V5 m ρ) c).trans ?_)
  rw [V5_v19, V5_v20, V5_arg12]
  exact linArr_eq _ _ _

/-- The last launch leaves the logarithm of their softmax. -/
theorem W7_v22 (c : Dev nD) : W7 m ρ c (Proc.devRef .tc main_v22) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W7_arr m ρ c 1).trans ((Region3.final_1 (V6 m ρ) c).trans ?_)
  have e : V6 m ρ c main_v21 = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := W6_v21 m ρ c
  rw [e]
  rfl

/-! ## The three results -/

theorem W8_v22 (c : Dev nD) : W8 m ρ c (Proc.devRef .tc main_v22) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps4 (W7 m ρ c) (Proc.devRef .tc main_v22) = _
  after_results; exact W7_v22 m ρ c
theorem W8_v25 (c : Dev nD) : W8 m ρ c (Proc.devRef .tc main_v25) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W7 m ρ c) (Proc.devRef .tc main_v25) = _
  after_results; rw [W7_v9_0, W7_v18_0]; rfl
theorem W8_v28 (c : Dev nD) : W8 m ρ c (Proc.devRef .tc main_v28) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W7 m ρ c) (Proc.devRef .tc main_v28) = _
  after_results; rw [W7_v9_1, W7_v18_1]; rfl

/-- The run with its three results named and its arguments kept. -/
theorem run : θ_run defs (onTc (τ := τ) (main (F := Ideal))) ⟨m, fun _ => 0, ρ⟩ (fun r => ∀ c : Dev nD,
      r.2.mem ((c.tc : Thread nD τ).loc main_v22) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v25) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v28) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v22 (by decide))).trans (W8_v22 m ρ c),
     (h c _ (mem_uc main_v25 (by decide))).trans (W8_v25 m ρ c),
     (h c _ (mem_uc main_v28 (by decide))).trans (W8_v28 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c)⟩)
    (Cert.KernelIdeal.Run.run_all m ρ)

end Cert.KernelIdeal.Whole

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«173036_j7464653160860_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibBiasSilu.lean ====
/-
  A bias row added to every row of a matrix, alone or followed by x ↦ x · σ(x) with σ the logistic function, on the
  extended reals: the two functions, the kernel body's spelling of each (the row re-shaped in place, broadcast down
  the rows, added; then the product with the logistic of the sum), the reference's spelling (the bias vector broadcast
  into a 1×k row and then into the n×k array, added; then the product with 1 / (1 + exp (−v)) written with broadcast
  ones), and the fact that an entry of either depends on one entry of the matrix. On the extended reals the logistic
  function IS 1 / (1 + exp (−v)), so nothing is asked of the entries. Nothing here mentions a program.
-/
import Idealize.ShloMosaic.PureOps.Ideal.Laws
import Idealize.ShloMosaic.Lib.ValueIdx
import Idealize.ShloMosaic.Lib.Pipeline.Value
import proofs.«173036_j7464653160860_2_alg».proof.Proof.LibBlockReads
import proofs.«173036_j7464653160860_2_alg».proof.Proof.LibRowVector

noncomputable section

namespace Cert.Lib.BiasSilu

open Idealize.ShloMosaic Idealize.ShloMosaic.ValueIdx Cert.Lib.RowVector

variable {n n' k : Nat}

/-- The word 0x3F800000 is the number one. -/
theorem one_f32 : Ideal.ofBits .f32 0x3F800000#32 = 1 := by
  simp [Ideal.ofBits, Ideal.ieee, -EReal.coe_mul]; norm_num

/-- x · σ(x). -/
def silu (v : EReal) : EReal := v * Ideal.logistic v

/-- Entry (p, q) is X(p, q) + b(0, q). -/
def biasAdd (X : (⟨2, ![n, k]⟩ : Shape).Idx → EReal) (b : (⟨2, ![1, k]⟩ : Shape).Idx → EReal) :
    (⟨2, ![n, k]⟩ : Shape).Idx → EReal :=
  fun i => X i + b (ix2 (0 : Fin 1) (⟨(i 1).val, idx2_lt1 i⟩ : Fin k))

theorem biasAdd_apply (X : (⟨2, ![n, k]⟩ : Shape).Idx → EReal) (b : (⟨2, ![1, k]⟩ : Shape).Idx → EReal)
    (p : Fin n) (q : Fin k) : biasAdd X b (ix2 p q) = X (ix2 p q) + b (ix2 0 q) := rfl

/-- Entry (p, q) is s · σ(s) for s = X(p, q) + b(0, q). -/
def biasSilu (X : (⟨2, ![n, k]⟩ : Shape).Idx → EReal) (b : (⟨2, ![1, k]⟩ : Shape).Idx → EReal) :
    (⟨2, ![n, k]⟩ : Shape).Idx → EReal :=
  fun i => silu (biasAdd X b i)

theorem biasSilu_apply (X : (⟨2, ![n, k]⟩ : Shape).Idx → EReal) (b : (⟨2, ![1, k]⟩ : Shape).Idx → EReal)
    (p : Fin n) (q : Fin k) : biasSilu X b (ix2 p q) = silu (X (ix2 p q) + b (ix2 0 q)) := rfl

/-- An entry depends on one entry of the matrix: equal entries give equal results. -/
theorem biasAdd_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasAdd X' b (ix2 p' q) = biasAdd X b (ix2 p q) := by
  rw [biasAdd_apply, biasAdd_apply, h]

theorem biasSilu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasSilu X' b (ix2 p' q) = biasSilu X b (ix2 p q) := by
  rw [biasSilu_apply, biasSilu_apply, h]

/-- The same two facts with the two indices as variables: the index y inside a block of rows and the index i of the
    whole array it sits at, which share their column. -/
theorem biasAdd_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasAdd X' b y = biasAdd X b i := by
  obtain ⟨p', q', rfl⟩ : ∃ (p' : Fin n') (q' : Fin k), y = ix2 p' q' := ⟨y 0, y 1, eq_ix2 y⟩
  obtain ⟨p, q, rfl⟩ : ∃ (p : Fin n) (q : Fin k), i = ix2 p q := ⟨i 0, i 1, eq_ix2 i⟩
  have hq : q' = q := Fin.ext hcol
  subst hq
  exact biasAdd_rows X X' b p' p q' h

theorem biasSilu_at (X : (⟨2, ![n, k]⟩ : Shape).Idx → EReal) (X' : (⟨2, ![n', k]⟩ : Shape).Idx → EReal)
    (b : (⟨2, ![1, k]⟩ : Shape).Idx → EReal) (y : (⟨2, ![n', k]⟩ : Shape).Idx) (i : (⟨2, ![n, k]⟩ : Shape).Idx)
    (hcol : (y 1).val = (i 1).val) (h : X' y = X i) : biasSilu X' b y = biasSilu X b i :=
  congrArg silu (biasAdd_at X X' b y i hcol h)

/-- A change of float format is the identity on the extended reals, for a whole vector. -/
theorem truncf_id {s : Shape} {φ ψ : FTy} (a : FVec Ideal s φ) (h : ψ.bits < φ.bits) :
    (truncf ψ a h : FVec Ideal s ψ) = a := rfl

/-- The kernel body's spelling of the bias row added. -/
theorem body_add_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    addf M (broadcastTo ⟨2, ![n, k]⟩ (shapeCast ⟨2, ![1, k]⟩ v hsc) hb) = biasAdd M (asRow v) := by
  funext i
  obtain ⟨p, q, rfl⟩ : ∃ (p : Fin n) (q : Fin k), i = ix2 p q := ⟨i 0, i 1, eq_ix2 i⟩
  rw [addf_apply, shapeCast_eq_asRow, Cert.Lib.BlockReads.broadcast_row_apply]
  rfl

/-- The kernel body's spelling of the bias row added and the result multiplied by its logistic. -/
theorem body_silu_eq (M : FVec Ideal ⟨2, ![n, k]⟩ .f32) (v : FVec Ideal ⟨1, ![k]⟩ .f32)
    (hsc : (⟨1, ![k]⟩ : Shape).ShapeCasts ⟨2, ![1, k]⟩) (hb : (⟨2, ![1, k]⟩ : Shape).Broadcasts ⟨2, ![n, k]⟩) :
    mulf (addf M (broadcastTo ⟨2, ![n, k]⟩ (shapeCast ⟨2, ![1, k]⟩ v hsc) hb))
      (logistic (addf M (broadcastTo ⟨2, ![n, k]⟩ (shapeCast ⟨2, ![1, k]⟩ v hsc) hb))) = biasSilu M (asRow v) := by
  rw [body_add_eq]
  rfl

/-- The reference's spelling of the bias vector added to every row. -/
theorem host_add_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1]) :
    addf X (broadcastInDim ⟨2, ![n, k]⟩ ![0, 1] h2 (broadcastInDim ⟨2, ![1, k]⟩ ![1] h1 b)) = biasAdd X (asRow b) := by
  funext i
  obtain ⟨p, q, rfl⟩ : ∃ (p : Fin n) (q : Fin k), i = ix2 p q := ⟨i 0, i 1, eq_ix2 i⟩
  rw [addf_apply, bcastInDim_rows_apply, bcastInDim_eq_asRow]
  rfl

/-- The reference's spelling of v ↦ v · (1 / (1 + exp (−v))), the ones broadcast from the word of the number one. -/
theorem host_silu_of (v : FVec Ideal ⟨2, ![n, k]⟩ .f32)
    (h3 h4 : (⟨0, ![]⟩ : Shape).BroadcastsInDim ⟨2, ![n, k]⟩ ![]) :
    mulf v (Host.divf (broadcastInDim ⟨2, ![n, k]⟩ ![] h3 (constant (F := Ideal) ⟨0, ![]⟩ .f32 0x3F800000#32))
      (addf (broadcastInDim ⟨2, ![n, k]⟩ ![] h4 (constant (F := Ideal) ⟨0, ![]⟩ .f32 0x3F800000#32))
        (Host.exp (Host.negf v)))) = fun i => silu (v i) := by
  funext i
  show v i * Ideal.div (broadcastInDim ⟨2, ![n, k]⟩ ![] h3 (constant (F := Ideal) ⟨0, ![]⟩ .f32 0x3F800000#32) i)
      (broadcastInDim ⟨2, ![n, k]⟩ ![] h4 (constant (F := Ideal) ⟨0, ![]⟩ .f32 0x3F800000#32) i + Ideal.exp (-(v i))) = _
  rw [bcastInDim_scalar_apply]
  show v i * Ideal.div (Ideal.ofBits .f32 0x3F800000#32) (Ideal.ofBits .f32 0x3F800000#32 + Ideal.exp (-(v i))) = _
  rw [one_f32]
  rfl

/-- The reference's spelling of the bias vector added and the result multiplied by 1 / (1 + exp (−·)). -/
theorem host_silu_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 h4 : (⟨0, ![]⟩ : Shape).BroadcastsInDim ⟨2, ![n, k]⟩ ![]) :
    mulf (addf X (broadcastInDim ⟨2, ![n, k]⟩ ![0, 1] h2 (broadcastInDim ⟨2, ![1, k]⟩ ![1] h1 b)))
      (Host.divf (broadcastInDim ⟨2, ![n, k]⟩ ![] h3 (constant (F := Ideal) ⟨0, ![]⟩ .f32 0x3F800000#32))
        (addf (broadcastInDim ⟨2, ![n, k]⟩ ![] h4 (constant (F := Ideal) ⟨0, ![]⟩ .f32 0x3F800000#32))
          (Host.exp (Host.negf (addf X (broadcastInDim ⟨2, ![n, k]⟩ ![0, 1] h2 (broadcastInDim ⟨2, ![1, k]⟩ ![1] h1 b)))))))
      = biasSilu X (asRow b) := by
  rw [host_silu_of, host_add_eq]
  rfl

end Cert.Lib.BiasSilu

end
-- ==== Proof.LibGateForms.lean ====
/-
  Two readings that gated cells (sigmoid and tanh gates cut out of one wide array) need, on the extended reals.

  (1) The logistic function as a tensor program spells it — 1 / (1 + exp (−v)), each of the two ones stretched to v's
      shape from a scalar holding the word 0x3F800000 of the number one — is, entry by entry, the logistic function of
      v, for an array v of ANY shape. On the extended reals this holds at the infinities as well (exp (−v) is 0 or +∞
      there and the quotient 1 or 0), so nothing is asked of v.
  (2) A group of k consecutive columns cut out of an n × N array by a unit-stride slice at column `off` reads, at (p, q),
      the array at (p, off + q): all four extents are variables.
  Nothing here mentions a program.
-/
import Idealize.ShloMosaic.PureOps.Ideal.Laws
import Idealize.ShloMosaic.Lib.ValueIdx
import Idealize.ShloMosaic.Lib.Pipeline.Value
import proofs.«173036_j7464653160860_2_alg».proof.Proof.LibRowVector
import proofs.«173036_j7464653160860_2_alg».proof.Proof.LibBiasSilu

noncomputable section

namespace Cert.Lib.GateForms

open Idealize.ShloMosaic Idealize.ShloMosaic.ValueIdx Cert.Lib.RowVector Cert.Lib.BiasSilu

/-- 1 / (1 + exp (−v)), the ones stretched from the word of the number one, is the logistic function of v entry by
    entry, on an array of any shape. -/
theorem host_logistic {s : Shape} (v : FVec Ideal s .f32) (h3 h4 : (⟨0, ![]⟩ : Shape).BroadcastsInDim s ![]) :
    Host.divf (broadcastInDim s ![] h3 (constant (F := Ideal) ⟨0, ![]⟩ .f32 0x3F800000#32))
      (addf (broadcastInDim s ![] h4 (constant (F := Ideal) ⟨0, ![]⟩ .f32 0x3F800000#32)) (Host.exp (Host.negf v)))
      = fun i => Ideal.logistic (v i) := by
  funext i
  show Ideal.div (broadcastInDim s ![] h3 (constant (F := Ideal) ⟨0, ![]⟩ .f32 0x3F800000#32) i)
      (broadcastInDim s ![] h4 (constant (F := Ideal) ⟨0, ![]⟩ .f32 0x3F800000#32) i + Ideal.exp (-(v i))) = _
  rw [bcastInDim_scalar_apply]
  show Ideal.div (Ideal.ofBits .f32 0x3F800000#32) (Ideal.ofBits .f32 0x3F800000#32 + Ideal.exp (-(v i))) = _
  rw [one_f32]
  rfl

/-- The slice of k columns starting at column `off` of an n × N array reads, at (p, q), the array at (p, off + q). -/
theorem slice_cols_apply {α : Type} {n N k : Nat} (off : Nat) (Z : (⟨2, ![n, N]⟩ : Shape).Idx → α)
    (h : (⟨2, ![n, N]⟩ : Shape).Slices ![0, off] ⟨2, ![n, k]⟩) (p : Fin n) (q : Fin k) (col : Fin N)
    (hcol : col.val = off + q.val) :
    extractStridedSlice ⟨2, ![n, k]⟩ ![0, off] Z h (ix2 p q) = Z (ix2 p col) :=
  extractStridedSlice_apply _ Z h _ _ fun a => by
    match a with
    | ⟨0, _⟩ => show p.val = 0 + p.val; omega
    | ⟨1, _⟩ => exact hcol

end Cert.Lib.GateForms

end
-- ==== Proof.RefCell.lean ====
/-
  The reference's operations on the extended reals, as functions of whole arrays.

  The reference computes all four gates of a layer at once: x · Wiᵀ + bi + h · Whᵀ + bh as a 1×8192 row (each product a
  dot_general against the transposed weight array, each bias broadcast from a vector to a row), cuts the row into the
  four gates by slices at columns 0, 2048, 4096 and 6144, applies 1 / (1 + exp (−v)) — the logistic function — or tanh,
  and combines them. Read at a hidden unit this is the layer of the specification: the row's entry 2048·g + j is gate
  g's pre-activation of unit j, with its four contributions added in another order. The read-out is x · Wᵀ + b, and the
  last step is the reference's spelling of the logarithm of the softmax of a row.
-/
import proofs.«173036_j7464653160860_2_alg».proof.Proof.Gen.ReferenceIdeal
import proofs.«173036_j7464653160860_2_alg».proof.Proof.LstmSpec
import proofs.«173036_j7464653160860_2_alg».proof.Proof.LibMatProd
import proofs.«173036_j7464653160860_2_alg».proof.Proof.LibRowVector
import proofs.«173036_j7464653160860_2_alg».proof.Proof.LibGateForms
import proofs.«173036_j7464653160860_2_alg».proof.Proof.LibLogSoftmaxRows
import Idealize.ShloMosaic.PureOps.Ideal.Laws
import Idealize.ShloMosaic.Lib.ValueIdx
import Idealize.ShloMosaic.Lib.Pipeline.Value

open scoped BigOperators

noncomputable section

namespace Cert.ReferenceIdeal.RefValue

open Idealize.ShloMosaic Idealize.ShloMosaic.ValueIdx Cert.ReferenceIdeal Cert.ReferenceIdeal.Gen Cert.Spec
open Cert.Lib.LogSoftmaxRows

/-! ## Generic readings -/

/-- The host's plain dot_general (left columns against right rows) at (a, b) is the sum over c of A(a, c) · B(c, b). -/
theorem hostDot_apply {m k n : Nat} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  simp only [Host.dotGeneral]
  rw [Cert.Lib.MatProd.dotGeneral_eq_matProd d hlc hrc hln hrn hlb hrb]
  rfl

/-- A transposed matrix at (k, r) is the matrix at (r, k). -/
theorem transpose2_apply {α : Type} {r k : Nat} (W : (⟨2, ![r, k]⟩ : Shape).Idx → α)
    (h : (⟨2, ![r, k]⟩ : Shape).Transposes [1, 0] ⟨2, ![k, r]⟩) (p : Fin k) (q : Fin r) :
    transpose ⟨2, ![k, r]⟩ [1, 0] W h (ix2 p q) = W (ix2 q p) :=
  transpose_apply _ W h _ _ fun b => by
    match b with
    | ⟨0, _⟩ => rfl
    | ⟨1, _⟩ => rfl

/-- x · Wᵀ at entry r is the inner product of x with row r of W. -/
theorem dotT_apply {K R : Nat} (d : DotDims ⟨2, ![1, K]⟩ ⟨2, ![K, R]⟩ ⟨2, ![1, R]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![1, K]⟩ .f32) (W : FVec Ideal ⟨2, ![R, K]⟩ .f32)
    (h : (⟨2, ![R, K]⟩ : Shape).Transposes [1, 0] ⟨2, ![K, R]⟩) (r : Fin R) :
    Host.dotGeneral d none x (transpose ⟨2, ![K, R]⟩ [1, 0] W h) (ix2 0 r) = dotRow x W r := by
  rw [hostDot_apply d hlc hrc hln hrn hlb hrb]
  unfold dotRow
  exact Finset.sum_congr rfl fun c _ => by rw [transpose2_apply]

/-- A vector broadcast to a 1×n row reads its entry. -/
theorem biasRow_apply {n : Nat} (b : (⟨1, ![n]⟩ : Shape).Idx → EReal)
    (h : (⟨1, ![n]⟩ : Shape).BroadcastsInDim ⟨2, ![1, n]⟩ ![1]) (r : Fin n) :
    broadcastInDim ⟨2, ![1, n]⟩ ![1] h b (ix2 0 r) = b (ix1 r) := by
  rw [Cert.Lib.RowVector.bcastInDim_eq_asRow]
  rfl

/-! ## One layer -/

section Layer
variable (x h c : FVec Ideal S1x2048 .f32) (Wi Wh : FVec Ideal S8192x2048 .f32) (bi bh : FVec Ideal S8192 .f32)

/-- All four gates' pre-activations as a 1×8192 row. -/
def refGates : FVec Ideal S1x8192 .f32 :=
  addf (addf (addf (Host.dotGeneral dot_S1x2048_S2048x8192_S1x8192_1_0_0_1_n_n none x (transpose S2048x8192 [1, 0] Wi transposes_S8192x2048_S2048x8192_1_0)) (broadcastInDim S1x8192 ![1] bcast_S8192_S1x8192_1 bi)) (Host.dotGeneral dot_S1x2048_S2048x8192_S1x8192_1_0_0_1_n_n none h (transpose S2048x8192 [1, 0] Wh transposes_S8192x2048_S2048x8192_1_0))) (broadcastInDim S1x8192 ![1] bcast_S8192_S1x8192_1 bh)

/-- 1 / (1 + exp (−v)) as the reference spells it. -/
def refSig (v : FVec Ideal S1x2048 .f32) : FVec Ideal S1x2048 .f32 :=
  Host.divf (broadcastInDim S1x2048 ![] bcast_S_S1x2048 (constant (F := Ideal) S_ .f32 0x3F800000#32)) (addf (broadcastInDim S1x2048 ![] bcast_S_S1x2048 (constant (F := Ideal) S_ .f32 0x3F800000#32)) (Host.exp (Host.negf v)))

/-- The new cell state as the reference spells it. -/
def refC : FVec Ideal S1x2048 .f32 :=
  addf (mulf (refSig (extractStridedSlice S1x2048 ![0, 2048] (refGates x h Wi Wh bi bh) slices_S1x8192_S1x2048_0_2048)) c) (mulf (refSig (extractStridedSlice S1x2048 ![0, 0] (refGates x h Wi Wh bi bh) slices_S1x8192_S1x2048_0_0)) (Host.tanh (extractStridedSlice S1x2048 ![0, 4096] (refGates x h Wi Wh bi bh) slices_S1x8192_S1x2048_0_4096)))

/-- The new hidden state as the reference spells it. -/
def refH : FVec Ideal S1x2048 .f32 :=
  mulf (refSig (extractStridedSlice S1x2048 ![0, 6144] (refGates x h Wi Wh bi bh) slices_S1x8192_S1x2048_0_6144)) (Host.tanh (refC x h c Wi Wh bi bh))

theorem refGates_apply (r : Fin 8192) : refGates x h Wi Wh bi bh (ix2 0 r) = pre x h Wi Wh bi bh r := by
  unfold refGates
  rw [addf_apply, addf_apply, addf_apply,
    dotT_apply dot_S1x2048_S2048x8192_S1x8192_1_0_0_1_n_n rfl rfl rfl rfl rfl rfl x Wi transposes_S8192x2048_S2048x8192_1_0 r,
    dotT_apply dot_S1x2048_S2048x8192_S1x8192_1_0_0_1_n_n rfl rfl rfl rfl rfl rfl h Wh transposes_S8192x2048_S2048x8192_1_0 r,
    biasRow_apply bi bcast_S8192_S1x8192_1 r, biasRow_apply bh bcast_S8192_S1x8192_1 r]
  exact pre_comm x h Wi Wh bi bh r

/-- The slice at column 2048·g reads gate g. -/
theorem gate_apply (off : Nat) (g : Fin 4) (hoff : off = g.val * 2048) (hs : S1x8192.Slices ![0, off] S1x2048) (j : Fin 2048) :
    extractStridedSlice S1x2048 ![0, off] (refGates x h Wi Wh bi bh) hs (ix2 0 j) = pre x h Wi Wh bi bh (gateRow g j) :=
  (Cert.Lib.GateForms.slice_cols_apply off (refGates x h Wi Wh bi bh) hs 0 j (gateRow g j)
    (by show g.val * 2048 + j.val = off + j.val; omega)).trans (refGates_apply x h Wi Wh bi bh _)

theorem refSig_apply (v : FVec Ideal S1x2048 .f32) (i : S1x2048.Idx) : refSig v i = Ideal.logistic (v i) :=
  congrFun (Cert.Lib.GateForms.host_logistic v bcast_S_S1x2048 bcast_S_S1x2048) i

theorem refC_apply (j : Fin 2048) : refC x h c Wi Wh bi bh (ix2 0 j) = cellAt x h c Wi Wh bi bh j := by
  unfold refC
  rw [addf_apply, mulf_apply, mulf_apply, refSig_apply, refSig_apply,
    gate_apply x h Wi Wh bi bh 2048 1 rfl, gate_apply x h Wi Wh bi bh 0 0 rfl]
  show _ + _ * Ideal.tanh (extractStridedSlice S1x2048 ![0, 4096] (refGates x h Wi Wh bi bh) slices_S1x8192_S1x2048_0_4096 (ix2 0 j)) = _
  rw [gate_apply x h Wi Wh bi bh 4096 2 rfl]
  rfl

theorem refC_eq : refC x h c Wi Wh bi bh = cellC x h c Wi Wh bi bh := by
  funext i
  rw [idx_row i, refC_apply]
  rfl

theorem refH_eq : refH x h c Wi Wh bi bh = cellH x h c Wi Wh bi bh := by
  funext i
  rw [idx_row i]
  unfold refH
  rw [mulf_apply, refSig_apply, gate_apply x h Wi Wh bi bh 6144 3 rfl]
  show _ * Ideal.tanh (refC x h c Wi Wh bi bh (ix2 0 _)) = _
  rw [refC_apply]
  rfl

end Layer

/-! ## The read-out -/

/-- x · Wᵀ + b as the reference spells it. -/
def refLin (x : FVec Ideal S1x3072 .f32) (W : FVec Ideal S32000x3072 .f32) (b : FVec Ideal S32000 .f32) : FVec Ideal S1x32000 .f32 :=
  addf (Host.dotGeneral dot_S1x3072_S3072x32000_S1x32000_1_0_0_1_n_n none x (transpose S3072x32000 [1, 0] W transposes_S32000x3072_S3072x32000_1_0)) (broadcastInDim S1x32000 ![1] bcast_S32000_S1x32000_1 b)

theorem refLin_eq (x : FVec Ideal S1x3072 .f32) (W : FVec Ideal S32000x3072 .f32) (b : FVec Ideal S32000 .f32) :
    refLin x W b = linear x W b := by
  funext i
  rw [idx_row i, linear_apply]
  unfold refLin
  rw [addf_apply,
    dotT_apply dot_S1x3072_S3072x32000_S1x32000_1_0_0_1_n_n rfl rfl rfl rfl rfl rfl x W transposes_S32000x3072_S3072x32000_1_0,
    biasRow_apply b bcast_S32000_S1x32000_1]

/-- The logarithm of the softmax of a row as the reference spells it. -/
def hostLSM (L : FVec Ideal S1x32000 .f32) : FVec Ideal S1x32000 .f32 :=
  subf (subf L (broadcastInDim S1x32000 ![0, 1] bcast_S1x1_S1x32000_0_1 (broadcastInDim S1x1 ![0] bcast_S1_S1x1_0 (maximumf (broadcastInDim S1 ![] bcast_S_S1 (constant (F := Ideal) S_ .f32 0xFF800000#32)) (Host.reduce FloatOps.maximumf L (constant (F := Ideal) S_ .f32 0xFF800000#32) reducesTo_S1x32000_S1_d1 h_S_))))) (broadcastInDim S1x32000 ![0, 1] bcast_S1x1_S1x32000_0_1 (Host.log (broadcastInDim S1x1 ![0] bcast_S1_S1x1_0 (Host.reduceAdd (Host.exp (subf L (broadcastInDim S1x32000 ![0, 1] bcast_S1x1_S1x32000_0_1 (broadcastInDim S1x1 ![0] bcast_S1_S1x1_0 (maximumf (broadcastInDim S1 ![] bcast_S_S1 (constant (F := Ideal) S_ .f32 0xFF800000#32)) (Host.reduce FloatOps.maximumf L (constant (F := Ideal) S_ .f32 0xFF800000#32) reducesTo_S1x32000_S1_d1 h_S_)))))) (constant (F := Ideal) S_ .f32 0x00000000#32) reducesTo_S1x32000_S1_d1 h_S_))))

theorem hostLSM_eq (L : FVec Ideal S1x32000 .f32) : hostLSM L = logSoftmax (a := 1) (b := 32000) L :=
  host_eq (n := 1) (c := 32000) L bcast_S_S1 bcast_S1_S1x1_0 bcast_S1x1_S1x32000_0_1 reducesTo_S1x32000_S1_d1 h_S_

end Cert.ReferenceIdeal.RefValue

end
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.RefRunFast.lean ====
/-
  The reference's run, read in three stretches.

  The reference is a straight line of 121 host operations: the first 48 compute the first layer's new hidden and cell
  state, the next 47 the second layer's from the first layer's hidden state, and the last 26 the read-out, the
  logarithm of the softmax and the two stacked state arrays. Each stretch is read on its own, from whatever its buffers
  hold when it starts — its results as the reference's spelling of a layer (or of the read-out) of those contents, every
  buffer it does not write as it was — and the three readings are chained from the launch memory. Each spelling is the
  specification's function, so the three results are the program's three result functions of the arguments.
-/
import proofs.«173036_j7464653160860_2_alg».proof.Proof.RefOpsP
import proofs.«173036_j7464653160860_2_alg».proof.Proof.RefCell
import proofs.«173036_j7464653160860_2_alg».proof.Proof.WholeSpec
import proofs.«173036_j7464653160860_2_alg».proof.Proof.LibTypedRefs
import Idealize.ShloMosaic.Lib.StableHlo.Run

set_option maxRecDepth 65536

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.OpsP Cert.Spec

/-- Running one list of operations after another is running their concatenation. -/
theorem after_append {Val : EltTy → Type} (xs ys : List (HloOp τ sig Val)) (V : Valuation τ sig Val) :
    after (xs ++ ys) V = after ys (after xs V) := by
  induction xs generalizing V with
  | nil => rfl
  | cons x xs ih => simp only [List.cons_append, after_cons, ih]

variable {F : FTy → Type} [FloatOps F]

/-- The first layer's operations. -/
abbrev opsA : List (HloOp τ sig (Elt F)) :=
  [ binary main_arg0 main_arg1 main_v0 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg2 main_v1 ((extractStridedSlice S1x1x2048 ![0, 0, 0] · slices_S2x1x2048_S1x1x2048_0_0_0) : (⟨S2x1x2048, .f32⟩ : BufTy).Contents (Elt F) → (⟨S1x1x2048, .f32⟩ : BufTy).Contents (Elt F)),
    reshape main_v1 main_v2 rfl shapeCasts_S1x1x2048_S1x2048,
    unary main_arg3 main_v3 ((extractStridedSlice S1x1x2048 ![0, 0, 0] · slices_S2x1x2048_S1x1x2048_0_0_0) : (⟨S2x1x2048, .f32⟩ : BufTy).Contents (Elt F) → (⟨S1x1x2048, .f32⟩ : BufTy).Contents (Elt F)),
    reshape main_v3 main_v4 rfl shapeCasts_S1x1x2048_S1x2048,
    unary main_arg4 main_v5 ((transpose S2048x8192 [1, 0] · transposes_S8192x2048_S2048x8192_1_0) : (⟨S8192x2048, .f32⟩ : BufTy).Contents (Elt F) → (⟨S2048x8192, .f32⟩ : BufTy).Contents (Elt F)),
    binary main_v0 main_v5 main_v6 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    unary main_arg6 main_v7 (broadcastInDim S1x8192 ![1] bcast_S8192_S1x8192_1 : (⟨S8192, .f32⟩ : BufTy).Contents (Elt F) → (⟨S1x8192, .f32⟩ : BufTy).Contents (Elt F)),
    binary main_v6 main_v7 main_v8 (addf : (⟨S1x8192, .f32⟩ : BufTy).Contents (Elt F) → (⟨S1x8192, .f32⟩ : BufTy).Contents (Elt F) → (⟨S1x8192, .f32⟩ : BufTy).Contents (Elt F)),
    unary main_arg5 main_v9 ((transpose S2048x8192 [1, 0] · transposes_S8192x2048_S2048x8192_1_0) : (⟨S8192x2048, .f32⟩ : BufTy).Contents (Elt F) → (⟨S2048x8192, .f32⟩ : BufTy).Contents (Elt F)),
    binary main_v2 main_v9 main_v10 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    binary main_v8 main_v10 main_v11 (addf : (⟨S1x8192, .f32⟩ : BufTy).Contents (Elt F) → (⟨S1x8192, .f32⟩ : BufTy).Contents (Elt F) → (⟨S1x8192, .f32⟩ : BufTy).Contents (Elt F)),
    unary main_arg7 main_v12 (broadcastInDim S1x8192 ![1] bcast_S8192_S1x8192_1 : (⟨S8192, .f32⟩ : BufTy).Contents (Elt F) → (⟨S1x8192, .f32⟩ : BufTy).Contents (Elt F)),
    binary main_v11 main_v12 main_v13 (addf : (⟨S1x8192, .f32⟩ : BufTy).Contents (Elt F) → (⟨S1x8192, .f32⟩ : BufTy).Contents (Elt F) → (⟨S1x8192, .f32⟩ : BufTy).Contents (Elt F)),
    unary main_v13 main_v14 ((extractStridedSlice S1x2048 ![0, 0] · slices_S1x8192_S1x2048_0_0) : (⟨S1x8192, .f32⟩ : BufTy).Contents (Elt F) → (⟨S1x2048, .f32⟩ : BufTy).Contents (Elt F)),
    unary main_v13 main_v15 ((extractStridedSlice S1x2048 ![0, 2048] · slices_S1x8192_S1x2048_0_2048) : (⟨S1x8192, .f32⟩ : BufTy).Contents (Elt F) → (⟨S1x2048, .f32⟩ : BufTy).Contents (Elt F)),
    unary main_v13 main_v16 ((extractStridedSlice S1x2048 ![0, 4096] · slices_S1x8192_S1x2048_0_4096) : (⟨S1x8192, .f32⟩ : BufTy).Contents (Elt F) → (⟨S1x2048, .f32⟩ : BufTy).Contents (Elt F)),
    unary main_v13 main_v17 ((extractStridedSlice S1x2048 ![0, 6144] · slices_S1x8192_S1x2048_0_6144) : (⟨S1x8192, .f32⟩ : BufTy).Contents (Elt F) → (⟨S1x2048, .f32⟩ : BufTy).Contents (Elt F)),
    unary main_v14 main_v18 (Host.negf : (⟨S1x2048, .f32⟩ : BufTy).Contents (Elt F) → (⟨S1x2048, .f32⟩ : BufTy).Contents (Elt F)),
    unary main_v18 main_v19 (Host.exp : (⟨S1x2048, .f32⟩ : BufTy).Contents (Elt F) → (⟨S1x2048, .f32⟩ : BufTy).Contents (Elt F)),
    nullary main_cst (constant S_ .f32 0x3F800000#32),
    unary main_cst main_v20 (broadcastInDim S1x2048 ![] bcast_S_S1x2048 : (⟨S_, .f32⟩ : BufTy).Contents (Elt F) → (⟨S1x2048, .f32⟩ : BufTy).Contents (Elt F)),
    binary main_v20 main_v19 main_v21 (addf : (⟨S1x2048, .f32⟩ : BufTy).Contents (Elt F) → (⟨S1x2048, .f32⟩ : BufTy).Contents (Elt F) → (⟨S1x2048, .f32⟩ : BufTy).Contents (Elt F)),
    nullary main_cst_0 (constant S_ .f32 0x3F800000#32),
    unary main_cst_0 main_v22 (broadcastInDim S1x2048 ![] bcast_S_S1x2048 : (⟨S_, .f32⟩ : BufTy).Contents (Elt F) → (⟨S1x2048, .f32⟩ : BufTy).Contents (Elt F)),
    binary main_v22 main_v21 main_v23 (Host.divf : (⟨S1x2048, .f32⟩ : BufTy).Contents (Elt F) → (⟨S1x2048, .f32⟩ : BufTy).Contents (Elt F) → (⟨S1x2048, .f32⟩ : BufTy).Contents (Elt F)),
    unary main_v15 main_v24 (Host.negf : (⟨S1x2048, .f32⟩ : BufTy).Contents (Elt F) → (⟨S1x2048, .f32⟩ : BufTy).Contents (Elt F)),
    unary main_v24 main_v25 (Host.exp : (⟨S1x2048, .f32⟩ : BufTy).Contents (Elt F) → (⟨S1x2048, .f32⟩ : BufTy).Contents (Elt F)),
    nullary main_cst_1 (constant S_ .f32 0x3F800000#32),
    unary main_cst_1 main_v26 (broadcastInDim S1x2048 ![] bcast_S_S1x2048 : (⟨S_, .f32⟩ : BufTy).Contents (Elt F) → (⟨S1x2048, .f32⟩ : BufTy).Contents (Elt F)),
    binary main_v26 main_v25 main_v27 (addf : (⟨S1x2048, .f32⟩ : BufTy).Contents (Elt F) → (⟨S1x2048, .f32⟩ : BufTy).Contents (Elt F) → (⟨S1x2048, .f32⟩ : BufTy).Contents (Elt F)),
    nullary main_cst_2 (constant S_ .f32 0x3F800000#32),
    unary main_cst_2 main_v28 (broadcastInDim S1x2048 ![] bcast_S_S1x2048 : (⟨S_, .f32⟩ : BufTy).Contents (Elt F) → (⟨S1x2048, .f32⟩ : BufTy).Contents (Elt F)),
    binary main_v28 main_v27 main_v29 (Host.divf : (⟨S1x2048, .f32⟩ : BufTy).Contents (Elt F) → (⟨S1x2048, .f32⟩ : BufTy).Contents (Elt F) → (⟨S1x2048, .f32⟩ : BufTy).Contents (Elt F)),
    unary main_v16 main_v30 (Host.tanh : (⟨S1x2048, .f32⟩ : BufTy).Contents (Elt F) → (⟨S1x2048, .f32⟩ : BufTy).Contents (Elt F)),
    unary main_v17 main_v31 (Host.negf : (⟨S1x2048, .f32⟩ : BufTy).Contents (Elt F) → (⟨S1x2048, .f32⟩ : BufTy).Contents (Elt F)),
    unary main_v31 main_v32 (Host.exp : (⟨S1x2048, .f32⟩ : BufTy).Contents (Elt F) → (⟨S1x2048, .f32⟩ : BufTy).Contents (Elt F)),
    nullary main_cst_3 (constant S_ .f32 0x3F800000#32),
    unary main_cst_3 main_v33 (broadcastInDim S1x2048 ![] bcast_S_S1x2048 : (⟨S_, .f32⟩ : BufTy).Contents (Elt F) → (⟨S1x2048, .f32⟩ : BufTy).Contents (Elt F)),
    binary main_v33 main_v32 main_v34 (addf : (⟨S1x2048, .f32⟩ : BufTy).Contents (Elt F) → (⟨S1x2048, .f32⟩ : BufTy).Contents (Elt F) → (⟨S1x2048, .f32⟩ : BufTy).Contents (Elt F)),
    nullary main_cst_4 (constant S_ .f32 0x3F800000#32),
    unary main_cst_4 main_v35 (broadcastInDim S1x2048 ![] bcast_S_S1x2048 : (⟨S_, .f32⟩ : BufTy).Contents (Elt F) → (⟨S1x2048, .f32⟩ : BufTy).Contents (Elt F)),
    binary main_v35 main_v34 main_v36 (Host.divf : (⟨S1x2048, .f32⟩ : BufTy).Contents (Elt F) → (⟨S1x2048, .f32⟩ : BufTy).Contents (Elt F) → (⟨S1x2048, .f32⟩ : BufTy).Contents (Elt F)),
    binary main_v29 main_v4 main_v37 (mulf : (⟨S1x2048, .f32⟩ : BufTy).Contents (Elt F) → (⟨S1x2048, .f32⟩ : BufTy).Contents (Elt F) → (⟨S1x2048, .f32⟩ : BufTy).Contents (Elt F)),
    binary main_v23 main_v30 main_v38 (mulf : (⟨S1x2048, .f32⟩ : BufTy).Contents (Elt F) → (⟨S1x2048, .f32⟩ : BufTy).Contents (Elt F) → (⟨S1x2048, .f32⟩ : BufTy).Contents (Elt F)),
    binary main_v37 main_v38 main_v39 (addf : (⟨S1x2048, .f32⟩ : BufTy).Contents (Elt F) → (⟨S1x2048, .f32⟩ : BufTy).Contents (Elt F) → (⟨S1x2048, .f32⟩ : BufTy).Contents (Elt F)),
    unary main_v39 main_v40 (Host.tanh : (⟨S1x2048, .f32⟩ : BufTy).Contents (Elt F) → (⟨S1x2048, .f32⟩ : BufTy).Contents (Elt F)),
    binary main_v36 main_v40 main_v41 (mulf : (⟨S1x2048, .f32⟩ : BufTy).Contents (Elt F) → (⟨S1x2048, .f32⟩ : BufTy).Contents (Elt F) → (⟨S1x2048, .f32⟩ : BufTy).Contents (Elt F)) ]

/-- The second layer's operations. -/
abbrev opsB : List (HloOp τ sig (Elt F)) :=
  [ unary main_arg2 main_v42 ((extractStridedSlice S1x1x2048 ![1, 0, 0] · slices_S2x1x2048_S1x1x2048_1_0_0) : (⟨S2x1x2048, .f32⟩ : BufTy).Contents (Elt F) → (⟨S1x1x2048, .f32⟩ : BufTy).Contents (Elt F)),
    reshape main_v42 main_v43 rfl shapeCasts_S1x1x2048_S1x2048,
    unary main_arg3 main_v44 ((extractStridedSlice S1x1x2048 ![1, 0, 0] · slices_S2x1x2048_S1x1x2048_1_0_0) : (⟨S2x1x2048, .f32⟩ : BufTy).Contents (Elt F) → (⟨S1x1x2048, .f32⟩ : BufTy).Contents (Elt F)),
    reshape main_v44 main_v45 rfl shapeCasts_S1x1x2048_S1x2048,
    unary main_arg8 main_v46 ((transpose S2048x8192 [1, 0] · transposes_S8192x2048_S2048x8192_1_0) : (⟨S8192x2048, .f32⟩ : BufTy).Contents (Elt F) → (⟨S2048x8192, .f32⟩ : BufTy).Contents (Elt F)),
    binary main_v41 main_v46 main_v47 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    unary main_arg10 main_v48 (broadcastInDim S1x8192 ![1] bcast_S8192_S1x8192_1 : (⟨S8192, .f32⟩ : BufTy).Contents (Elt F) → (⟨S1x8192, .f32⟩ : BufTy).Contents (Elt F)),
    binary main_v47 main_v48 main_v49 (addf : (⟨S1x8192, .f32⟩ : BufTy).Contents (Elt F) → (⟨S1x8192, .f32⟩ : BufTy).Contents (Elt F) → (⟨S1x8192, .f32⟩ : BufTy).Contents (Elt F)),
    unary main_arg9 main_v50 ((transpose S2048x8192 [1, 0] · transposes_S8192x2048_S2048x8192_1_0) : (⟨S8192x2048, .f32⟩ : BufTy).Contents (Elt F) → (⟨S2048x8192, .f32⟩ : BufTy).Contents (Elt F)),
    binary main_v43 main_v50 main_v51 ((fun l r => Host.dotGeneral dot_S1x2048_S2048x8192_S1x8192_1_0_0_1_n_n none l r) : (⟨S1x2048, .f32⟩ : BufTy).Contents (Elt F) → (⟨S2048x8192, .f32⟩ : BufTy).Contents (Elt F) → (⟨S1x8192, .f32⟩ : BufTy).Contents (Elt F)),
    binary main_v49 main_v51 main_v52 (addf : (⟨S1x8192, .f32⟩ : BufTy).Contents (Elt F) → (⟨S1x8192, .f32⟩ : BufTy).Contents (Elt F) → (⟨S1x8192, .f32⟩ : BufTy).Contents (Elt F)),
    unary main_arg11 main_v53 (broadcastInDim S1x8192 ![1] bcast_S8192_S1x8192_1 : (⟨S8192, .f32⟩ : BufTy).Contents (Elt F) → (⟨S1x8192, .f32⟩ : BufTy).Contents (Elt F)),
    binary main_v52 main_v53 main_v54 (addf : (⟨S1x8192, .f32⟩ : BufTy).Contents (Elt F) → (⟨S1x8192, .f32⟩ : BufTy).Contents (Elt F) → (⟨S1x8192, .f32⟩ : BufTy).Contents (Elt F)),
    unary main_v54 main_v55 ((extractStridedSlice S1x2048 ![0, 0] · slices_S1x8192_S1x2048_0_0) : (⟨S1x8192, .f32⟩ : BufTy).Contents (Elt F) → (⟨S1x2048, .f32⟩ : BufTy).Contents (Elt F)),
    unary main_v54 main_v56 ((extractStridedSlice S1x2048 ![0, 2048] · slices_S1x8192_S1x2048_0_2048) : (⟨S1x8192, .f32⟩ : BufTy).Contents (Elt F) → (⟨S1x2048, .f32⟩ : BufTy).Contents (Elt F)),
    unary main_v54 main_v57 ((extractStridedSlice S1x2048 ![0, 4096] · slices_S1x8192_S1x2048_0_4096) : (⟨S1x8192, .f32⟩ : BufTy).Contents (Elt F) → (⟨S1x2048, .f32⟩ : BufTy).Contents (Elt F)),
    unary main_v54 main_v58 ((extractStridedSlice S1x2048 ![0, 6144] · slices_S1x8192_S1x2048_0_6144) : (⟨S1x8192, .f32⟩ : BufTy).Contents (Elt F) → (⟨S1x2048, .f32⟩ : BufTy).Contents (Elt F)),
    unary main_v55 main_v59 (Host.negf : (⟨S1x2048, .f32⟩ : BufTy).Contents (Elt F) → (⟨S1x2048, .f32⟩ : BufTy).Contents (Elt F)),
    unary main_v59 main_v60 (Host.exp : (⟨S1x2048, .f32⟩ : BufTy).Contents (Elt F) → (⟨S1x2048, .f32⟩ : BufTy).Contents (Elt F)),
    nullary main_cst_5 (constant S_ .f32 0x3F800000#32),
    unary main_cst_5 main_v61 (broadcastInDim S1x2048 ![] bcast_S_S1x2048 : (⟨S_, .f32⟩ : BufTy).Contents (Elt F) → (⟨S1x2048, .f32⟩ : BufTy).Contents (Elt F)),
    binary main_v61 main_v60 main_v62 (addf : (⟨S1x2048, .f32⟩ : BufTy).Contents (Elt F) → (⟨S1x2048, .f32⟩ : BufTy).Contents (Elt F) → (⟨S1x2048, .f32⟩ : BufTy).Contents (Elt F)),
    nullary main_cst_6 (constant S_ .f32 0x3F800000#32),
    unary main_cst_6 main_v63 (broadcastInDim S1x2048 ![] bcast_S_S1x2048 : (⟨S_, .f32⟩ : BufTy).Contents (Elt F) → (⟨S1x2048, .f32⟩ : BufTy).Contents (Elt F)),
    binary main_v63 main_v62 main_v64 (Host.divf : (⟨S1x2048, .f32⟩ : BufTy).Contents (Elt F) → (⟨S1x2048, .f32⟩ : BufTy).Contents (Elt F) → (⟨S1x2048, .f32⟩ : BufTy).Contents (Elt F)),
    unary main_v56 main_v65 (Host.negf : (⟨S1x2048, .f32⟩ : BufTy).Contents (Elt F) → (⟨S1x2048, .f32⟩ : BufTy).Contents (Elt F)),
    unary main_v65 main_v66 (Host.exp : (⟨S1x2048, .f32⟩ : BufTy).Contents (Elt F) → (⟨S1x2048, .f32⟩ : BufTy).Contents (Elt F)),
    nullary main_cst_7 (constant S_ .f32 0x3F800000#32),
    unary main_cst_7 main_v67 (broadcastInDim S1x2048 ![] bcast_S_S1x2048 : (⟨S_, .f32⟩ : BufTy).Contents (Elt F) → (⟨S1x2048, .f32⟩ : BufTy).Contents (Elt F)),
    binary main_v67 main_v66 main_v68 (addf : (⟨S1x2048, .f32⟩ : BufTy).Contents (Elt F) → (⟨S1x2048, .f32⟩ : BufTy).Contents (Elt F) → (⟨S1x2048, .f32⟩ : BufTy).Contents (Elt F)),
    nullary main_cst_8 (constant S_ .f32 0x3F800000#32),
    unary main_cst_8 main_v69 (broadcastInDim S1x2048 ![] bcast_S_S1x2048 : (⟨S_, .f32⟩ : BufTy).Contents (Elt F) → (⟨S1x2048, .f32⟩ : BufTy).Contents (Elt F)),
    binary main_v69 main_v68 main_v70 (Host.divf : (⟨S1x2048, .f32⟩ : BufTy).Contents (Elt F) → (⟨S1x2048, .f32⟩ : BufTy).Contents (Elt F) → (⟨S1x2048, .f32⟩ : BufTy).Contents (Elt F)),
    unary main_v57 main_v71 (Host.tanh : (⟨S1x2048, .f32⟩ : BufTy).Contents (Elt F) → (⟨S1x2048, .f32⟩ : BufTy).Contents (Elt F)),
    unary main_v58 main_v72 (Host.negf : (⟨S1x2048, .f32⟩ : BufTy).Contents (Elt F) → (⟨S1x2048, .f32⟩ : BufTy).Contents (Elt F)),
    unary main_v72 main_v73 (Host.exp : (⟨S1x2048, .f32⟩ : BufTy).Contents (Elt F) → (⟨S1x2048, .f32⟩ : BufTy).Contents (Elt F)),
    nullary main_cst_9 (constant S_ .f32 0x3F800000#32),
    unary main_cst_9 main_v74 (broadcastInDim S1x2048 ![] bcast_S_S1x2048 : (⟨S_, .f32⟩ : BufTy).Contents (Elt F) → (⟨S1x2048, .f32⟩ : BufTy).Contents (Elt F)),
    binary main_v74 main_v73 main_v75 (addf : (⟨S1x2048, .f32⟩ : BufTy).Contents (Elt F) → (⟨S1x2048, .f32⟩ : BufTy).Contents (Elt F) → (⟨S1x2048, .f32⟩ : BufTy).Contents (Elt F)),
    nullary main_cst_10 (constant S_ .f32 0x3F800000#32),
    unary main_cst_10 main_v76 (broadcastInDim S1x2048 ![] bcast_S_S1x2048 : (⟨S_, .f32⟩ : BufTy).Contents (Elt F) → (⟨S1x2048, .f32⟩ : BufTy).Contents (Elt F)),
    binary main_v76 main_v75 main_v77 (Host.divf : (⟨S1x2048, .f32⟩ : BufTy).Contents (Elt F) → (⟨S1x2048, .f32⟩ : BufTy).Contents (Elt F) → (⟨S1x2048, .f32⟩ : BufTy).Contents (Elt F)),
    binary main_v70 main_v45 main_v78 (mulf : (⟨S1x2048, .f32⟩ : BufTy).Contents (Elt F) → (⟨S1x2048, .f32⟩ : BufTy).Contents (Elt F) → (⟨S1x2048, .f32⟩ : BufTy).Contents (Elt F)),
    binary main_v64 main_v71 main_v79 (mulf : (⟨S1x2048, .f32⟩ : BufTy).Contents (Elt F) → (⟨S1x2048, .f32⟩ : BufTy).Contents (Elt F) → (⟨S1x2048, .f32⟩ : BufTy).Contents (Elt F)),
    binary main_v78 main_v79 main_v80 (addf : (⟨S1x2048, .f32⟩ : BufTy).Contents (Elt F) → (⟨S1x2048, .f32⟩ : BufTy).Contents (Elt F) → (⟨S1x2048, .f32⟩ : BufTy).Contents (Elt F)),
    unary main_v80 main_v81 (Host.tanh : (⟨S1x2048, .f32⟩ : BufTy).Contents (Elt F) → (⟨S1x2048, .f32⟩ : BufTy).Contents (Elt F)),
    binary main_v77 main_v81 main_v82 (mulf : (⟨S1x2048, .f32⟩ : BufTy).Contents (Elt F) → (⟨S1x2048, .f32⟩ : BufTy).Contents (Elt F) → (⟨S1x2048, .f32⟩ : BufTy).Contents (Elt F)) ]

/-- The read-out, the logarithm of the softmax and the stacking. -/
abbrev opsC : List (HloOp τ sig (Elt F)) :=
  [ binary main_arg0 main_v82 main_v83 ((fun a b => concatenate S1x3072 1 [⟨S1x1024, a⟩, ⟨S1x2048, b⟩] concatenates_S1x1024_S1x2048_S1x3072_d1) : (⟨S1x1024, .f32⟩ : BufTy).Contents (Elt F) → (⟨S1x2048, .f32⟩ : BufTy).Contents (Elt F) → (⟨S1x3072, .f32⟩ : BufTy).Contents (Elt F)),
    unary main_arg12 main_v84 ((transpose S3072x32000 [1, 0] · transposes_S32000x3072_S3072x32000_1_0) : (⟨S32000x3072, .f32⟩ : BufTy).Contents (Elt F) → (⟨S3072x32000, .f32⟩ : BufTy).Contents (Elt F)),
    binary main_v83 main_v84 main_v85 ((fun l r => Host.dotGeneral dot_S1x3072_S3072x32000_S1x32000_1_0_0_1_n_n none l r) : (⟨S1x3072, .f32⟩ : BufTy).Contents (Elt F) → (⟨S3072x32000, .f32⟩ : BufTy).Contents (Elt F) → (⟨S1x32000, .f32⟩ : BufTy).Contents (Elt F)),
    unary main_arg13 main_v86 (broadcastInDim S1x32000 ![1] bcast_S32000_S1x32000_1 : (⟨S32000, .f32⟩ : BufTy).Contents (Elt F) → (⟨S1x32000, .f32⟩ : BufTy).Contents (Elt F)),
    binary main_v85 main_v86 main_v87 (addf : (⟨S1x32000, .f32⟩ : BufTy).Contents (Elt F) → (⟨S1x32000, .f32⟩ : BufTy).Contents (Elt F) → (⟨S1x32000, .f32⟩ : BufTy).Contents (Elt F)),
    TRef.nullary (TRef.of (T := ⟨S_, .f32⟩) main_call0_cst) (constant S_ .f32 0xFF800000#32),
    TRef.binary (TRef.of (T := ⟨S1x32000, .f32⟩) main_v87) (TRef.of (T := ⟨S_, .f32⟩) main_call0_cst) (TRef.of (T := ⟨S1, .f32⟩) main_call0_v0) (fun x v => Host.reduce FloatOps.maximumf x v reducesTo_S1x32000_S1_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1, .f32⟩) main_call0_v1) (broadcastInDim S1 ![] bcast_S_S1),
    TRef.binary (TRef.of (T := ⟨S1, .f32⟩) main_call0_v1) (TRef.of (T := ⟨S1, .f32⟩) main_call0_v0) (TRef.of (T := ⟨S1, .f32⟩) main_call0_v2) maximumf,
    TRef.unary (TRef.of (T := ⟨S1, .f32⟩) main_call0_v2) (TRef.of (T := ⟨S1x1, .f32⟩) main_call0_v3) (broadcastInDim S1x1 ![0] bcast_S1_S1x1_0),
    TRef.unary (TRef.of (T := ⟨S1x1, .f32⟩) main_call0_v3) (TRef.of (T := ⟨S1x32000, .f32⟩) main_call0_v4) (broadcastInDim S1x32000 ![0, 1] bcast_S1x1_S1x32000_0_1),
    TRef.binary (TRef.of (T := ⟨S1x32000, .f32⟩) main_v87) (TRef.of (T := ⟨S1x32000, .f32⟩) main_call0_v4) (TRef.of (T := ⟨S1x32000, .f32⟩) main_call0_v5) subf,
    TRef.unary (TRef.of (T := ⟨S1x32000, .f32⟩) main_call0_v5) (TRef.of (T := ⟨S1x32000, .f32⟩) main_call0_v6) Host.exp,
    TRef.nullary (TRef.of (T := ⟨S_, .f32⟩) main_call0_cst_1) (constant S_ .f32 0x00000000#32),
    TRef.binary (TRef.of (T := ⟨S1x32000, .f32⟩) main_call0_v6) (TRef.of (T := ⟨S_, .f32⟩) main_call0_cst_1) (TRef.of (T := ⟨S1, .f32⟩) main_call0_v7) (fun x v => Host.reduceAdd x v reducesTo_S1x32000_S1_d1 h_S_),
    TRef.unary (TRef.of (T := ⟨S1, .f32⟩) main_call0_v7) (TRef.of (T := ⟨S1x1, .f32⟩) main_call0_v8) (broadcastInDim S1x1 ![0] bcast_S1_S1x1_0),
    TRef.unary (TRef.of (T := ⟨S1x1, .f32⟩) main_call0_v8) (TRef.of (T := ⟨S1x1, .f32⟩) main_call0_v9) Host.log,
    TRef.unary (TRef.of (T := ⟨S1x1, .f32⟩) main_call0_v9) (TRef.of (T := ⟨S1x32000, .f32⟩) main_call0_v10) (broadcastInDim S1x32000 ![0, 1] bcast_S1x1_S1x32000_0_1),
    TRef.binary (TRef.of (T := ⟨S1x32000, .f32⟩) main_call0_v5) (TRef.of (T := ⟨S1x32000, .f32⟩) main_call0_v10) (TRef.of (T := ⟨S1x32000, .f32⟩) main_v88) subf,
    unary main_v41 main_v89 (broadcastInDim S1x1x2048 ![1, 2] bcast_S1x2048_S1x1x2048_1_2 : (⟨S1x2048, .f32⟩ : BufTy).Contents (Elt F) → (⟨S1x1x2048, .f32⟩ : BufTy).Contents (Elt F)),
    unary main_v82 main_v90 (broadcastInDim S1x1x2048 ![1, 2] bcast_S1x2048_S1x1x2048_1_2 : (⟨S1x2048, .f32⟩ : BufTy).Contents (Elt F) → (⟨S1x1x2048, .f32⟩ : BufTy).Contents (Elt F)),
    binary main_v89 main_v90 main_v91 ((fun a b => concatenate S2x1x2048 0 [⟨S1x1x2048, a⟩, ⟨S1x1x2048, b⟩] concatenates_S1x1x2048_S1x1x2048_S2x1x2048_d0) : (⟨S1x1x2048, .f32⟩ : BufTy).Contents (Elt F) → (⟨S1x1x2048, .f32⟩ : BufTy).Contents (Elt F) → (⟨S2x1x2048, .f32⟩ : BufTy).Contents (Elt F)),
    unary main_v39 main_v92 (broadcastInDim S1x1x2048 ![1, 2] bcast_S1x2048_S1x1x2048_1_2 : (⟨S1x2048, .f32⟩ : BufTy).Contents (Elt F) → (⟨S1x1x2048, .f32⟩ : BufTy).Contents (Elt F)),
    unary main_v80 main_v93 (broadcastInDim S1x1x2048 ![1, 2] bcast_S1x2048_S1x1x2048_1_2 : (⟨S1x2048, .f32⟩ : BufTy).Contents (Elt F) → (⟨S1x1x2048, .f32⟩ : BufTy).Contents (Elt F)),
    binary main_v92 main_v93 main_v94 ((fun a b => concatenate S2x1x2048 0 [⟨S1x1x2048, a⟩, ⟨S1x1x2048, b⟩] concatenates_S1x1x2048_S1x1x2048_S2x1x2048_d0) : (⟨S1x1x2048, .f32⟩ : BufTy).Contents (Elt F) → (⟨S1x1x2048, .f32⟩ : BufTy).Contents (Elt F) → (⟨S2x1x2048, .f32⟩ : BufTy).Contents (Elt F)) ]

theorem ops_split : (ops : List (HloOp τ sig (Elt F))) = opsA ++ (opsB ++ opsC) := rfl

variable (V : Valuation τ sig (Elt Ideal))

/-! ## The first stretch -/

theorem A_v41 : after (opsA (F := Ideal)) V (Proc.devRef .tc main_v41)
    = refH (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7)) := by
  after_results_simp <;> rfl
theorem A_v39 : after (opsA (F := Ideal)) V (Proc.devRef .tc main_v39)
    = refC (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7)) := by
  after_results_simp <;> rfl
theorem A_arg0 : after (opsA (F := Ideal)) V (Proc.devRef .tc main_arg0) = (V (Proc.devRef .tc main_arg0)) := by after_results_simp <;> rfl
theorem A_arg1 : after (opsA (F := Ideal)) V (Proc.devRef .tc main_arg1) = (V (Proc.devRef .tc main_arg1)) := by after_results_simp <;> rfl
theorem A_arg2 : after (opsA (F := Ideal)) V (Proc.devRef .tc main_arg2) = (V (Proc.devRef .tc main_arg2)) := by after_results_simp <;> rfl
theorem A_arg3 : after (opsA (F := Ideal)) V (Proc.devRef .tc main_arg3) = (V (Proc.devRef .tc main_arg3)) := by after_results_simp <;> rfl
theorem A_arg4 : after (opsA (F := Ideal)) V (Proc.devRef .tc main_arg4) = (V (Proc.devRef .tc main_arg4)) := by after_results_simp <;> rfl
theorem A_arg5 : after (opsA (F := Ideal)) V (Proc.devRef .tc main_arg5) = (V (Proc.devRef .tc main_arg5)) := by after_results_simp <;> rfl
theorem A_arg6 : after (opsA (F := Ideal)) V (Proc.devRef .tc main_arg6) = (V (Proc.devRef .tc main_arg6)) := by after_results_simp <;> rfl
theorem A_arg7 : after (opsA (F := Ideal)) V (Proc.devRef .tc main_arg7) = (V (Proc.devRef .tc main_arg7)) := by after_results_simp <;> rfl
theorem A_arg8 : after (opsA (F := Ideal)) V (Proc.devRef .tc main_arg8) = (V (Proc.devRef .tc main_arg8)) := by after_results_simp <;> rfl
theorem A_arg9 : after (opsA (F := Ideal)) V (Proc.devRef .tc main_arg9) = (V (Proc.devRef .tc main_arg9)) := by after_results_simp <;> rfl
theorem A_arg10 : after (opsA (F := Ideal)) V (Proc.devRef .tc main_arg10) = (V (Proc.devRef .tc main_arg10)) := by after_results_simp <;> rfl
theorem A_arg11 : after (opsA (F := Ideal)) V (Proc.devRef .tc main_arg11) = (V (Proc.devRef .tc main_arg11)) := by after_results_simp <;> rfl
theorem A_arg12 : after (opsA (F := Ideal)) V (Proc.devRef .tc main_arg12) = (V (Proc.devRef .tc main_arg12)) := by after_results_simp <;> rfl
theorem A_arg13 : after (opsA (F := Ideal)) V (Proc.devRef .tc main_arg13) = (V (Proc.devRef .tc main_arg13)) := by after_results_simp <;> rfl

/-! ## The second stretch -/

theorem B_v82 : after (opsB (F := Ideal)) V (Proc.devRef .tc main_v82)
    = refH (V (Proc.devRef .tc main_v41)) (shapeCast S1x2048 (extractStridedSlice S1x1x2048 ![1, 0, 0] (V (Proc.devRef .tc main_arg2)) slices_S2x1x2048_S1x1x2048_1_0_0) shapeCasts_S1x1x2048_S1x2048) (shapeCast S1x2048 (extractStridedSlice S1x1x2048 ![1, 0, 0] (V (Proc.devRef .tc main_arg3)) slices_S2x1x2048_S1x1x2048_1_0_0) shapeCasts_S1x1x2048_S1x2048) (V (Proc.devRef .tc main_arg8)) (V (Proc.devRef .tc main_arg9)) (V (Proc.devRef .tc main_arg10)) (V (Proc.devRef .tc main_arg11)) := by
  after_results_simp <;> rfl
theorem B_v80 : after (opsB (F := Ideal)) V (Proc.devRef .tc main_v80)
    = refC (V (Proc.devRef .tc main_v41)) (shapeCast S1x2048 (extractStridedSlice S1x1x2048 ![1, 0, 0] (V (Proc.devRef .tc main_arg2)) slices_S2x1x2048_S1x1x2048_1_0_0) shapeCasts_S1x1x2048_S1x2048) (shapeCast S1x2048 (extractStridedSlice S1x1x2048 ![1, 0, 0] (V (Proc.devRef .tc main_arg3)) slices_S2x1x2048_S1x1x2048_1_0_0) shapeCasts_S1x1x2048_S1x2048) (V (Proc.devRef .tc main_arg8)) (V (Proc.devRef .tc main_arg9)) (V (Proc.devRef .tc main_arg10)) (V (Proc.devRef .tc main_arg11)) := by
  after_results_simp <;> rfl
theorem B_v41 : after (opsB (F := Ideal)) V (Proc.devRef .tc main_v41) = (V (Proc.devRef .tc main_v41)) := by after_results_simp <;> rfl
theorem B_v39 : after (opsB (F := Ideal)) V (Proc.devRef .tc main_v39) = (V (Proc.devRef .tc main_v39)) := by after_results_simp <;> rfl
theorem B_arg0 : after (opsB (F := Ideal)) V (Proc.devRef .tc main_arg0) = (V (Proc.devRef .tc main_arg0)) := by after_results_simp <;> rfl
theorem B_arg1 : after (opsB (F := Ideal)) V (Proc.devRef .tc main_arg1) = (V (Proc.devRef .tc main_arg1)) := by after_results_simp <;> rfl
theorem B_arg2 : after (opsB (F := Ideal)) V (Proc.devRef .tc main_arg2) = (V (Proc.devRef .tc main_arg2)) := by after_results_simp <;> rfl
theorem B_arg3 : after (opsB (F := Ideal)) V (Proc.devRef .tc main_arg3) = (V (Proc.devRef .tc main_arg3)) := by after_results_simp <;> rfl
theorem B_arg4 : after (opsB (F := Ideal)) V (Proc.devRef .tc main_arg4) = (V (Proc.devRef .tc main_arg4)) := by after_results_simp <;> rfl
theorem B_arg5 : after (opsB (F := Ideal)) V (Proc.devRef .tc main_arg5) = (V (Proc.devRef .tc main_arg5)) := by after_results_simp <;> rfl
theorem B_arg6 : after (opsB (F := Ideal)) V (Proc.devRef .tc main_arg6) = (V (Proc.devRef .tc main_arg6)) := by after_results_simp <;> rfl
theorem B_arg7 : after (opsB (F := Ideal)) V (Proc.devRef .tc main_arg7) = (V (Proc.devRef .tc main_arg7)) := by after_results_simp <;> rfl
theorem B_arg8 : after (opsB (F := Ideal)) V (Proc.devRef .tc main_arg8) = (V (Proc.devRef .tc main_arg8)) := by after_results_simp <;> rfl
theorem B_arg9 : after (opsB (F := Ideal)) V (Proc.devRef .tc main_arg9) = (V (Proc.devRef .tc main_arg9)) := by after_results_simp <;> rfl
theorem B_arg10 : after (opsB (F := Ideal)) V (Proc.devRef .tc main_arg10) = (V (Proc.devRef .tc main_arg10)) := by after_results_simp <;> rfl
theorem B_arg11 : after (opsB (F := Ideal)) V (Proc.devRef .tc main_arg11) = (V (Proc.devRef .tc main_arg11)) := by after_results_simp <;> rfl
theorem B_arg12 : after (opsB (F := Ideal)) V (Proc.devRef .tc main_arg12) = (V (Proc.devRef .tc main_arg12)) := by after_results_simp <;> rfl
theorem B_arg13 : after (opsB (F := Ideal)) V (Proc.devRef .tc main_arg13) = (V (Proc.devRef .tc main_arg13)) := by after_results_simp <;> rfl

/-! ## The third stretch -/

theorem C_v88 : after (opsC (F := Ideal)) V (Proc.devRef .tc main_v88)
    = hostLSM (refLin (concatenate S1x3072 1 [⟨S1x1024, (V (Proc.devRef .tc main_arg0))⟩, ⟨S1x2048, (V (Proc.devRef .tc main_v82))⟩] concatenates_S1x1024_S1x2048_S1x3072_d1) (V (Proc.devRef .tc main_arg12)) (V (Proc.devRef .tc main_arg13))) := by
  after_results_simp
  simp only [Cert.Lib.TypedRefs.ofBuf_toBuf]
  rfl
theorem C_v91 : after (opsC (F := Ideal)) V (Proc.devRef .tc main_v91) = concatenate S2x1x2048 0 [⟨S1x1x2048, (broadcastInDim S1x1x2048 ![1, 2] bcast_S1x2048_S1x1x2048_1_2 (V (Proc.devRef .tc main_v41)))⟩, ⟨S1x1x2048, (broadcastInDim S1x1x2048 ![1, 2] bcast_S1x2048_S1x1x2048_1_2 (V (Proc.devRef .tc main_v82)))⟩] concatenates_S1x1x2048_S1x1x2048_S2x1x2048_d0 := by
  after_results_simp <;> rfl
theorem C_v94 : after (opsC (F := Ideal)) V (Proc.devRef .tc main_v94) = concatenate S2x1x2048 0 [⟨S1x1x2048, (broadcastInDim S1x1x2048 ![1, 2] bcast_S1x2048_S1x1x2048_1_2 (V (Proc.devRef .tc main_v39)))⟩, ⟨S1x1x2048, (broadcastInDim S1x1x2048 ![1, 2] bcast_S1x2048_S1x1x2048_1_2 (V (Proc.devRef .tc main_v80)))⟩] concatenates_S1x1x2048_S1x1x2048_S2x1x2048_d0 := by
  after_results_simp <;> rfl
theorem C_arg0 : after (opsC (F := Ideal)) V (Proc.devRef .tc main_arg0) = (V (Proc.devRef .tc main_arg0)) := by after_results_simp <;> rfl
theorem C_arg1 : after (opsC (F := Ideal)) V (Proc.devRef .tc main_arg1) = (V (Proc.devRef .tc main_arg1)) := by after_results_simp <;> rfl
theorem C_arg2 : after (opsC (F := Ideal)) V (Proc.devRef .tc main_arg2) = (V (Proc.devRef .tc main_arg2)) := by after_results_simp <;> rfl
theorem C_arg3 : after (opsC (F := Ideal)) V (Proc.devRef .tc main_arg3) = (V (Proc.devRef .tc main_arg3)) := by after_results_simp <;> rfl
theorem C_arg4 : after (opsC (F := Ideal)) V (Proc.devRef .tc main_arg4) = (V (Proc.devRef .tc main_arg4)) := by after_results_simp <;> rfl
theorem C_arg5 : after (opsC (F := Ideal)) V (Proc.devRef .tc main_arg5) = (V (Proc.devRef .tc main_arg5)) := by after_results_simp <;> rfl
theorem C_arg6 : after (opsC (F := Ideal)) V (Proc.devRef .tc main_arg6) = (V (Proc.devRef .tc main_arg6)) := by after_results_simp <;> rfl
theorem C_arg7 : after (opsC (F := Ideal)) V (Proc.devRef .tc main_arg7) = (V (Proc.devRef .tc main_arg7)) := by after_results_simp <;> rfl
theorem C_arg8 : after (opsC (F := Ideal)) V (Proc.devRef .tc main_arg8) = (V (Proc.devRef .tc main_arg8)) := by after_results_simp <;> rfl
theorem C_arg9 : after (opsC (F := Ideal)) V (Proc.devRef .tc main_arg9) = (V (Proc.devRef .tc main_arg9)) := by after_results_simp <;> rfl
theorem C_arg10 : after (opsC (F := Ideal)) V (Proc.devRef .tc main_arg10) = (V (Proc.devRef .tc main_arg10)) := by after_results_simp <;> rfl
theorem C_arg11 : after (opsC (F := Ideal)) V (Proc.devRef .tc main_arg11) = (V (Proc.devRef .tc main_arg11)) := by after_results_simp <;> rfl
theorem C_arg12 : after (opsC (F := Ideal)) V (Proc.devRef .tc main_arg12) = (V (Proc.devRef .tc main_arg12)) := by after_results_simp <;> rfl
theorem C_arg13 : after (opsC (F := Ideal)) V (Proc.devRef .tc main_arg13) = (V (Proc.devRef .tc main_arg13)) := by after_results_simp <;> rfl

/-! ## The whole line -/

theorem all_arg0 : after (ops (F := Ideal)) V (Proc.devRef .tc main_arg0) = (V (Proc.devRef .tc main_arg0)) := by
  rw [ops_split, after_append, after_append, C_arg0, B_arg0, A_arg0]
theorem all_arg1 : after (ops (F := Ideal)) V (Proc.devRef .tc main_arg1) = (V (Proc.devRef .tc main_arg1)) := by
  rw [ops_split, after_append, after_append, C_arg1, B_arg1, A_arg1]
theorem all_arg2 : after (ops (F := Ideal)) V (Proc.devRef .tc main_arg2) = (V (Proc.devRef .tc main_arg2)) := by
  rw [ops_split, after_append, after_append, C_arg2, B_arg2, A_arg2]
theorem all_arg3 : after (ops (F := Ideal)) V (Proc.devRef .tc main_arg3) = (V (Proc.devRef .tc main_arg3)) := by
  rw [ops_split, after_append, after_append, C_arg3, B_arg3, A_arg3]
theorem all_arg4 : after (ops (F := Ideal)) V (Proc.devRef .tc main_arg4) = (V (Proc.devRef .tc main_arg4)) := by
  rw [ops_split, after_append, after_append, C_arg4, B_arg4, A_arg4]
theorem all_arg5 : after (ops (F := Ideal)) V (Proc.devRef .tc main_arg5) = (V (Proc.devRef .tc main_arg5)) := by
  rw [ops_split, after_append, after_append, C_arg5, B_arg5, A_arg5]
theorem all_arg6 : after (ops (F := Ideal)) V (Proc.devRef .tc main_arg6) = (V (Proc.devRef .tc main_arg6)) := by
  rw [ops_split, after_append, after_append, C_arg6, B_arg6, A_arg6]
theorem all_arg7 : after (ops (F := Ideal)) V (Proc.devRef .tc main_arg7) = (V (Proc.devRef .tc main_arg7)) := by
  rw [ops_split, after_append, after_append, C_arg7, B_arg7, A_arg7]
theorem all_arg8 : after (ops (F := Ideal)) V (Proc.devRef .tc main_arg8) = (V (Proc.devRef .tc main_arg8)) := by
  rw [ops_split, after_append, after_append, C_arg8, B_arg8, A_arg8]
theorem all_arg9 : after (ops (F := Ideal)) V (Proc.devRef .tc main_arg9) = (V (Proc.devRef .tc main_arg9)) := by
  rw [ops_split, after_append, after_append, C_arg9, B_arg9, A_arg9]
theorem all_arg10 : after (ops (F := Ideal)) V (Proc.devRef .tc main_arg10) = (V (Proc.devRef .tc main_arg10)) := by
  rw [ops_split, after_append, after_append, C_arg10, B_arg10, A_arg10]
theorem all_arg11 : after (ops (F := Ideal)) V (Proc.devRef .tc main_arg11) = (V (Proc.devRef .tc main_arg11)) := by
  rw [ops_split, after_append, after_append, C_arg11, B_arg11, A_arg11]
theorem all_arg12 : after (ops (F := Ideal)) V (Proc.devRef .tc main_arg12) = (V (Proc.devRef .tc main_arg12)) := by
  rw [ops_split, after_append, after_append, C_arg12, B_arg12, A_arg12]
theorem all_arg13 : after (ops (F := Ideal)) V (Proc.devRef .tc main_arg13) = (V (Proc.devRef .tc main_arg13)) := by
  rw [ops_split, after_append, after_append, C_arg13, B_arg13, A_arg13]

/-! ## The three results, from the contents the line starts from -/

theorem all_v91 : after (ops (F := Ideal)) V (Proc.devRef .tc main_v91) = concatenate S2x1x2048 0 [⟨S1x1x2048, (broadcastInDim S1x1x2048 ![1, 2] bcast_S1x2048_S1x1x2048_1_2 (refH (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7))))⟩, ⟨S1x1x2048, (broadcastInDim S1x1x2048 ![1, 2] bcast_S1x2048_S1x1x2048_1_2 (refH (refH (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7))) (shapeCast S1x2048 (extractStridedSlice S1x1x2048 ![1, 0, 0] (V (Proc.devRef .tc main_arg2)) slices_S2x1x2048_S1x1x2048_1_0_0) shapeCasts_S1x1x2048_S1x2048) (shapeCast S1x2048 (extractStridedSlice S1x1x2048 ![1, 0, 0] (V (Proc.devRef .tc main_arg3)) slices_S2x1x2048_S1x1x2048_1_0_0) shapeCasts_S1x1x2048_S1x2048) (V (Proc.devRef .tc main_arg8)) (V (Proc.devRef .tc main_arg9)) (V (Proc.devRef .tc main_arg10)) (V (Proc.devRef .tc main_arg11))))⟩] concatenates_S1x1x2048_S1x1x2048_S2x1x2048_d0 := by
  rw [ops_split, after_append, after_append, C_v91, B_v41, B_v82, A_v41, A_arg2, A_arg3, A_arg8, A_arg9, A_arg10, A_arg11]

theorem all_v94 : after (ops (F := Ideal)) V (Proc.devRef .tc main_v94) = concatenate S2x1x2048 0 [⟨S1x1x2048, (broadcastInDim S1x1x2048 ![1, 2] bcast_S1x2048_S1x1x2048_1_2 (refC (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7))))⟩, ⟨S1x1x2048, (broadcastInDim S1x1x2048 ![1, 2] bcast_S1x2048_S1x1x2048_1_2 (refC (refH (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7))) (shapeCast S1x2048 (extractStridedSlice S1x1x2048 ![1, 0, 0] (V (Proc.devRef .tc main_arg2)) slices_S2x1x2048_S1x1x2048_1_0_0) shapeCasts_S1x1x2048_S1x2048) (shapeCast S1x2048 (extractStridedSlice S1x1x2048 ![1, 0, 0] (V (Proc.devRef .tc main_arg3)) slices_S2x1x2048_S1x1x2048_1_0_0) shapeCasts_S1x1x2048_S1x2048) (V (Proc.devRef .tc main_arg8)) (V (Proc.devRef .tc main_arg9)) (V (Proc.devRef .tc main_arg10)) (V (Proc.devRef .tc main_arg11))))⟩] concatenates_S1x1x2048_S1x1x2048_S2x1x2048_d0 := by
  rw [ops_split, after_append, after_append, C_v94, B_v39, B_v80, A_v39, A_v41, A_arg2, A_arg3, A_arg8, A_arg9, A_arg10, A_arg11]

theorem all_v88 : after (ops (F := Ideal)) V (Proc.devRef .tc main_v88)
    = hostLSM (refLin (concatenate S1x3072 1 [⟨S1x1024, (V (Proc.devRef .tc main_arg0))⟩, ⟨S1x2048, (refH (refH (concatenate S1x2048 1 [⟨S1x1024, (V (Proc.devRef .tc main_arg0))⟩, ⟨S1x1024, (V (Proc.devRef .tc main_arg1))⟩] concatenates_S1x1024_S1x1024_S1x2048_d1) (shapeCast S1x2048 (extractStridedSlice S1x1x2048 ![0, 0, 0] (V (Proc.devRef .tc main_arg2)) slices_S2x1x2048_S1x1x2048_0_0_0) shapeCasts_S1x1x2048_S1x2048) (shapeCast S1x2048 (extractStridedSlice S1x1x2048 ![0, 0, 0] (V (Proc.devRef .tc main_arg3)) slices_S2x1x2048_S1x1x2048_0_0_0) shapeCasts_S1x1x2048_S1x2048) (V (Proc.devRef .tc main_arg4)) (V (Proc.devRef .tc main_arg5)) (V (Proc.devRef .tc main_arg6)) (V (Proc.devRef .tc main_arg7))) (shapeCast S1x2048 (extractStridedSlice S1x1x2048 ![1, 0, 0] (V (Proc.devRef .tc main_arg2)) slices_S2x1x2048_S1x1x2048_1_0_0) shapeCasts_S1x1x2048_S1x2048) (shapeCast S1x2048 (extractStridedSlice S1x1x2048 ![1, 0, 0] (V (Proc.devRef .tc main_arg3)) slices_S2x1x2048_S1x1x2048_1_0_0) shapeCasts_S1x1x2048_S1x2048) (V (Proc.devRef .tc main_arg8)) (V (Proc.devRef .tc main_arg9)) (V (Proc.devRef .tc main_arg10)) (V (Proc.devRef .tc main_arg11)))⟩] concatenates_S1x1024_S1x2048_S1x3072_d1) (V (Proc.devRef .tc main_arg12)) (V (Proc.devRef .tc main_arg13))) := by
  rw [ops_split, after_append, after_append, C_v88, B_arg0, B_v82, B_arg12, B_arg13, A_arg0, A_v41, A_arg2, A_arg3, A_arg8, A_arg9,
    A_arg10, A_arg11, A_arg12, A_arg13]

/-! ## The run -/

/-- Every weakly fair execution of the reference ends, without a fault, with its three results at the program's three
    result functions of the arguments, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = Cert.Whole.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v91) = Cert.Whole.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v94) = Cert.Whole.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_v88).trans ((all_v88 (launchContents m c)).trans (by rw [hostLSM_eq, refLin_eq, refH_eq, refH_eq]; rfl)),
     (h c main_v91).trans ((all_v91 (launchContents m c)).trans (by rw [refH_eq, refH_eq]; rfl)),
     (h c main_v94).trans ((all_v94 (launchContents m c)).trans (by rw [refC_eq, refC_eq, refH_eq]; rfl)),
     (h c main_arg0).trans ((all_arg0 (launchContents m c)).trans rfl),
     (h c main_arg1).trans ((all_arg1 (launchContents m c)).trans rfl),
     (h c main_arg2).trans ((all_arg2 (launchContents m c)).trans rfl),
     (h c main_arg3).trans ((all_arg3 (launchContents m c)).trans rfl),
     (h c main_arg4).trans ((all_arg4 (launchContents m c)).trans rfl),
     (h c main_arg5).trans ((all_arg5 (launchContents m c)).trans rfl),
     (h c main_arg6).trans ((all_arg6 (launchContents m c)).trans rfl),
     (h c main_arg7).trans ((all_arg7 (launchContents m c)).trans rfl),
     (h c main_arg8).trans ((all_arg8 (launchContents m c)).trans rfl),
     (h c main_arg9).trans ((all_arg9 (launchContents m c)).trans rfl),
     (h c main_arg10).trans ((all_arg10 (launchContents m c)).trans rfl),
     (h c main_arg11).trans ((all_arg11 (launchContents m c)).trans rfl),
     (h c main_arg12).trans ((all_arg12 (launchContents m c)).trans rfl),
     (h c main_arg13).trans ((all_arg13 (launchContents m c)).trans rfl)⟩)
    (run_seq scopedRefs_eq scopedSems_eq defs main (fun _ => ops) main_eq (fun _ => ops_sub) m ρ)

end Cert.ReferenceIdeal.RefValue

end
-- ==== Proof.lean ====
/- The proof of `Cert.Claim` (proofs.«173036_j7464653160860_2_alg».proof.Defs): one step of a two-layer LSTM with a linear
   read-out and a logarithm of the softmax, as four kernel launches, against the plain jnp program.

   On the extended reals both programs compute the same three functions of the fourteen argument arrays
   (Proof/WholeSpec.lean over Proof/LstmSpec.lean): the kernel's matrix products into zero accumulators and the
   reference's dot_general against transposed weights are the same inner products, the kernel's logistic operation and the
   reference's 1 / (1 + exp (−v)) are the same function, the four contributions of a gate's pre-activation are added in
   two different orders (addition is commutative and associative, infinities included, so the precondition is never
   opened), and the two spellings of the logarithm of the softmax group the same way. The kernel's side is read off its
   run launch by launch (Proof/KRegion0…3.lean, Proof/KValue.lean over Proof/KRun.lean), the reference's off its run's
   result terms (Proof/RefRunFast.lean over Proof/RefCell.lean). The ideal pass rewrote nothing, so `preserves` is trivial. -/
import proofs.«173036_j7464653160860_2_alg».proof.Defs
import proofs.«173036_j7464653160860_2_alg».proof.Proof.Gen.Kernel
import proofs.«173036_j7464653160860_2_alg».proof.Proof.Gen.Kernel.Skeleton
import proofs.«173036_j7464653160860_2_alg».proof.Proof.Gen.Kernel.Launch
import proofs.«173036_j7464653160860_2_alg».proof.Proof.Gen.Kernel.Points
import proofs.«173036_j7464653160860_2_alg».proof.Proof.Gen.Kernel.Frame
import proofs.«173036_j7464653160860_2_alg».proof.Proof.Gen.KernelIdeal
import proofs.«173036_j7464653160860_2_alg».proof.Proof.Gen.KernelIdeal.Skeleton
import proofs.«173036_j7464653160860_2_alg».proof.Proof.Gen.KernelIdeal.Launch
import proofs.«173036_j7464653160860_2_alg».proof.Proof.Gen.KernelIdeal.Points
import proofs.«173036_j7464653160860_2_alg».proof.Proof.Gen.KernelIdeal.Frame
import proofs.«173036_j7464653160860_2_alg».proof.Proof.Gen.ReferenceIdeal
import proofs.«173036_j7464653160860_2_alg».proof.Proof.Gen.Pre_finite_inputs
import proofs.«173036_j7464653160860_2_alg».proof.Proof.KValue
import proofs.«173036_j7464653160860_2_alg».proof.Proof.RefRunFast
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2.2) (Cert.ReferenceIdeal.RefValue.run m ρ)

/-- From memories agreeing on the arguments both programs end with the three result functions of those arguments. -/
theorem algebraic : Cert.algebraic_KernelIdeal_ReferenceIdeal := by
  intro m ρ m' ρ' _ hagree
  refine ⟨fun c => Cert.Whole.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Whole.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Whole.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ?_) (Cert.ReferenceIdeal.RefValue.run m' ρ')
  obtain ⟨e0, e1, e2, e3, e4, e5, e6, e7, e8, e9, e10, e11, e12, e13⟩ := hagree c
  obtain ⟨h0, h1, h2, hargs⟩ := h c
  refine ⟨h0.trans ?_, h1.trans ?_, h2.trans ?_, hargs⟩
  · rw [e0, e1, e2, e3, e4, e5, e6, e7, e8, e9, e10, e11, e12, e13]
  · rw [e0, e1, e2, e3, e4, e5, e6, e7, e8, e9, e10, e11]
  · rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
